-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1920x512 : Shape := ⟨2, ![1920, 512]⟩
abbrev S1920x64x256 : Shape := ⟨3, ![1920, 64, 256]⟩
abbrev S512x256 : Shape := ⟨2, ![512, 256]⟩
abbrev S256x512 : Shape := ⟨2, ![256, 512]⟩
abbrev S512x512 : Shape := ⟨2, ![512, 512]⟩
abbrev S_ : Shape := ⟨0, ![]⟩

class Facts : Prop where
  bcast_S_S1920x512 : S_.BroadcastsInDim S1920x512 (![] : Fin 0 → Fin S1920x512.rank)
  reducesTo_S1920x512_S_d0_1 : S1920x512.ReducesTo [0, 1] S_
  h_S_ : 0 < S_.numel
  bcast_S_S1920x64x256 : S_.BroadcastsInDim S1920x64x256 (![] : Fin 0 → Fin S1920x64x256.rank)
  reducesTo_S1920x64x256_S_d0_1_2 : S1920x64x256.ReducesTo [0, 1, 2] S_
  bcast_S_S512x256 : S_.BroadcastsInDim S512x256 (![] : Fin 0 → Fin S512x256.rank)
  reducesTo_S512x256_S_d0_1 : S512x256.ReducesTo [0, 1] S_
  bcast_S_S256x512 : S_.BroadcastsInDim S256x512 (![] : Fin 0 → Fin S256x512.rank)
  reducesTo_S256x512_S_d0_1 : S256x512.ReducesTo [0, 1] S_
  bcast_S_S512x512 : S_.BroadcastsInDim S512x512 (![] : Fin 0 → Fin S512x512.rank)
  reducesTo_S512x512_S_d0_1 : S512x512.ReducesTo [0, 1] S_

variable [Facts]

def fn_part1 {F : FTy → Type} [FloatOps F] (main_arg4 : FVec F S512x512 .f32) (main_v13 : IVec S_ 1) (main_v16 : IVec S256x512 1) : IVec S_ 1 :=
  let main_c_5 : IVec S_ 1 := constantI S_ 1 1#1
  let main_v17 : IVec S_ 1 := (fun x v => Host.reduce IntOp.andi x v reducesTo_S256x512_S_d0_1 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  main_v23

def fn {F : FTy → Type} [FloatOps F] (main_arg0 : FVec F S1920x512 .f32) (main_arg1 : FVec F S1920x64x256 .f32) (main_arg2 : FVec F S512x256 .f32) (main_arg3 : FVec F S256x512 .f32) (main_arg4 : FVec F S512x512 .f32) : IVec S_ 1 :=
  let main_v0 : FVec F S1920x512 .f32 := Host.absf main_arg0
  let main_cst : FVec F S_ .f32 := constant S_ .f32 0x7F800000#32
  let main_v1 : FVec F S1920x512 .f32 := broadcastInDim S1920x512 ![] bcast_S_S1920x512 main_cst
  let main_v2 : IVec S1920x512 1 := cmpf .olt main_v0 main_v1
  let main_c : IVec S_ 1 := constantI S_ 1 1#1
  let main_v3 : IVec S_ 1 := (fun x v => Host.reduce IntOp.andi x v reducesTo_S1920x512_S_d0_1 h_S_) main_v2 main_c
  let main_v4 : FVec F S1920x64x256 .f32 := Host.absf main_arg1
  let main_cst_0 : FVec F S_ .f32 := constant S_ .f32 0x7F800000#32
  let main_v5 : FVec F S1920x64x256 .f32 := broadcastInDim S1920x64x256 ![] bcast_S_S1920x64x256 main_cst_0
  let main_v6 : IVec S1920x64x256 1 := cmpf .olt main_v4 main_v5
  let main_c_1 : IVec S_ 1 := constantI S_ 1 1#1
  let main_v7 : IVec S_ 1 := (fun x v => Host.reduce IntOp.andi x v reducesTo_S1920x64x256_S_d0_1_2 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256x512 .f32 := Host.absf main_arg3
  let main_cst_4 : FVec F S_ .f32 := constant S_ .f32 0x7F800000#32
  let main_v15 : FVec F S256x512 .f32 := broadcastInDim S256x512 ![] bcast_S_S256x512 main_cst_4
  let main_v16 : IVec S256x512 1 := cmpf .olt main_v14 main_v15
  fn_part1 (F := F) main_arg4 main_v13 main_v16
-- ==== Kernel.lean ====
abbrev S1920x512 : Shape := ⟨2, ![1920, 512]⟩
abbrev S1920x64x256 : Shape := ⟨3, ![1920, 64, 256]⟩
abbrev S512x256 : Shape := ⟨2, ![512, 256]⟩
abbrev S256x512 : Shape := ⟨2, ![256, 512]⟩
abbrev S512x512 : Shape := ⟨2, ![512, 512]⟩
abbrev S1920x64 : Shape := ⟨2, ![1920, 64]⟩
abbrev S240x512 : Shape := ⟨2, ![240, 512]⟩
abbrev S240x64x256 : Shape := ⟨3, ![240, 64, 256]⟩
abbrev S240x64 : Shape := ⟨2, ![240, 64]⟩
abbrev S240x256 : Shape := ⟨2, ![240, 256]⟩
abbrev S8x8 : Shape := ⟨2, ![8, 8]⟩
abbrev S8x64x256 : Shape := ⟨3, ![8, 64, 256]⟩
abbrev S8x256 : Shape := ⟨2, ![8, 256]⟩
abbrev S8x512 : Shape := ⟨2, ![8, 512]⟩
abbrev S8x8x64 : Shape := ⟨3, ![8, 8, 64]⟩
abbrev S8x8x1 : Shape := ⟨3, ![8, 8, 1]⟩
abbrev S8x64 : Shape := ⟨2, ![8, 64]⟩
abbrev S240 : Shape := ⟨1, ![240]⟩
abbrev S240x1 : Shape := ⟨2, ![240, 1]⟩
abbrev S8x1x64 : Shape := ⟨3, ![8, 1, 64]⟩

abbrev nBuf : Space → Nat
  | .hbm => 7
  | .vmem => 12
  | .smem => 0
  | _ => 0

abbrev bufTy : (tb : Table) → Fin (tcTables nBuf tb) → BufTy
  | .hbm, ⟨0, _⟩ => ⟨S1920x512, .f32⟩
  | .hbm, ⟨1, _⟩ => ⟨S1920x64x256, .f32⟩
  | .hbm, ⟨2, _⟩ => ⟨S512x256, .f32⟩
  | .hbm, ⟨3, _⟩ => ⟨S256x512, .f32⟩
  | .hbm, ⟨4, _⟩ => ⟨S512x512, .f32⟩
  | .hbm, ⟨5, _⟩ => ⟨S1920x512, .f32⟩
  | .hbm, ⟨6, _⟩ => ⟨S1920x64, .f32⟩
  | .local _ .vmem, ⟨0, _⟩ => ⟨S240x512, .f32⟩
  | .local _ .vmem, ⟨1, _⟩ => ⟨S240x512, .f32⟩
  | .local _ .vmem, ⟨2, _⟩ => ⟨S240x64x256, .f32⟩
  | .local _ .vmem, ⟨3, _⟩ => ⟨S240x64x256, .f32⟩
  | .local _ .vmem, ⟨4, _⟩ => ⟨S512x256, .f32⟩
  | .local _ .vmem, ⟨5, _⟩ => ⟨S256x512, .f32⟩
  | .local _ .vmem, ⟨6, _⟩ => ⟨S512x512, .f32⟩
  | .local _ .vmem, ⟨7, _⟩ => ⟨S240x512, .f32⟩
  | .local _ .vmem, ⟨8, _⟩ => ⟨S240x512, .f32⟩
  | .local _ .vmem, ⟨9, _⟩ => ⟨S240x64, .f32⟩
  | .local _ .vmem, ⟨10, _⟩ => ⟨S240x64, .f32⟩
  | .local _ .vmem, ⟨11, _⟩ => ⟨S240x256, .f32⟩
  | _, _ => ⟨S1920x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S240x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S240x64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S240x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S240x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  inb_S240x512_S240x512_0_0 : ∀ a, (![0, 0] : Fin 2 → Nat) a + S240x512.size a ≤ S240x512.size a
  h_S240x512 : 0 < S240x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  iota_S8x8_d0_w32 : S8x8.Iotas .tc 32 [0]
  iota_S8x8_d1_w32 : S8x8.Iotas .tc 32 [1]
  natLt_1_32 : 1 < 32
  inb_S240x64x256_S8x64x256_0_0_0 : ∀ a, (![0, 0, 0] : Fin 3 → Nat) a + S8x64x256.size a ≤ S240x64x256.size a
  h_S8x64x256 : 0 < S8x64x256.numel
  shapeCasts_S8x64x256_S512x256 : S8x64x256.ShapeCasts S512x256
  slices_S240x256_o0_0_S8x256 : S240x256.Slices ![0, 0] S8x256
  shapeCasts_S8x512_S8x8x64 : S8x512.ShapeCasts S8x8x64
  shapeCasts_S8x8_S8x8x1 : S8x8.ShapeCasts S8x8x1
  broadcasts_S8x8x1_S8x8x64 : S8x8x1.Broadcasts S8x8x64
  reduces_S8x8x64_S8x64 : S8x8x64.Reduces [0] S8x64
  inb_S240x64_S8x64_0_0 : ∀ a, (![0, 0] : Fin 2 → Nat) a + S8x64.size a ≤ S240x64.size a
  h_S8x64 : 0 < S8x64.numel
  inb_S240x64x256_S8x64x256_8_0_0 : ∀ a, (![8, 0, 0] : Fin 3 → Nat) a + S8x64x256.size a ≤ S240x64x256.size a
  slices_S240x256_o8_0_S8x256 : S240x256.Slices ![8, 0] S8x256
  inb_S240x64_S8x64_8_0 : ∀ a, (![8, 0] : Fin 2 → Nat) a + S8x64.size a ≤ S240x64.size a
  inb_S240x64x256_S8x64x256_16_0_0 : ∀ a, (![16, 0, 0] : Fin 3 → Nat) a + S8x64x256.size a ≤ S240x64x256.size a
  slices_S240x256_o16_0_S8x256 : S240x256.Slices ![16, 0] S8x256
  inb_S240x64_S8x64_16_0 : ∀ a, (![16, 0] : Fin 2 → Nat) a + S8x64.size a ≤ S240x64.size a
  inb_S240x64x256_S8x64x256_24_0_0 : ∀ a, (![24, 0, 0] : Fin 3 → Nat) a + S8x64x256.size a ≤ S240x64x256.size a
  slices_S240x256_o24_0_S8x256 : S240x256.Slices ![24, 0] S8x256
  inb_S240x64_S8x64_24_0 : ∀ a, (![24, 0] : Fin 2 → Nat) a + S8x64.size a ≤ S240x64.size a
  inb_S240x64x256_S8x64x256_32_0_0 : ∀ a, (![32, 0, 0] : Fin 3 → Nat) a + S8x64x256.size a ≤ S240x64x256.size a
  slices_S240x256_o32_0_S8x256 : S240x256.Slices ![32, 0] S8x256
  inb_S240x64_S8x64_32_0 : ∀ a, (![32, 0] : Fin 2 → Nat) a + S8x64.size a ≤ S240x64.size a
  inb_S240x64x256_S8x64x256_40_0_0 : ∀ a, (![40, 0, 0] : Fin 3 → Nat) a + S8x64x256.size a ≤ S240x64x256.size a
  slices_S240x256_o40_0_S8x256 : S240x256.Slices ![40, 0] S8x256
  inb_S240x64_S8x64_40_0 : ∀ a, (![40, 0] : Fin 2 → Nat) a + S8x64.size a ≤ S240x64.size a
  inb_S240x64x256_S8x64x256_48_0_0 : ∀ a, (![48, 0, 0] : Fin 3 → Nat) a + S8x64x256.size a ≤ S240x64x256.size a
  slices_S240x256_o48_0_S8x256 : S240x256.Slices ![48, 0] S8x256
  inb_S240x64_S8x64_48_0 : ∀ a, (![48, 0] : Fin 2 → Nat) a + S8x64.size a ≤ S240x64.size a
  inb_S240x64x256_S8x64x256_56_0_0 : ∀ a, (![56, 0, 0] : Fin 3 → Nat) a + S8x64x256.size a ≤ S240x64x256.size a
  slices_S240x256_o56_0_S8x256 : S240x256.Slices ![56, 0] S8x256
  inb_S240x64_S8x64_56_0 : ∀ a, (![56, 0] : Fin 2 → Nat) a + S8x64.size a ≤ S240x64.size a
  inb_S240x64x256_S8x64x256_64_0_0 : ∀ a, (![64, 0, 0] : Fin 3 → Nat) a + S8x64x256.size a ≤ S240x64x256.size a
  slices_S240x256_o64_0_S8x256 : S240x256.Slices ![64, 0] S8x256
  inb_S240x64_S8x64_64_0 : ∀ a, (![64, 0] : Fin 2 → Nat) a + S8x64.size a ≤ S240x64.size a
  inb_S240x64x256_S8x64x256_72_0_0 : ∀ a, (![72, 0, 0] : Fin 3 → Nat) a + S8x64x256.size a ≤ S240x64x256.size a
  slices_S240x256_o72_0_S8x256 : S240x256.Slices ![72, 0] S8x256
  inb_S240x64_S8x64_72_0 : ∀ a, (![72, 0] : Fin 2 → Nat) a + S8x64.size a ≤ S240x64.size a
  inb_S240x64x256_S8x64x256_80_0_0 : ∀ a, (![80, 0, 0] : Fin 3 → Nat) a + S8x64x256.size a ≤ S240x64x256.size a
  slices_S240x256_o80_0_S8x256 : S240x256.Slices ![80, 0] S8x256
  inb_S240x64_S8x64_80_0 : ∀ a, (![80, 0] : Fin 2 → Nat) a + S8x64.size a ≤ S240x64.size a
  inb_S240x64x256_S8x64x256_88_0_0 : ∀ a, (![88, 0, 0] : Fin 3 → Nat) a + S8x64x256.size a ≤ S240x64x256.size a
  slices_S240x256_o88_0_S8x256 : S240x256.Slices ![88, 0] S8x256
  inb_S240x64_S8x64_88_0 : ∀ a, (![88, 0] : Fin 2 → Nat) a + S8x64.size a ≤ S240x64.size a
  inb_S240x64x256_S8x64x256_96_0_0 : ∀ a, (![96, 0, 0] : Fin 3 → Nat) a + S8x64x256.size a ≤ S240x64x256.size a
  slices_S240x256_o96_0_S8x256 : S240x256.Slices ![96, 0] S8x256
  inb_S240x64_S8x64_96_0 : ∀ a, (![96, 0] : Fin 2 → Nat) a + S8x64.size a ≤ S240x64.size a
  inb_S240x64x256_S8x64x256_104_0_0 : ∀ a, (![104, 0, 0] : Fin 3 → Nat) a + S8x64x256.size a ≤ S240x64x256.size a
  slices_S240x256_o104_0_S8x256 : S240x256.Slices ![104, 0] S8x256
  inb_S240x64_S8x64_104_0 : ∀ a, (![104, 0] : Fin 2 → Nat) a + S8x64.size a ≤ S240x64.size a
  inb_S240x64x256_S8x64x256_112_0_0 : ∀ a, (![112, 0, 0] : Fin 3 → Nat) a + S8x64x256.size a ≤ S240x64x256.size a
  slices_S240x256_o112_0_S8x256 : S240x256.Slices ![112, 0] S8x256
  inb_S240x64_S8x64_112_0 : ∀ a, (![112, 0] : Fin 2 → Nat) a + S8x64.size a ≤ S240x64.size a
  inb_S240x64x256_S8x64x256_120_0_0 : ∀ a, (![120, 0, 0] : Fin 3 → Nat) a + S8x64x256.size a ≤ S240x64x256.size a
  slices_S240x256_o120_0_S8x256 : S240x256.Slices ![120, 0] S8x256
  inb_S240x64_S8x64_120_0 : ∀ a, (![120, 0] : Fin 2 → Nat) a + S8x64.size a ≤ S240x64.size a
  inb_S240x64x256_S8x64x256_128_0_0 : ∀ a, (![128, 0, 0] : Fin 3 → Nat) a + S8x64x256.size a ≤ S240x64x256.size a
  slices_S240x256_o128_0_S8x256 : S240x256.Slices ![128, 0] S8x256
  inb_S240x64_S8x64_128_0 : ∀ a, (![128, 0] : Fin 2 → Nat) a + S8x64.size a ≤ S240x64.size a
  inb_S240x64x256_S8x64x256_136_0_0 : ∀ a, (![136, 0, 0] : Fin 3 → Nat) a + S8x64x256.size a ≤ S240x64x256.size a
  slices_S240x256_o136_0_S8x256 : S240x256.Slices ![136, 0] S8x256
  inb_S240x64_S8x64_136_0 : ∀ a, (![136, 0] : Fin 2 → Nat) a + S8x64.size a ≤ S240x64.size a
  inb_S240x64x256_S8x64x256_144_0_0 : ∀ a, (![144, 0, 0] : Fin 3 → Nat) a + S8x64x256.size a ≤ S240x64x256.size a
  slices_S240x256_o144_0_S8x256 : S240x256.Slices ![144, 0] S8x256
  inb_S240x64_S8x64_144_0 : ∀ a, (![144, 0] : Fin 2 → Nat) a + S8x64.size a ≤ S240x64.size a
  inb_S240x64x256_S8x64x256_152_0_0 : ∀ a, (![152, 0, 0] : Fin 3 → Nat) a + S8x64x256.size a ≤ S240x64x256.size a
  slices_S240x256_o152_0_S8x256 : S240x256.Slices ![152, 0] S8x256
  inb_S240x64_S8x64_152_0 : ∀ a, (![152, 0] : Fin 2 → Nat) a + S8x64.size a ≤ S240x64.size a
  inb_S240x64x256_S8x64x256_160_0_0 : ∀ a, (![160, 0, 0] : Fin 3 → Nat) a + S8x64x256.size a ≤ S240x64x256.size a
  slices_S240x256_o160_0_S8x256 : S240x256.Slices ![160, 0] S8x256
  inb_S240x64_S8x64_160_0 : ∀ a, (![160, 0] : Fin 2 → Nat) a + S8x64.size a ≤ S240x64.size a
  inb_S240x64x256_S8x64x256_168_0_0 : ∀ a, (![168, 0, 0] : Fin 3 → Nat) a + S8x64x256.size a ≤ S240x64x256.size a
  slices_S240x256_o168_0_S8x256 : S240x256.Slices ![168, 0] S8x256
  inb_S240x64_S8x64_168_0 : ∀ a, (![168, 0] : Fin 2 → Nat) a + S8x64.size a ≤ S240x64.size a
  inb_S240x64x256_S8x64x256_176_0_0 : ∀ a, (![176, 0, 0] : Fin 3 → Nat) a + S8x64x256.size a ≤ S240x64x256.size a
  slices_S240x256_o176_0_S8x256 : S240x256.Slices ![176, 0] S8x256
  inb_S240x64_S8x64_176_0 : ∀ a, (![176, 0] : Fin 2 → Nat) a + S8x64.size a ≤ S240x64.size a
  inb_S240x64x256_S8x64x256_184_0_0 : ∀ a, (![184, 0, 0] : Fin 3 → Nat) a + S8x64x256.size a ≤ S240x64x256.size a
  slices_S240x256_o184_0_S8x256 : S240x256.Slices ![184, 0] S8x256
  inb_S240x64_S8x64_184_0 : ∀ a, (![184, 0] : Fin 2 → Nat) a + S8x64.size a ≤ S240x64.size a
  inb_S240x64x256_S8x64x256_192_0_0 : ∀ a, (![192, 0, 0] : Fin 3 → Nat) a + S8x64x256.size a ≤ S240x64x256.size a
  slices_S240x256_o192_0_S8x256 : S240x256.Slices ![192, 0] S8x256
  inb_S240x64_S8x64_192_0 : ∀ a, (![192, 0] : Fin 2 → Nat) a + S8x64.size a ≤ S240x64.size a
  inb_S240x64x256_S8x64x256_200_0_0 : ∀ a, (![200, 0, 0] : Fin 3 → Nat) a + S8x64x256.size a ≤ S240x64x256.size a
  slices_S240x256_o200_0_S8x256 : S240x256.Slices ![200, 0] S8x256
  inb_S240x64_S8x64_200_0 : ∀ a, (![200, 0] : Fin 2 → Nat) a + S8x64.size a ≤ S240x64.size a
  inb_S240x64x256_S8x64x256_208_0_0 : ∀ a, (![208, 0, 0] : Fin 3 → Nat) a + S8x64x256.size a ≤ S240x64x256.size a
  slices_S240x256_o208_0_S8x256 : S240x256.Slices ![208, 0] S8x256
  inb_S240x64_S8x64_208_0 : ∀ a, (![208, 0] : Fin 2 → Nat) a + S8x64.size a ≤ S240x64.size a
  inb_S240x64x256_S8x64x256_216_0_0 : ∀ a, (![216, 0, 0] : Fin 3 → Nat) a + S8x64x256.size a ≤ S240x64x256.size a
  slices_S240x256_o216_0_S8x256 : S240x256.Slices ![216, 0] S8x256
  inb_S240x64_S8x64_216_0 : ∀ a, (![216, 0] : Fin 2 → Nat) a + S8x64.size a ≤ S240x64.size a
  inb_S240x64x256_S8x64x256_224_0_0 : ∀ a, (![224, 0, 0] : Fin 3 → Nat) a + S8x64x256.size a ≤ S240x64x256.size a
  slices_S240x256_o224_0_S8x256 : S240x256.Slices ![224, 0] S8x256
  inb_S240x64_S8x64_224_0 : ∀ a, (![224, 0] : Fin 2 → Nat) a + S8x64.size a ≤ S240x64.size a
  inb_S240x64x256_S8x64x256_232_0_0 : ∀ a, (![232, 0, 0] : Fin 3 → Nat) a + S8x64x256.size a ≤ S240x64x256.size a
  slices_S240x256_o232_0_S8x256 : S240x256.Slices ![232, 0] S8x256
  inb_S240x64_S8x64_232_0 : ∀ a, (![232, 0] : Fin 2 → Nat) a + S8x64.size a ≤ S240x64.size a
  inb_S240x64_S240x64_0_0 : ∀ a, (![0, 0] : Fin 2 → Nat) a + S240x64.size a ≤ S240x64.size a
  h_S240x64 : 0 < S240x64.numel
  shapeCasts_S240x64_S240x64 : S240x64.ShapeCasts S240x64
  reduces_S240x64_S240 : S240x64.Reduces [1] S240
  shapeCasts_S240_S240x1 : S240.ShapeCasts S240x1
  broadcasts_S240x1_S240x64 : S240x1.Broadcasts S240x64
  slices_S240x64_o0_0_S8x64 : S240x64.Slices ![0, 0] S8x64
  shapeCasts_S8x64_S8x1x64 : S8x64.ShapeCasts S8x1x64
  broadcasts_S8x1x64_S8x8x64 : S8x1x64.Broadcasts S8x8x64
  shapeCasts_S8x8x64_S8x512 : S8x8x64.ShapeCasts S8x512
  inb_S240x256_S8x256_0_0 : ∀ a, (![0, 0] : Fin 2 → Nat) a + S8x256.size a ≤ S240x256.size a
  h_S8x256 : 0 < S8x256.numel
  shapeCasts_S8x256_S8x256 : S8x256.ShapeCasts S8x256
  slices_S240x64_o8_0_S8x64 : S240x64.Slices ![8, 0] S8x64
  inb_S240x256_S8x256_8_0 : ∀ a, (![8, 0] : Fin 2 → Nat) a + S8x256.size a ≤ S240x256.size a
  slices_S240x64_o16_0_S8x64 : S240x64.Slices ![16, 0] S8x64
  inb_S240x256_S8x256_16_0 : ∀ a, (![16, 0] : Fin 2 → Nat) a + S8x256.size a ≤ S240x256.size a
  slices_S240x64_o24_0_S8x64 : S240x64.Slices ![24, 0] S8x64
  inb_S240x256_S8x256_24_0 : ∀ a, (![24, 0] : Fin 2 → Nat) a + S8x256.size a ≤ S240x256.size a
  slices_S240x64_o32_0_S8x64 : S240x64.Slices ![32, 0] S8x64
  inb_S240x256_S8x256_32_0 : ∀ a, (![32, 0] : Fin 2 → Nat) a + S8x256.size a ≤ S240x256.size a
  slices_S240x64_o40_0_S8x64 : S240x64.Slices ![40, 0] S8x64
  inb_S240x256_S8x256_40_0 : ∀ a, (![40, 0] : Fin 2 → Nat) a + S8x256.size a ≤ S240x256.size a
  slices_S240x64_o48_0_S8x64 : S240x64.Slices ![48, 0] S8x64
  inb_S240x256_S8x256_48_0 : ∀ a, (![48, 0] : Fin 2 → Nat) a + S8x256.size a ≤ S240x256.size a
  slices_S240x64_o56_0_S8x64 : S240x64.Slices ![56, 0] S8x64
  inb_S240x256_S8x256_56_0 : ∀ a, (![56, 0] : Fin 2 → Nat) a + S8x256.size a ≤ S240x256.size a
  slices_S240x64_o64_0_S8x64 : S240x64.Slices ![64, 0] S8x64
  inb_S240x256_S8x256_64_0 : ∀ a, (![64, 0] : Fin 2 → Nat) a + S8x256.size a ≤ S240x256.size a
  slices_S240x64_o72_0_S8x64 : S240x64.Slices ![72, 0] S8x64
  inb_S240x256_S8x256_72_0 : ∀ a, (![72, 0] : Fin 2 → Nat) a + S8x256.size a ≤ S240x256.size a
  slices_S240x64_o80_0_S8x64 : S240x64.Slices ![80, 0] S8x64
  inb_S240x256_S8x256_80_0 : ∀ a, (![80, 0] : Fin 2 → Nat) a + S8x256.size a ≤ S240x256.size a
  slices_S240x64_o88_0_S8x64 : S240x64.Slices ![88, 0] S8x64
  inb_S240x256_S8x256_88_0 : ∀ a, (![88, 0] : Fin 2 → Nat) a + S8x256.size a ≤ S240x256.size a
  slices_S240x64_o96_0_S8x64 : S240x64.Slices ![96, 0] S8x64
  inb_S240x256_S8x256_96_0 : ∀ a, (![96, 0] : Fin 2 → Nat) a + S8x256.size a ≤ S240x256.size a
  slices_S240x64_o104_0_S8x64 : S240x64.Slices ![104, 0] S8x64
  inb_S240x256_S8x256_104_0 : ∀ a, (![104, 0] : Fin 2 → Nat) a + S8x256.size a ≤ S240x256.size a
  slices_S240x64_o112_0_S8x64 : S240x64.Slices ![112, 0] S8x64
  inb_S240x256_S8x256_112_0 : ∀ a, (![112, 0] : Fin 2 → Nat) a + S8x256.size a ≤ S240x256.size a
  slices_S240x64_o120_0_S8x64 : S240x64.Slices ![120, 0] S8x64
  inb_S240x256_S8x256_120_0 : ∀ a, (![120, 0] : Fin 2 → Nat) a + S8x256.size a ≤ S240x256.size a
  slices_S240x64_o128_0_S8x64 : S240x64.Slices ![128, 0] S8x64
  inb_S240x256_S8x256_128_0 : ∀ a, (![128, 0] : Fin 2 → Nat) a + S8x256.size a ≤ S240x256.size a
  slices_S240x64_o136_0_S8x64 : S240x64.Slices ![136, 0] S8x64
  inb_S240x256_S8x256_136_0 : ∀ a, (![136, 0] : Fin 2 → Nat) a + S8x256.size a ≤ S240x256.size a
  slices_S240x64_o144_0_S8x64 : S240x64.Slices ![144, 0] S8x64
  inb_S240x256_S8x256_144_0 : ∀ a, (![144, 0] : Fin 2 → Nat) a + S8x256.size a ≤ S240x256.size a
  slices_S240x64_o152_0_S8x64 : S240x64.Slices ![152, 0] S8x64
  inb_S240x256_S8x256_152_0 : ∀ a, (![152, 0] : Fin 2 → Nat) a + S8x256.size a ≤ S240x256.size a
  slices_S240x64_o160_0_S8x64 : S240x64.Slices ![160, 0] S8x64
  inb_S240x256_S8x256_160_0 : ∀ a, (![160, 0] : Fin 2 → Nat) a + S8x256.size a ≤ S240x256.size a
  slices_S240x64_o168_0_S8x64 : S240x64.Slices ![168, 0] S8x64
  inb_S240x256_S8x256_168_0 : ∀ a, (![168, 0] : Fin 2 → Nat) a + S8x256.size a ≤ S240x256.size a
  slices_S240x64_o176_0_S8x64 : S240x64.Slices ![176, 0] S8x64
  inb_S240x256_S8x256_176_0 : ∀ a, (![176, 0] : Fin 2 → Nat) a + S8x256.size a ≤ S240x256.size a
  slices_S240x64_o184_0_S8x64 : S240x64.Slices ![184, 0] S8x64
  inb_S240x256_S8x256_184_0 : ∀ a, (![184, 0] : Fin 2 → Nat) a + S8x256.size a ≤ S240x256.size a
  slices_S240x64_o192_0_S8x64 : S240x64.Slices ![192, 0] S8x64
  inb_S240x256_S8x256_192_0 : ∀ a, (![192, 0] : Fin 2 → Nat) a + S8x256.size a ≤ S240x256.size a
  slices_S240x64_o200_0_S8x64 : S240x64.Slices ![200, 0] S8x64
  inb_S240x256_S8x256_200_0 : ∀ a, (![200, 0] : Fin 2 → Nat) a + S8x256.size a ≤ S240x256.size a
  slices_S240x64_o208_0_S8x64 : S240x64.Slices ![208, 0] S8x64
  inb_S240x256_S8x256_208_0 : ∀ a, (![208, 0] : Fin 2 → Nat) a + S8x256.size a ≤ S240x256.size a
  slices_S240x64_o216_0_S8x64 : S240x64.Slices ![216, 0] S8x64
  inb_S240x256_S8x256_216_0 : ∀ a, (![216, 0] : Fin 2 → Nat) a + S8x256.size a ≤ S240x256.size a
  slices_S240x64_o224_0_S8x64 : S240x64.Slices ![224, 0] S8x64
  inb_S240x256_S8x256_224_0 : ∀ a, (![224, 0] : Fin 2 → Nat) a + S8x256.size a ≤ S240x256.size a
  slices_S240x64_o232_0_S8x64 : S240x64.Slices ![232, 0] S8x64
  inb_S240x256_S8x256_232_0 : ∀ a, (![232, 0] : Fin 2 → Nat) a + S8x256.size a ≤ S240x256.size a
  inb_S240x256_S240x256_0_0 : ∀ a, (![0, 0] : Fin 2 → Nat) a + S240x256.size a ≤ S240x256.size a
  h_S240x256 : 0 < S240x256.numel
  inb_S256x512_S256x512_0_0 : ∀ a, (![0, 0] : Fin 2 → Nat) a + S256x512.size a ≤ S256x512.size a
  h_S256x512 : 0 < S256x512.numel
  inb_S512x512_S512x512_0_0 : ∀ a, (![0, 0] : Fin 2 → Nat) a + S512x512.size a ≤ S512x512.size a
  h_S512x512 : 0 < S512x512.numel
  dot_S240x512_S512x256_S240x256_1_0_0_1_n_n_wf : DotDims.WF S240x512 S512x256 S240x256 [1] [0] [0] [1] [] []
  dot_S8x256_S512x256_S8x512_1_1_0_0_n_n_wf : DotDims.WF S8x256 S512x256 S8x512 [1] [1] [0] [0] [] []
  dot_S8x512_S512x256_S8x256_1_0_0_1_n_n_wf : DotDims.WF S8x512 S512x256 S8x256 [1] [0] [0] [1] [] []
  dot_S240x256_S256x512_S240x512_1_0_0_1_n_n_wf : DotDims.WF S240x256 S256x512 S240x512 [1] [0] [0] [1] [] []
  dot_S240x512_S512x512_S240x512_1_0_0_1_n_n_wf : DotDims.WF S240x512 S512x512 S240x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S240x512.size a ≤ S1920x512.size a
  hwx0_0 : ∀ i : grid0.Coords, EltTy.bits .f32 = 32 ∨ (Rect.block (s := S1920x512) S240x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S240x64x256.size a ≤ S1920x64x256.size a
  hwx0_1 : ∀ i : grid0.Coords, EltTy.bits .f32 = 32 ∨ (Rect.block (s := S1920x64x256) S240x64x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x256.size a
  hwx0_2 : ∀ i : grid0.Coords, EltTy.bits .f32 = 32 ∨ (Rect.block (s := S512x256) S512x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S256x512.size a
  hwx0_3 : ∀ i : grid0.Coords, EltTy.bits .f32 = 32 ∨ (Rect.block (s := S256x512) S256x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .f32 = 32 ∨ (Rect.block (s := S512x512) S512x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S240x512.size a ≤ S1920x512.size a
  hwx0_5 : ∀ i : grid0.Coords, EltTy.bits .f32 = 32 ∨ (Rect.block (s := S1920x512) S240x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S240x64.size a ≤ S1920x64.size a
  hwx0_6 : ∀ i : grid0.Coords, EltTy.bits .f32 = 32 ∨ (Rect.block (s := S1920x64) S240x64.size (cc0_transform_6 i) (hinb0_6 i)).WholeWords (EltTy.packing .f32)

variable [Facts₀]

def dot_S240x512_S512x256_S240x256_1_0_0_1_n_n : DotDims S240x512 S512x256 S240x256 where
  lhsContracting := [1]
  rhsContracting := [0]
  lhsNonContracting := [0]
  rhsNonContracting := [1]
  lhsBatch := []
  rhsBatch := []
  wf := dot_S240x512_S512x256_S240x256_1_0_0_1_n_n_wf
def dot_S8x256_S512x256_S8x512_1_1_0_0_n_n : DotDims S8x256 S512x256 S8x512 where
  lhsContracting := [1]
  rhsContracting := [1]
  lhsNonContracting := [0]
  rhsNonContracting := [0]
  lhsBatch := []
  rhsBatch := []
  wf := dot_S8x256_S512x256_S8x512_1_1_0_0_n_n_wf
def dot_S8x512_S512x256_S8x256_1_0_0_1_n_n : DotDims S8x512 S512x256 S8x256 where
  lhsContracting := [1]
  rhsContracting := [0]
  lhsNonContracting := [0]
  rhsNonContracting := [1]
  lhsBatch := []
  rhsBatch := []
  wf := dot_S8x512_S512x256_S8x256_1_0_0_1_n_n_wf
def dot_S240x256_S256x512_S240x512_1_0_0_1_n_n : DotDims S240x256 S256x512 S240x512 where
  lhsContracting := [1]
  rhsContracting := [0]
  lhsNonContracting := [0]
  rhsNonContracting := [1]
  lhsBatch := []
  rhsBatch := []
  wf := dot_S240x256_S256x512_S240x512_1_0_0_1_n_n_wf
def dot_S240x512_S512x512_S240x512_1_0_0_1_n_n : DotDims S240x512 S512x512 S240x512 where
  lhsContracting := [1]
  rhsContracting := [0]
  lhsNonContracting := [0]
  rhsNonContracting := [1]
  lhsBatch := []
  rhsBatch := []
  wf := dot_S240x512_S512x512_S240x512_1_0_0_1_n_n_wf

abbrev win0_0 : Pipeline.Window sig grid0 :=
  Pipeline.Window.ofSpec (Memref.whole main_arg0) S240x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S240x64x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_0) S240x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_1) S240x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S1920x512 : Shape := ⟨2, ![1920, 512]⟩
abbrev S1920x64x256 : Shape := ⟨3, ![1920, 64, 256]⟩
abbrev S512x256 : Shape := ⟨2, ![512, 256]⟩
abbrev S256x512 : Shape := ⟨2, ![256, 512]⟩
abbrev S512x512 : Shape := ⟨2, ![512, 512]⟩
abbrev S1920x64 : Shape := ⟨2, ![1920, 64]⟩
abbrev S128x512 : Shape := ⟨2, ![128, 512]⟩
abbrev S128x64x256 : Shape := ⟨3, ![128, 64, 256]⟩
abbrev S128x64 : Shape := ⟨2, ![128, 64]⟩
abbrev S128x256 : Shape := ⟨2, ![128, 256]⟩
abbrev S128x1x256 : Shape := ⟨3, ![128, 1, 256]⟩
abbrev S128 : Shape := ⟨1, ![128]⟩
abbrev S128x1 : Shape := ⟨2, ![128, 1]⟩
abbrev S128x64x1 : Shape := ⟨3, ![128, 64, 1]⟩

abbrev nBuf : Space → Nat
  | .hbm => 7
  | .vmem => 11
  | .smem => 0
  | _ => 0

abbrev bufTy : (tb : Table) → Fin (tcTables nBuf tb) → BufTy
  | .hbm, ⟨0, _⟩ => ⟨S1920x512, .f32⟩
  | .hbm, ⟨1, _⟩ => ⟨S1920x64x256, .f32⟩
  | .hbm, ⟨2, _⟩ => ⟨S512x256, .f32⟩
  | .hbm, ⟨3, _⟩ => ⟨S256x512, .f32⟩
  | .hbm, ⟨4, _⟩ => ⟨S512x512, .f32⟩
  | .hbm, ⟨5, _⟩ => ⟨S1920x512, .f32⟩
  | .hbm, ⟨6, _⟩ => ⟨S1920x64, .f32⟩
  | .local _ .vmem, ⟨0, _⟩ => ⟨S128x512, .f32⟩
  | .local _ .vmem, ⟨1, _⟩ => ⟨S128x512, .f32⟩
  | .local _ .vmem, ⟨2, _⟩ => ⟨S128x64x256, .f32⟩
  | .local _ .vmem, ⟨3, _⟩ => ⟨S128x64x256, .f32⟩
  | .local _ .vmem, ⟨4, _⟩ => ⟨S512x256, .f32⟩
  | .local _ .vmem, ⟨5, _⟩ => ⟨S256x512, .f32⟩
  | .local _ .vmem, ⟨6, _⟩ => ⟨S512x512, .f32⟩
  | .local _ .vmem, ⟨7, _⟩ => ⟨S128x512, .f32⟩
  | .local _ .vmem, ⟨8, _⟩ => ⟨S128x512, .f32⟩
  | .local _ .vmem, ⟨9, _⟩ => ⟨S128x64, .f32⟩
  | .local _ .vmem, ⟨10, _⟩ => ⟨S128x64, .f32⟩
  | _, _ => ⟨S1920x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![15], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  inb_S128x512_S128x512_0_0 : ∀ a, (![0, 0] : Fin 2 → Nat) a + S128x512.size a ≤ S128x512.size a
  h_S128x512 : 0 < S128x512.numel
  inb_S128x64x256_S128x64x256_0_0_0 : ∀ a, (![0, 0, 0] : Fin 3 → Nat) a + S128x64x256.size a ≤ S128x64x256.size a
  h_S128x64x256 : 0 < S128x64x256.numel
  inb_S512x256_S512x256_0_0 : ∀ a, (![0, 0] : Fin 2 → Nat) a + S512x256.size a ≤ S512x256.size a
  h_S512x256 : 0 < S512x256.numel
  shapeCasts_S128x256_S128x1x256 : S128x256.ShapeCasts S128x1x256
  broadcasts_S128x1x256_S128x64x256 : S128x1x256.Broadcasts S128x64x256
  reduces_S128x64x256_S128x64 : S128x64x256.Reduces [2] S128x64
  reduces_S128x64_S128 : S128x64.Reduces [1] S128
  shapeCasts_S128_S128x1 : S128.ShapeCasts S128x1
  broadcasts_S128x1_S128x64 : S128x1.Broadcasts S128x64
  shapeCasts_S128x64_S128x64x1 : S128x64.ShapeCasts S128x64x1
  broadcasts_S128x64x1_S128x64x256 : S128x64x1.Broadcasts S128x64x256
  reduces_S128x64x256_S128x256 : S128x64x256.Reduces [1] S128x256
  inb_S256x512_S256x512_0_0 : ∀ a, (![0, 0] : Fin 2 → Nat) a + S256x512.size a ≤ S256x512.size a
  h_S256x512 : 0 < S256x512.numel
  inb_S512x512_S512x512_0_0 : ∀ a, (![0, 0] : Fin 2 → Nat) a + S512x512.size a ≤ S512x512.size a
  h_S512x512 : 0 < S512x512.numel
  inb_S128x64_S128x64_0_0 : ∀ a, (![0, 0] : Fin 2 → Nat) a + S128x64.size a ≤ S128x64.size a
  h_S128x64 : 0 < S128x64.numel
  dot_S128x512_S512x256_S128x256_1_0_0_1_n_n_wf : DotDims.WF S128x512 S512x256 S128x256 [1] [0] [0] [1] [] []
  dot_S128x256_S256x512_S128x512_1_0_0_1_n_n_wf : DotDims.WF S128x256 S256x512 S128x512 [1] [0] [0] [1] [] []
  dot_S128x512_S512x512_S128x512_1_0_0_1_n_n_wf : DotDims.WF S128x512 S512x512 S128x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S1920x512.size a
  hwx0_0 : ∀ i : grid0.Coords, EltTy.bits .f32 = 32 ∨ (Rect.block (s := S1920x512) S128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x64x256.size a ≤ S1920x64x256.size a
  hwx0_1 : ∀ i : grid0.Coords, EltTy.bits .f32 = 32 ∨ (Rect.block (s := S1920x64x256) S128x64x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x256.size a
  hwx0_2 : ∀ i : grid0.Coords, EltTy.bits .f32 = 32 ∨ (Rect.block (s := S512x256) S512x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S256x512.size a
  hwx0_3 : ∀ i : grid0.Coords, EltTy.bits .f32 = 32 ∨ (Rect.block (s := S256x512) S256x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .f32 = 32 ∨ (Rect.block (s := S512x512) S512x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x512.size a ≤ S1920x512.size a
  hwx0_5 : ∀ i : grid0.Coords, EltTy.bits .f32 = 32 ∨ (Rect.block (s := S1920x512) S128x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x64.size a ≤ S1920x64.size a
  hwx0_6 : ∀ i : grid0.Coords, EltTy.bits .f32 = 32 ∨ (Rect.block (s := S1920x64) S128x64.size (cc0_transform_6 i) (hinb0_6 i)).WholeWords (EltTy.packing .f32)

variable [Facts₀]

def dot_S128x512_S512x256_S128x256_1_0_0_1_n_n : DotDims S128x512 S512x256 S128x256 where
  lhsContracting := [1]
  rhsContracting := [0]
  lhsNonContracting := [0]
  rhsNonContracting := [1]
  lhsBatch := []
  rhsBatch := []
  wf := dot_S128x512_S512x256_S128x256_1_0_0_1_n_n_wf
def dot_S128x256_S256x512_S128x512_1_0_0_1_n_n : DotDims S128x256 S256x512 S128x512 where
  lhsContracting := [1]
  rhsContracting := [0]
  lhsNonContracting := [0]
  rhsNonContracting := [1]
  lhsBatch := []
  rhsBatch := []
  wf := dot_S128x256_S256x512_S128x512_1_0_0_1_n_n_wf
def dot_S128x512_S512x512_S128x512_1_0_0_1_n_n : DotDims S128x512 S512x512 S128x512 where
  lhsContracting := [1]
  rhsContracting := [0]
  lhsNonContracting := [0]
  rhsNonContracting := [1]
  lhsBatch := []
  rhsBatch := []
  wf := dot_S128x512_S512x512_S128x512_1_0_0_1_n_n_wf

abbrev win0_0 : Pipeline.Window sig grid0 :=
  Pipeline.Window.ofSpec (Memref.whole main_arg0) S128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_0) S128x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_1) S128x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== Proof.RowSpec.lean ====
/-
  Soft dot-product attention, one batch row at a time, on the extended reals.

  For one row: a query vector `h` (512 entries), a context matrix `x` (64 positions × 256 features) and three weight
  matrices. The query is projected to a target `h · W_in`; each position's logit is its context row's inner product
  with the target; the logits are turned into weights by a softmax that subtracts the row's largest logit first; the
  weighted context is the weights' combination of the context rows; and the row's result is
  `tanh (mix · W_c + h · W_h)`.

  Every row of the two result arrays depends on that row of `h` and `context` alone, so the whole-array functions
  `outArray` and `attnArray` below are the row functions applied at the row's own data. Both programs are shown to compute
  these two arrays; nothing in this file mentions a program.
-/
import Idealize.ShloMosaic.PureOps.Ideal
import Idealize.ShloMosaic.Lib.ValueIdx

noncomputable section

namespace Cert.RowSpec

open Idealize.ShloMosaic Idealize.ShloMosaic.ValueIdx

/-- The query projected into feature space: `target d = ∑ₖ h k · W_in k d`. -/
def target (h : Fin 512 → EReal) (Win : Fin 512 → Fin 256 → EReal) (d : Fin 256) : EReal :=
  ∑ k : Fin 512, h k * Win k d

/-- Position `s`'s logit: its context row's inner product with the target. -/
def logit (h : Fin 512 → EReal) (x : Fin 64 → Fin 256 → EReal) (Win : Fin 512 → Fin 256 → EReal) (s : Fin 64) : EReal :=
  ∑ d : Fin 256, x s d * target h Win d

/-- The row's largest logit (the maximum taken from `-∞`, the float pattern `0xFF800000`). -/
def top (h : Fin 512 → EReal) (x : Fin 64 → Fin 256 → EReal) (Win : Fin 512 → Fin 256 → EReal) : EReal :=
  (Finset.univ : Finset (Fin 64)).fold max (Ideal.ofBits .f32 0xFF800000#32) (logit h x Win)

/-- The unnormalised softmax weight `exp (logit s − top)`. -/
def weight (h : Fin 512 → EReal) (x : Fin 64 → Fin 256 → EReal) (Win : Fin 512 → Fin 256 → EReal) (s : Fin 64) : EReal :=
  Ideal.exp (logit h x Win s - top h x Win)

/-- The weights' total. -/
def mass (h : Fin 512 → EReal) (x : Fin 64 → Fin 256 → EReal) (Win : Fin 512 → Fin 256 → EReal) : EReal :=
  ∑ s : Fin 64, weight h x Win s

/-- The attention weight of position `s`: the softmax of the logits, as a quotient. -/
def attn (h : Fin 512 → EReal) (x : Fin 64 → Fin 256 → EReal) (Win : Fin 512 → Fin 256 → EReal) (s : Fin 64) : EReal :=
  Ideal.div (weight h x Win s) (mass h x Win)

/-- The weighted context: `mix d = ∑ₛ attn s · x s d`. -/
def mix (h : Fin 512 → EReal) (x : Fin 64 → Fin 256 → EReal) (Win : Fin 512 → Fin 256 → EReal) (d : Fin 256) : EReal :=
  ∑ s : Fin 64, attn h x Win s * x s d

/-- The row's result: `tanh (mix · W_c + h · W_h)`. -/
def out (h : Fin 512 → EReal) (x : Fin 64 → Fin 256 → EReal) (Win : Fin 512 → Fin 256 → EReal)
    (Wc : Fin 256 → Fin 512 → EReal) (Wh : Fin 512 → Fin 512 → EReal) (q : Fin 512) : EReal :=
  Ideal.tanh ((∑ d : Fin 256, mix h x Win d * Wc d q) + ∑ k : Fin 512, h k * Wh k q)

/-! ## Arrays as rows and matrices -/

/-- Row `b` of a rank-2 array. -/
def rowOf {B n : Nat} (A : (⟨2, ![B, n]⟩ : Shape).Idx → EReal) (b : Fin B) : Fin n → EReal := fun k => A (ix2 b k)

/-- Slab `b` of a rank-3 array, as a matrix. -/
def slabOf {B n p : Nat} (A : (⟨3, ![B, n, p]⟩ : Shape).Idx → EReal) (b : Fin B) : Fin n → Fin p → EReal :=
  fun s d => A (ix3 b s d)

/-- A rank-2 array as a matrix. -/
def matOf {a b : Nat} (W : (⟨2, ![a, b]⟩ : Shape).Idx → EReal) : Fin a → Fin b → EReal := fun i j => W (ix2 i j)

/-- The first result over `B` rows: row `b` is `out` at row `b` of `h` and slab `b` of the context. -/
def outArray {B : Nat} (H : (⟨2, ![B, 512]⟩ : Shape).Idx → EReal) (X : (⟨3, ![B, 64, 256]⟩ : Shape).Idx → EReal)
    (Win : (⟨2, ![512, 256]⟩ : Shape).Idx → EReal) (Wc : (⟨2, ![256, 512]⟩ : Shape).Idx → EReal)
    (Wh : (⟨2, ![512, 512]⟩ : Shape).Idx → EReal) : (⟨2, ![B, 512]⟩ : Shape).Idx → EReal :=
  fun i => out (rowOf H (i 0)) (slabOf X (i 0)) (matOf Win) (matOf Wc) (matOf Wh) (i 1)

/-- The second result over `B` rows: row `b` is the attention weights of row `b`. -/
def attnArray {B : Nat} (H : (⟨2, ![B, 512]⟩ : Shape).Idx → EReal) (X : (⟨3, ![B, 64, 256]⟩ : Shape).Idx → EReal)
    (Win : (⟨2, ![512, 256]⟩ : Shape).Idx → EReal) : (⟨2, ![B, 64]⟩ : Shape).Idx → EReal :=
  fun i => attn (rowOf H (i 0)) (slabOf X (i 0)) (matOf Win) (i 1)

end Cert.RowSpec

end
-- ==== Proof.RowFinite.lean ====
/-
  Where the row's data are real numbers, the softmax total is not zero.

  A softmax weight is `exp (logit s − top)`. When every entry of the query, the context and the projection matrix is a
  real number, every logit is a finite sum of products of reals, hence real; the largest of 64 reals, taken from `-∞`,
  is one of them, hence real; so every difference `logit s − top` is real, its exponential is a positive real, and the
  total of 64 positive reals is a positive real. In particular the total is not zero, and off zero the quotient
  `weight / mass` and the product `weight · (1 / mass)` are the same extended real `weight · mass⁻¹`.
-/
import proofs.«106149_g2000304853130043_pallasbulk_1157_21_alg».proof.Proof.RowSpec
import Mathlib.Data.Finset.Fold
import Mathlib.Data.EReal.Operations
import Mathlib.Analysis.SpecialFunctions.Exp

noncomputable section

namespace Cert.RowSpec

open Idealize.ShloMosaic

/-- An extended real that is an ordinary real number (neither infinity). -/
def IsReal (x : EReal) : Prop := ∃ r : ℝ, x = (r : EReal)

theorem IsReal.coe (r : ℝ) : IsReal (r : EReal) := ⟨r, rfl⟩

theorem IsReal.ne_bot {x : EReal} (hx : IsReal x) : x ≠ ⊥ := by
  obtain ⟨r, rfl⟩ := hx; exact EReal.coe_ne_bot r

theorem IsReal.ne_top {x : EReal} (hx : IsReal x) : x ≠ ⊤ := by
  obtain ⟨r, rfl⟩ := hx; exact EReal.coe_ne_top r

/-- A product of reals is real. -/
theorem IsReal.mul {x y : EReal} (hx : IsReal x) (hy : IsReal y) : IsReal (x * y) := by
  obtain ⟨a, rfl⟩ := hx; obtain ⟨b, rfl⟩ := hy
  exact ⟨a * b, (EReal.coe_mul a b).symm⟩

/-- A sum of two reals is real. -/
theorem IsReal.add {x y : EReal} (hx : IsReal x) (hy : IsReal y) : IsReal (x + y) := by
  obtain ⟨a, rfl⟩ := hx; obtain ⟨b, rfl⟩ := hy
  exact ⟨a + b, (EReal.coe_add a b).symm⟩

/-- A difference of reals is real. -/
theorem IsReal.sub {x y : EReal} (hx : IsReal x) (hy : IsReal y) : IsReal (x - y) := by
  obtain ⟨a, rfl⟩ := hx; obtain ⟨b, rfl⟩ := hy
  exact ⟨a - b, (EReal.coe_sub a b).symm⟩

/-- The coercion from the reals commutes with finite sums. -/
theorem coe_finset_sum {ι : Type*} (s : Finset ι) (g : ι → ℝ) :
    (∑ i ∈ s, (g i : EReal)) = ((∑ i ∈ s, g i : ℝ) : EReal) := by
  classical
  refine Finset.induction_on s (by simp) ?_
  intro a s ha ih
  rw [Finset.sum_insert ha, Finset.sum_insert ha, ih, EReal.coe_add]

/-- A finite sum of reals is real. -/
theorem IsReal.sum {n : Nat} {f : Fin n → EReal} (hf : ∀ i, IsReal (f i)) : IsReal (∑ i, f i) := by
  choose g hg using hf
  refine ⟨∑ i, g i, ?_⟩
  rw [← coe_finset_sum]
  exact Finset.sum_congr rfl (fun i _ => hg i)

/-- A running maximum is its starting value or one of the terms. -/
theorem fold_max_mem {ι : Type*} (s : Finset ι) (f : ι → EReal) (b : EReal) :
    s.fold max b f = b ∨ ∃ i ∈ s, s.fold max b f = f i := by
  classical
  refine Finset.induction_on s (Or.inl (by simp)) ?_
  intro a s ha ih
  rw [Finset.fold_insert ha]
  rcases max_choice (f a) (s.fold max b f) with h | h
  · exact Or.inr ⟨a, Finset.mem_insert_self a s, h⟩
  · rw [h]
    rcases ih with ih | ⟨i, hi, e⟩
    · exact Or.inl ih
    · exact Or.inr ⟨i, Finset.mem_insert_of_mem hi, e⟩

/-- The float pattern `0xFF800000` denotes `-∞`. -/
theorem ofBits_neg_inf : Ideal.ofBits .f32 0xFF800000#32 = (⊥ : EReal) := by
  simp [Ideal.ofBits, Ideal.ieee]

section Row

variable (h : Fin 512 → EReal) (x : Fin 64 → Fin 256 → EReal) (Win : Fin 512 → Fin 256 → EReal)

/-- The projected query is real. -/
theorem target_isReal (hh : ∀ k, IsReal (h k)) (hW : ∀ k d, IsReal (Win k d)) (d : Fin 256) :
    IsReal (target h Win d) :=
  IsReal.sum (fun k => (hh k).mul (hW k d))

/-- Every logit is real. -/
theorem logit_isReal (hh : ∀ k, IsReal (h k)) (hx : ∀ s d, IsReal (x s d)) (hW : ∀ k d, IsReal (Win k d))
    (s : Fin 64) : IsReal (logit h x Win s) :=
  IsReal.sum (fun d => (hx s d).mul (target_isReal h Win hh hW d))

/-- The largest logit is real: it is one of the 64 logits, since it is at least the first and so not `-∞`. -/
theorem top_isReal (hh : ∀ k, IsReal (h k)) (hx : ∀ s d, IsReal (x s d)) (hW : ∀ k d, IsReal (Win k d)) :
    IsReal (top h x Win) := by
  unfold top
  rw [ofBits_neg_inf]
  rcases fold_max_mem (Finset.univ : Finset (Fin 64)) (logit h x Win) ⊥ with hb | ⟨i, _, hi⟩
  · exfalso
    have h0 : logit h x Win 0 ≤ (Finset.univ : Finset (Fin 64)).fold max ⊥ (logit h x Win) :=
      (Finset.le_fold_max _).mpr (Or.inr ⟨0, Finset.mem_univ _, le_rfl⟩)
    rw [hb] at h0
    exact (logit_isReal h x Win hh hx hW 0).ne_bot (le_bot_iff.mp h0)
  · rw [hi]; exact logit_isReal h x Win hh hx hW i

/-- Every unnormalised weight is a positive real. -/
theorem weight_pos_real (hh : ∀ k, IsReal (h k)) (hx : ∀ s d, IsReal (x s d)) (hW : ∀ k d, IsReal (Win k d))
    (s : Fin 64) : ∃ r : ℝ, 0 < r ∧ weight h x Win s = (r : EReal) := by
  obtain ⟨r, hr⟩ := (logit_isReal h x Win hh hx hW s).sub (top_isReal h x Win hh hx hW)
  refine ⟨Real.exp r, Real.exp_pos r, ?_⟩
  unfold weight
  rw [hr, Ideal.exp_coe]

/-- The total of the weights is not zero. -/
theorem mass_ne_zero (hh : ∀ k, IsReal (h k)) (hx : ∀ s d, IsReal (x s d)) (hW : ∀ k d, IsReal (Win k d)) :
    mass h x Win ≠ 0 := by
  choose g hg0 hg using weight_pos_real h x Win hh hx hW
  have hsum : mass h x Win = ((∑ s, g s : ℝ) : EReal) := by
    unfold mass
    rw [← coe_finset_sum]
    exact Finset.sum_congr rfl (fun s _ => hg s)
  rw [hsum]
  have hpos : (0 : ℝ) < ∑ s, g s := Finset.sum_pos (fun s _ => hg0 s) Finset.univ_nonempty
  exact EReal.coe_ne_zero.mpr (ne_of_gt hpos)

/-- Off a zero total, multiplying by the reciprocal of the total is dividing by it. -/
theorem attn_eq_mul_recip (hh : ∀ k, IsReal (h k)) (hx : ∀ s d, IsReal (x s d)) (hW : ∀ k d, IsReal (Win k d))
    (s : Fin 64) : weight h x Win s * Ideal.div 1 (mass h x Win) = attn h x Win s := by
  have hm := mass_ne_zero h x Win hh hx hW
  unfold attn Ideal.div
  rw [if_neg hm, if_neg hm, one_mul]

end Row

end Cert.RowSpec

end
-- ==== Proof.PreReal.lean ====
/-
  The precondition read back: every entry of the first three argument arrays is a real number.

  The precondition is the conjunction of five tests, one per argument array, each saying that every entry's absolute
  value is below `+∞`. A conjunction of bits that is 1 has every conjunct 1; a reduction by `and` over a whole array
  that is 1 had a 1 at every entry; and an extended real `x` with `max x (-x) < ⊤` is neither infinity, because at
  either infinity `max x (-x)` is `⊤`. So every entry is a real number.
-/
import proofs.«106149_g2000304853130043_pallasbulk_1157_21_alg».proof.Proof.Gen.Pre_finite_inputs
import proofs.«106149_g2000304853130043_pallasbulk_1157_21_alg».proof.Defs
import proofs.«106149_g2000304853130043_pallasbulk_1157_21_alg».proof.Proof.RowFinite
import Idealize.ShloMosaic.Lib.ReduceAll

noncomputable section

namespace Cert.PreReal

open Idealize.ShloMosaic Idealize.SL.Sem

/-- The rank-0 shape has one index. -/
instance : Subsingleton Cert.Pre_finite_inputs.S_.Idx := ⟨fun a b => funext fun d => d.elim0⟩

/-- The float pattern `0x7F800000` denotes `+∞`. -/
theorem ofBits_pos_inf : Ideal.ofBits .f32 0x7F800000#32 = (⊤ : EReal) := by
  simp [Ideal.ofBits, Ideal.ieee]

/-- An extended real whose absolute value is below `+∞` is a real number. -/
theorem isReal_of_abs_lt (x : EReal)
    (h : Ideal.cmp .olt (max x (-x)) (Ideal.ofBits .f32 0x7F800000#32) = 1#1) : Cert.RowSpec.IsReal x := by
  rw [ofBits_pos_inf] at h
  induction x using EReal.rec with
  | bot => simp [Ideal.cmp] at h
  | coe r => exact ⟨r, rfl⟩
  | top => simp [Ideal.cmp] at h

/-- Under the precondition, every entry of the first three argument arrays is a real number. -/
theorem real_args (m : (ℓ : Loc Cert.KernelIdeal.nD Cert.KernelIdeal.τ Cert.KernelIdeal.sig) → Buf (Elt Ideal) ℓ)
    [hP : Cert.Pre_finite_inputs.Facts] (hpre : Cert.Pre_KernelIdeal m) (c : Dev Cert.KernelIdeal.nD) :
    (∀ i, Cert.RowSpec.IsReal (m ((c.tc : Thread Cert.KernelIdeal.nD Cert.KernelIdeal.τ).loc Cert.KernelIdeal.main_arg0) i))
    ∧ (∀ i, Cert.RowSpec.IsReal (m ((c.tc : Thread Cert.KernelIdeal.nD Cert.KernelIdeal.τ).loc Cert.KernelIdeal.main_arg1) i))
    ∧ (∀ i, Cert.RowSpec.IsReal (m ((c.tc : Thread Cert.KernelIdeal.nD Cert.KernelIdeal.τ).loc Cert.KernelIdeal.main_arg2) i)) := by
  -- the precondition at its one index, as a conjunction of five whole-array reductions
  have e := congrFun (hpre c) ValueIdx.ix0
  dsimp only [Cert.Pre_finite_inputs.fn, Cert.Pre_finite_inputs.fn_part1, andi] at e
  rw [IntOp.andi_eq_one, IntOp.andi_eq_one, IntOp.andi_eq_one, IntOp.andi_eq_one] at e
  obtain ⟨⟨⟨⟨e0, e1⟩, e2⟩, e3⟩, e4⟩ := e
  -- each reduction that is 1 had a 1 at every entry, and a 1 there says the entry's absolute value is below `+∞`
  refine ⟨fun i => ?_, fun i => ?_, fun i => ?_⟩
  · exact isReal_of_abs_lt _ (Host.reduce_andi_all _ _ _ _ _ e0 i)
  · exact isReal_of_abs_lt _ (Host.reduce_andi_all _ _ _ _ _ e1 i)
  · exact isReal_of_abs_lt _ (Host.reduce_andi_all _ _ _ _ _ e2 i)

end Cert.PreReal

end
-- ==== Proof.KernelChunks.lean ====
/-
  The kernel works on its 240-row block eight rows at a time. Each eight-row chunk is treated by the same chain of
  operations, differing only in which eight rows of a 240-row value it cuts out. This file states that chain once for
  each of the kernel's two passes, with the cut's offset as a parameter:

  * `chunkLogits`: eight rows of the projected query against the chunk's 8·64 context rows in one product, of which only the
    entries pairing a row with its own context rows are kept (the product is multiplied by the 8×8 identity and summed over
    the row axis);
  * `chunkMix`: the eight rows' attention weights spread block-diagonally over 8·64 columns (again by the 8×8 identity) and
    multiplied by the chunk's 8·64 context rows.
-/
import proofs.«106149_g2000304853130043_pallasbulk_1157_21_alg».proof.Proof.Gen.KernelIdeal.Skeleton

noncomputable section

namespace Cert.KernelIdeal.Gen

open Idealize.ShloMosaic Idealize.SL.Sem

variable {F : FTy → Type} [FloatOps F]

/-- Eight rows of logits: rows `off 0 … off 0 + 7` of the projected query `t16`, against the chunk `cx` of context. -/
def chunkLogits (off : Fin 2 → ℕ) (hs : S240x256.Slices off S8x256) (t16 : FVec F S240x256 .bf16) (eye : FVec F S8x8 .f32)
    (cx : Vec F S8x64x256 .f32) : FVec F S8x64 .f32 :=
  multiReduction .add [0] S8x64
    (mulf
      (shapeCast S8x8x64
        (matmul dot_S8x256_S512x256_S8x512_1_1_0_0_n_n none (extractStridedSlice S8x256 off t16 hs)
          (truncf .bf16 (shapeCast S512x256 cx shapeCasts_S8x64x256_S512x256) bitsLt_bf16_f32)
          (constant S8x512 .f32 0x00000000#32))
        shapeCasts_S8x512_S8x8x64)
      (broadcastTo S8x8x64 (shapeCast S8x8x1 eye shapeCasts_S8x8_S8x8x1) broadcasts_S8x8x1_S8x8x64))
    0x00000000#32 reduces_S8x8x64_S8x64 (.inl rfl) rfl

/-- Eight rows of weighted context: rows `off 0 … off 0 + 7` of the attention weights `a16`, against the chunk `cx`. -/
def chunkMix (off : Fin 2 → ℕ) (hs : S240x64.Slices off S8x64) (a16 : FVec F S240x64 .bf16) (eye16 : FVec F S8x8 .bf16)
    (cx : Vec F S8x64x256 .f32) : FVec F S8x256 .f32 :=
  shapeCast S8x256
    (matmul dot_S8x512_S512x256_S8x256_1_0_0_1_n_n none
      (shapeCast S8x512
        (mulf
          (broadcastTo S8x8x64 (shapeCast S8x1x64 (extractStridedSlice S8x64 off a16 hs) shapeCasts_S8x64_S8x1x64)
            broadcasts_S8x1x64_S8x8x64)
          (broadcastTo S8x8x64 (shapeCast S8x8x1 eye16 shapeCasts_S8x8_S8x8x1) broadcasts_S8x8x1_S8x8x64))
        shapeCasts_S8x8x64_S8x512)
      (truncf .bf16 (shapeCast S512x256 cx shapeCasts_S8x64x256_S512x256) bitsLt_bf16_f32)
      (constant S8x256 .f32 0x00000000#32))
    shapeCasts_S8x256_S8x256

end Cert.KernelIdeal.Gen

end
-- ==== Proof.KernelPass1.lean ====
/-
  The kernel's first pass, read at an index, at the ideal values (every float an extended real, every operation exact,
  the format changes the identity).

  * the projected query is the matrix product of the query block and the input projection;
  * the 8×8 mask built from two coordinate grids is the identity matrix;
  * a chunk's logits: the eight projected rows are multiplied against all 8·64 context rows of the chunk at once, the
    product is viewed 8×8×64, multiplied by the identity matrix spread along the last axis and summed over the first
    axis. Off the diagonal the summand is x·0 = 0, on it x·1 = x, so entry (j, s) is row j's inner product with its own
    context row s;
  * the softmax: each row's maximum is subtracted, the exponentials are taken, and each is multiplied by the reciprocal
    of their row sum.
-/
import proofs.«106149_g2000304853130043_pallasbulk_1157_21_alg».proof.Proof.KernelChunks
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws

noncomputable section

namespace Cert.KernelSide

open Cert.KernelIdeal Cert.KernelIdeal.Gen Idealize.ShloMosaic Idealize.ShloMosaic.ValueIdx

/-- The 240×512 by 512×256 product into the zero splat, read at an index: the sum over the contracted coordinate. -/
theorem matmul_target_apply {φ₁ φ₂ : FTy} (A : FVec Ideal S240x512 φ₁) (B : FVec Ideal S512x256 φ₂) (r : Fin 240) (d : Fin 256) :
    FloatOps.matmul dot_S240x512_S512x256_S240x256_1_0_0_1_n_n none A B
      (constant S240x256 .f32 0x00000000#32) (ix2 r d) = ∑ k : Fin 512, A (ix2 r k) * B (ix2 k d) := by
  rw [Ideal.matmul_constant_zero_apply,
    ← Equiv.sum_comp (contrEquiv1 dot_S240x512_S512x256_S240x256_1_0_0_1_n_n 512 rfl rfl).symm]
  refine Finset.sum_congr rfl fun c _ => ?_
  have c2 := contrEquiv1_symm_val dot_S240x512_S512x256_S240x256_1_0_0_1_n_n 512 rfl rfl c
  have l2 : dot_S240x512_S512x256_S240x256_1_0_0_1_n_n.lhsIdx (ix2 r d)
      ((contrEquiv1 _ 512 rfl rfl).symm c) = ix2 r c := by
    funext ax; apply Fin.ext
    match ax with
    | ⟨0, _⟩ => simp [DotDims.lhsIdx, dot_S240x512_S512x256_S240x256_1_0_0_1_n_n]; rfl
    | ⟨1, _⟩ => simp [DotDims.lhsIdx, dot_S240x512_S512x256_S240x256_1_0_0_1_n_n]; exact c2
  have r2 : dot_S240x512_S512x256_S240x256_1_0_0_1_n_n.rhsIdx (ix2 r d)
      ((contrEquiv1 _ 512 rfl rfl).symm c) = ix2 c d := by
    funext ax; apply Fin.ext
    match ax with
    | ⟨0, _⟩ => simp [DotDims.rhsIdx, dot_S240x512_S512x256_S240x256_1_0_0_1_n_n]; exact c2
    | ⟨1, _⟩ => simp [DotDims.rhsIdx, dot_S240x512_S512x256_S240x256_1_0_0_1_n_n]; rfl
  rw [l2, r2]

theorem target_apply (v0 : Vec Ideal S240x512 .f32) (v2 : Vec Ideal S512x256 .f32) (r : Fin 240) (d : Fin 256) :
    k0_pay3 (F := Ideal) v0 v2 (ix2 r d) = ∑ k : Fin 512, v0 (ix2 r k) * v2 (ix2 k d) :=
  matmul_target_apply (φ₁ := .f32) (φ₂ := .f32) v0 v2 r d

/-- The 8×256 by 512×256 product into the zero splat, both operands contracted on their second axis (the right one
    is used transposed), read at an index. -/
theorem matmul_chunk_apply {φ₁ φ₂ : FTy} (A : FVec Ideal S8x256 φ₁) (B : FVec Ideal S512x256 φ₂) (i : Fin 8) (q : Fin 512) :
    FloatOps.matmul dot_S8x256_S512x256_S8x512_1_1_0_0_n_n none A B
      (constant S8x512 .f32 0x00000000#32) (ix2 i q) = ∑ d : Fin 256, A (ix2 i d) * B (ix2 q d) := by
  rw [Ideal.matmul_constant_zero_apply,
    ← Equiv.sum_comp (contrEquiv1 dot_S8x256_S512x256_S8x512_1_1_0_0_n_n 256 rfl rfl).symm]
  refine Finset.sum_congr rfl fun c _ => ?_
  have c2 := contrEquiv1_symm_val dot_S8x256_S512x256_S8x512_1_1_0_0_n_n 256 rfl rfl c
  have l2 : dot_S8x256_S512x256_S8x512_1_1_0_0_n_n.lhsIdx (ix2 i q)
      ((contrEquiv1 _ 256 rfl rfl).symm c) = ix2 i c := by
    funext ax; apply Fin.ext
    match ax with
    | ⟨0, _⟩ => simp [DotDims.lhsIdx, dot_S8x256_S512x256_S8x512_1_1_0_0_n_n]; rfl
    | ⟨1, _⟩ => simp [DotDims.lhsIdx, dot_S8x256_S512x256_S8x512_1_1_0_0_n_n]; exact c2
  have r2 : dot_S8x256_S512x256_S8x512_1_1_0_0_n_n.rhsIdx (ix2 i q)
      ((contrEquiv1 _ 256 rfl rfl).symm c) = ix2 q c := by
    funext ax; apply Fin.ext
    match ax with
    | ⟨0, _⟩ => simp [DotDims.rhsIdx, dot_S8x256_S512x256_S8x512_1_1_0_0_n_n]; rfl
    | ⟨1, _⟩ => simp [DotDims.rhsIdx, dot_S8x256_S512x256_S8x512_1_1_0_0_n_n]; exact c2
  rw [l2, r2]

section Layout
variable {α : Type}

/-- The 8×8 matrix spread along a new last axis of length 64 reads, at (i, j, s), its entry (i, j). -/
theorem eyeSpread_apply (eye : S8x8.Idx → α) (i j : Fin 8) (s : Fin 64) :
    broadcastTo S8x8x64 (shapeCast S8x8x1 eye shapeCasts_S8x8_S8x8x1) broadcasts_S8x8x1_S8x8x64 (ix3 i j s)
      = eye (ix2 i j) := by
  refine (broadcastTo_apply _ _ (ix3 i j s) (ix3 i j (0 : Fin 1)) (fun a => by
    match a with
    | ⟨0, _⟩ => rfl
    | ⟨1, _⟩ => rfl
    | ⟨2, _⟩ => rfl)).trans ?_
  exact shapeCast_apply eye _ (ix3 i j (0 : Fin 1)) (ix2 i j) (by
    rw [Shape.rowMajor_val_two, Shape.rowMajor_val_three]
    show i.val * 8 + j.val = (i.val * 8 + j.val) * 1 + 0
    omega)

/-- An 8×512 matrix viewed 8×8×64 reads, at (i, j, s), its entry (i, 64 j + s). -/
theorem split512_apply (M : S8x512.Idx → α) (i j : Fin 8) (s : Fin 64) (q : Fin 512) (hq : q.val = j.val * 64 + s.val) :
    shapeCast S8x8x64 M shapeCasts_S8x512_S8x8x64 (ix3 i j s) = M (ix2 i q) :=
  shapeCast_apply M _ (ix3 i j s) (ix2 i q) (by
    rw [Shape.rowMajor_val_two, Shape.rowMajor_val_three]
    show i.val * 512 + q.val = (i.val * 8 + j.val) * 64 + s.val
    omega)

/-- An 8×64×256 block viewed 512×256 reads, at (64 j + s, d), its entry (j, s, d). -/
theorem merge512_apply (cx : S8x64x256.Idx → α) (j : Fin 8) (s : Fin 64) (d : Fin 256) (q : Fin 512)
    (hq : q.val = j.val * 64 + s.val) :
    shapeCast S512x256 cx shapeCasts_S8x64x256_S512x256 (ix2 q d) = cx (ix3 j s d) :=
  shapeCast_apply cx _ (ix2 q d) (ix3 j s d) (by
    rw [Shape.rowMajor_val_two, Shape.rowMajor_val_three]
    show (j.val * 64 + s.val) * 256 + d.val = q.val * 256 + d.val
    rw [hq])

end Layout

theorem chunkLogits_apply (off : Fin 2 → ℕ) (hs : S240x256.Slices off S8x256) (g : ℕ) (hoff : off = ![8 * g, 0])
    (t16 : FVec Ideal S240x256 .bf16) (eye : FVec Ideal S8x8 .f32)
    (heye : ∀ i j : Fin 8, eye (ix2 i j) = if i = j then (1 : EReal) else 0)
    (cx : Vec Ideal S8x64x256 .f32) (j : Fin 8) (s : Fin 64) (r : Fin 240) (hr : r.val = 8 * g + j.val) :
    chunkLogits off hs t16 eye cx (ix2 j s) = ∑ d : Fin 256, t16 (ix2 r d) * cx (ix3 j s d) := by
  subst hoff
  have hlift : ∀ k : Fin 8, reduces_S8x8x64_S8x64.lift (ix2 j s) k = ix3 k j s := by
    intro k; funext a; apply Fin.ext
    match a with
    | ⟨0, _⟩ => rfl
    | ⟨1, _⟩ => rfl
    | ⟨2, _⟩ => rfl
  unfold chunkLogits
  refine (Ideal.multiReduction_add_single _ _ reduces_S8x8x64_S8x64 _ _ (ix2 j s)).trans ?_
  show ∑ k : Fin 8, _ = _
  rw [Finset.sum_eq_single j]
  · rw [hlift, mulf_apply, eyeSpread_apply, heye, if_pos rfl, mul_one,
      split512_apply _ j j s ⟨j.val * 64 + s.val, by omega⟩ rfl]
    refine (matmul_chunk_apply _ _ j _).trans ?_
    refine Finset.sum_congr rfl fun d _ => ?_
    rw [slice2_axis0_apply (8 * g) t16 hs j d r hr, truncf_apply,
      merge512_apply cx j s d ⟨j.val * 64 + s.val, by omega⟩ rfl]
  · intro k _ hk
    rw [hlift, mulf_apply, eyeSpread_apply, heye, if_neg hk, mul_zero]
  · intro h; exact absurd (Finset.mem_univ j) h

theorem eye_apply (i j : Fin 8) : k0_pay4 (F := Ideal) (ix2 i j) = if i = j then (1 : EReal) else 0 := by
  show FloatOps.sitofp (F := Ideal) .f32
      ((IntOp.cmpi .eq (IntOp.addi (iota .tc S8x8 32 [0] iota_S8x8_d0_w32 (ix2 i j)) (0#32))
        (iota .tc S8x8 32 [1] iota_S8x8_d1_w32 (ix2 i j))).setWidth 32) = _
  rw [iota_single_apply, iota_single_apply]
  show ((((BitVec.ofBool (BitVec.ofNat 32 i.val + 0#32 == BitVec.ofNat 32 j.val)).setWidth 32).toInt : ℝ) : EReal) = _
  rw [BitVec.add_zero]
  by_cases h : i = j
  · subst h
    rw [if_pos rfl, beq_self_eq_true]
    have : ((BitVec.ofBool true).setWidth 32).toInt = 1 := by decide
    rw [this]; norm_num
  · rw [if_neg h]
    have hne : BitVec.ofNat 32 i.val ≠ BitVec.ofNat 32 j.val := by
      intro e
      have e' := congrArg BitVec.toNat e
      simp only [BitVec.toNat_ofNat] at e'
      apply h; apply Fin.ext; omega
    rw [beq_eq_false_iff_ne.mpr hne]
    have : ((BitVec.ofBool false).setWidth 32).toInt = 0 := by decide
    rw [this]; norm_num

section KeepDims
variable {α : Type}

/-- A column spread over 64 columns reads, at (r, s), its entry (r, 0). -/
theorem spreadCol_apply (w : S240x1.Idx → α) (r : Fin 240) (s : Fin 64) :
    broadcastTo S240x64 w broadcasts_S240x1_S240x64 (ix2 r s) = w (ix2 r (0 : Fin 1)) :=
  broadcastTo_apply _ _ (ix2 r s) (ix2 r (0 : Fin 1)) (fun a => by
    match a with
    | ⟨0, _⟩ => rfl
    | ⟨1, _⟩ => rfl)

/-- A vector viewed as a column reads, at (r, 0), its entry r. -/
theorem asCol_apply (v : S240.Idx → α) (r : Fin 240) :
    shapeCast S240x1 v shapeCasts_S240_S240x1 (ix2 r (0 : Fin 1)) = v (ix1 r) :=
  shapeCast_apply v _ (ix2 r (0 : Fin 1)) (ix1 r) (by
    rw [Shape.rowMajor_val_one, Shape.rowMajor_val_two]
    show r.val = r.val * 1 + 0
    omega)

end KeepDims

/-- A row's maximum: the fold of `max` from the accumulator's value over the row's entries. -/
theorem rowMax_apply (X : FVec Ideal S240x64 .f32) (r : Fin 240) :
    multiReduction .maximumf [1] S240 X 0xFF800000#32 reduces_S240x64_S240 (.inl rfl) rfl (ix1 r)
      = (Finset.univ : Finset (Fin 64)).fold max (Ideal.ofBits .f32 0xFF800000#32) (fun s' => X (ix2 r s')) := by
  have hlift : ∀ k : Fin 64, reduces_S240x64_S240.lift (ix1 r) k = ix2 r k := by
    intro k; funext a; apply Fin.ext
    match a with
    | ⟨0, _⟩ => rfl
    | ⟨1, _⟩ => rfl
  refine (Ideal.multiReduction_maximumf_single _ _ reduces_S240x64_S240 _ _ (ix1 r)).trans ?_
  show (Finset.univ : Finset (Fin 64)).fold max (Ideal.ofBits .f32 0xFF800000#32)
      (fun k : Fin 64 => X (reduces_S240x64_S240.lift (ix1 r) k)) = _
  simp only [hlift]

/-- A row's sum. -/
theorem rowSum_apply (X : FVec Ideal S240x64 .f32) (r : Fin 240) :
    multiReduction .add [1] S240 X 0x00000000#32 reduces_S240x64_S240 (.inl rfl) rfl (ix1 r)
      = ∑ s' : Fin 64, X (ix2 r s') := by
  have hlift : ∀ k : Fin 64, reduces_S240x64_S240.lift (ix1 r) k = ix2 r k := by
    intro k; funext a; apply Fin.ext
    match a with
    | ⟨0, _⟩ => rfl
    | ⟨1, _⟩ => rfl
  refine (Ideal.multiReduction_add_single _ _ reduces_S240x64_S240 _ _ (ix1 r)).trans ?_
  show ∑ k : Fin 64, X (reduces_S240x64_S240.lift (ix1 r) k) = _
  simp only [hlift]

/-- The shifted exponentials: each logit less its row's maximum, exponentiated. -/
theorem expShift_apply (L : Vec Ideal S240x64 .f32) (r : Fin 240) (s : Fin 64) :
    k0_pay42 (F := Ideal) L (ix2 r s)
      = Ideal.exp (L (ix2 r s)
          - (Finset.univ : Finset (Fin 64)).fold max (Ideal.ofBits .f32 0xFF800000#32) (fun s' => L (ix2 r s'))) := by
  unfold k0_pay42
  rw [shapeCast_self]
  show Ideal.exp (L (ix2 r s) - broadcastTo S240x64 (shapeCast S240x1 _ shapeCasts_S240_S240x1)
      broadcasts_S240x1_S240x64 (ix2 r s)) = _
  rw [spreadCol_apply, asCol_apply, rowMax_apply]

theorem softmax_apply (L : Vec Ideal S240x64 .f32) (r : Fin 240) (s : Fin 64) :
    k0_pay43 (F := Ideal) (k0_pay42 L) (ix2 r s)
      = Ideal.exp (L (ix2 r s)
          - (Finset.univ : Finset (Fin 64)).fold max (Ideal.ofBits .f32 0xFF800000#32) (fun s' => L (ix2 r s')))
        * Ideal.div 1 (∑ s' : Fin 64, Ideal.exp (L (ix2 r s')
          - (Finset.univ : Finset (Fin 64)).fold max (Ideal.ofBits .f32 0xFF800000#32) (fun s' => L (ix2 r s')))) := by
  unfold k0_pay43
  show k0_pay42 (F := Ideal) L (ix2 r s) * broadcastTo S240x64
      (divf (broadcast S240x1 (Scalar.ofBits (F := Ideal) .f32 0x3F800000#32)) (shapeCast S240x1 _ shapeCasts_S240_S240x1))
      broadcasts_S240x1_S240x64 (ix2 r s) = _
  rw [spreadCol_apply, divf_apply, broadcast_apply, asCol_apply, rowSum_apply, expShift_apply]
  show _ * Ideal.div (Ideal.ofBits .f32 0x3F800000#32) _ = _
  rw [Ideal.ofBits_one_f32]
  simp only [expShift_apply]

end Cert.KernelSide

end
-- ==== Proof.KernelPass2.lean ====
/-
  The kernel's second pass, read at an index, at the ideal (extended-real) values.

  * `chunkMix_apply`: the second pass's per-chunk product. Its left operand is the eight rows' attention weights spread
    block-diagonally over 8·64 columns, A(i, j'·64 + s) = a(8g + i, s) · I(i, j'); its right operand the chunk's 8·64 context
    rows, C(j'·64 + s, d) = c(j', s, d). The contraction over the 512 columns is re-indexed by the pair (j', s); the factor
    I(j, j') leaves only j' = j, so row j of the product is ∑ s, a(8g + j, s) · c(j, s, d).
  * `eye16_apply`, `cast_h`, `cast_attn`: a narrowing cast is the identity at the ideal values.
  * `final_apply`: the output projection, tanh of the sum of two matrix products.
-/
import proofs.«106149_g2000304853130043_pallasbulk_1157_21_alg».proof.Proof.KernelChunks
import Idealize.ShloMosaic.Lib.ValueIdx
import Idealize.ShloMosaic.Lib.Pipeline.Value
import Idealize.ShloMosaic.Lib.ValueLayout
import Idealize.ShloMosaic.PureOps.Ideal.Laws

noncomputable section

namespace Cert.KernelSide

open Cert.KernelIdeal Cert.KernelIdeal.Gen Idealize.ShloMosaic Idealize.ShloMosaic.ValueIdx

/-- A column of the 512 is a pair (block, offset in the block): k = j'·64 + s. -/
def colEquiv : Fin 8 × Fin 64 ≃ Fin 512 where
  toFun p := ⟨p.1.val * 64 + p.2.val, by have := p.1.isLt; have := p.2.isLt; omega⟩
  invFun k := (⟨k.val / 64, by have := k.isLt; omega⟩, ⟨k.val % 64, Nat.mod_lt _ (by decide)⟩)
  left_inv p := by
    have h1 := p.1.isLt; have h2 := p.2.isLt
    refine Prod.ext (Fin.ext ?_) (Fin.ext ?_)
    · show (p.1.val * 64 + p.2.val) / 64 = p.1.val
      omega
    · show (p.1.val * 64 + p.2.val) % 64 = p.2.val
      omega
  right_inv k := by
    refine Fin.ext ?_
    show k.val / 64 * 64 + k.val % 64 = k.val
    omega

theorem colEquiv_val (j' : Fin 8) (s : Fin 64) : (colEquiv (j', s)).val = j'.val * 64 + s.val := rfl

/-- The left operand of the second pass's product at (j, j'·64 + s). -/
theorem mixLhs_apply (g : ℕ) (hs : S240x64.Slices ![8 * g, 0] S8x64) (a16 : FVec Ideal S240x64 .bf16)
    (eye16 : FVec Ideal S8x8 .bf16) (j j' : Fin 8) (s : Fin 64) (k : Fin 512) (hk : k.val = j'.val * 64 + s.val)
    (r : Fin 240) (hr : r.val = 8 * g + j.val) :
    shapeCast S8x512
        (mulf
          (broadcastTo S8x8x64 (shapeCast S8x1x64 (extractStridedSlice S8x64 ![8 * g, 0] a16 hs) shapeCasts_S8x64_S8x1x64)
            broadcasts_S8x1x64_S8x8x64)
          (broadcastTo S8x8x64 (shapeCast S8x8x1 eye16 shapeCasts_S8x8_S8x8x1) broadcasts_S8x8x1_S8x8x64))
        shapeCasts_S8x8x64_S8x512 (ix2 j k)
      = a16 (ix2 r s) * eye16 (ix2 j j') := by
  have hj := j.isLt; have hj' := j'.isLt; have hs' := s.isLt
  rw [shapeCast_apply _ shapeCasts_S8x8x64_S8x512 (ix2 j k) (ix3 j j' s) (by
    rw [Shape.rowMajor_val_three, Shape.rowMajor_val_two]
    show (j.val * 8 + j'.val) * 64 + s.val = j.val * 512 + k.val
    omega)]
  rw [mulf_apply]
  congr 1
  · rw [broadcastTo_apply _ broadcasts_S8x1x64_S8x8x64 (ix3 j j' s) (ix3 j (0 : Fin 1) s) (fun a =>
      match a with | ⟨0, _⟩ => rfl | ⟨1, _⟩ => rfl | ⟨2, _⟩ => rfl)]
    rw [shapeCast_apply _ shapeCasts_S8x64_S8x1x64 (ix3 j (0 : Fin 1) s) (ix2 j s) (by
      rw [Shape.rowMajor_val_three, Shape.rowMajor_val_two]
      show j.val * 64 + s.val = (j.val * 1 + 0) * 64 + s.val
      omega)]
    exact extractStridedSlice_apply _ _ hs (ix2 j s) (ix2 r s) (fun a =>
      match a with
      | ⟨0, _⟩ => by show r.val = 8 * g + j.val; exact hr
      | ⟨1, _⟩ => by show s.val = 0 + s.val; omega)
  · rw [broadcastTo_apply _ broadcasts_S8x8x1_S8x8x64 (ix3 j j' s) (ix3 j j' (0 : Fin 1)) (fun a =>
      match a with | ⟨0, _⟩ => rfl | ⟨1, _⟩ => rfl | ⟨2, _⟩ => rfl)]
    exact shapeCast_apply _ shapeCasts_S8x8_S8x8x1 (ix3 j j' (0 : Fin 1)) (ix2 j j') (by
      rw [Shape.rowMajor_val_three, Shape.rowMajor_val_two]
      show j.val * 8 + j'.val = (j.val * 8 + j'.val) * 1 + 0
      omega)

/-- The right operand of the second pass's product at (j'·64 + s, d). -/
theorem mixRhs_apply (cx : Vec Ideal S8x64x256 .f32) (j' : Fin 8) (s : Fin 64) (d : Fin 256) (k : Fin 512)
    (hk : k.val = j'.val * 64 + s.val) :
    (truncf .bf16 (shapeCast S512x256 cx shapeCasts_S8x64x256_S512x256) bitsLt_bf16_f32 : FVec Ideal S512x256 .bf16) (ix2 k d)
      = cx (ix3 j' s d) := by
  rw [truncf_apply]
  exact shapeCast_apply _ shapeCasts_S8x64x256_S512x256 (ix2 k d) (ix3 j' s d) (by
    rw [Shape.rowMajor_val_three, Shape.rowMajor_val_two]
    show (j'.val * 64 + s.val) * 256 + d.val = k.val * 256 + d.val
    omega)

/-- Row `j` of a chunk's weighted context: the weights of row `8g + j` against that row's own 64 context rows. -/
theorem chunkMix_apply (off : Fin 2 → ℕ) (hs : S240x64.Slices off S8x64) (g : ℕ) (hoff : off = ![8 * g, 0])
    (a16 : FVec Ideal S240x64 .bf16) (eye16 : FVec Ideal S8x8 .bf16)
    (heye : ∀ i j : Fin 8, eye16 (ix2 i j) = if i = j then (1 : EReal) else 0)
    (cx : Vec Ideal S8x64x256 .f32) (j : Fin 8) (d : Fin 256) (r : Fin 240) (hr : r.val = 8 * g + j.val) :
    chunkMix off hs a16 eye16 cx (ix2 j d) = ∑ s : Fin 64, a16 (ix2 r s) * cx (ix3 j s d) := by
  subst hoff
  unfold chunkMix
  rw [shapeCast_self]
  simp only [matmul]
  rw [Ideal.matmul_constant_zero_apply,
    ← Equiv.sum_comp (contrEquiv1 dot_S8x512_S512x256_S8x256_1_0_0_1_n_n 512 rfl rfl).symm]
  -- the operands' indices at contraction position k are (j, k) and (k, d)
  have l2 : ∀ k : Fin 512, dot_S8x512_S512x256_S8x256_1_0_0_1_n_n.lhsIdx (ix2 j d)
      ((contrEquiv1 dot_S8x512_S512x256_S8x256_1_0_0_1_n_n 512 rfl rfl).symm k) = ix2 j k := by
    intro k
    have c2 := contrEquiv1_symm_val dot_S8x512_S512x256_S8x256_1_0_0_1_n_n 512 rfl rfl k
    funext ax; apply Fin.ext
    match ax with
    | ⟨0, _⟩ => simp [DotDims.lhsIdx, dot_S8x512_S512x256_S8x256_1_0_0_1_n_n]; rfl
    | ⟨1, _⟩ => simp [DotDims.lhsIdx, dot_S8x512_S512x256_S8x256_1_0_0_1_n_n]; exact c2
  have r2 : ∀ k : Fin 512, dot_S8x512_S512x256_S8x256_1_0_0_1_n_n.rhsIdx (ix2 j d)
      ((contrEquiv1 dot_S8x512_S512x256_S8x256_1_0_0_1_n_n 512 rfl rfl).symm k) = ix2 k d := by
    intro k
    have c2 := contrEquiv1_symm_val dot_S8x512_S512x256_S8x256_1_0_0_1_n_n 512 rfl rfl k
    funext ax; apply Fin.ext
    match ax with
    | ⟨0, _⟩ => simp [DotDims.rhsIdx, dot_S8x512_S512x256_S8x256_1_0_0_1_n_n]; exact c2
    | ⟨1, _⟩ => simp [DotDims.rhsIdx, dot_S8x512_S512x256_S8x256_1_0_0_1_n_n]; rfl
  simp only [l2, r2]
  -- the 512 columns as pairs (j', s)
  rw [← Equiv.sum_comp colEquiv, Fintype.sum_prod_type]
  -- only the block j' = j survives the identity factor
  rw [Finset.sum_eq_single j]
  · refine Finset.sum_congr rfl fun s _ => ?_
    rw [mixLhs_apply g hs a16 eye16 j j s _ (colEquiv_val j s) r hr, mixRhs_apply cx j s d _ (colEquiv_val j s),
      heye, if_pos rfl, mul_one]
  · intro j' _ hne
    refine Finset.sum_eq_zero fun s _ => ?_
    rw [mixLhs_apply g hs a16 eye16 j j' s _ (colEquiv_val j' s) r hr, heye, if_neg (Ne.symm hne), mul_zero, zero_mul]
  · intro h; exact absurd (Finset.mem_univ j) h

/-- The identity matrix narrowed: the same entries. -/
theorem eye16_apply (eye : FVec Ideal S8x8 .f32) (i j : Fin 8) : k0_pay45 (F := Ideal) eye (ix2 i j) = eye (ix2 i j) := rfl

/-- The hidden state narrowed: the same entries. -/
theorem cast_h (v0 : Vec Ideal S240x512 .f32) (i : S240x512.Idx) : k0_pay2 (F := Ideal) v0 i = v0 i := rfl

/-- The attention weights narrowed: the same entries. -/
theorem cast_attn (v : FVec Ideal S240x64 .f32) (i : S240x64.Idx) : k0_pay44 (F := Ideal) v i = k0_pay43 (F := Ideal) v i := rfl

/-- A plain product into the zero splat, read at an index: 240×256 by 256×512. -/
theorem mm_W_apply (A : FVec Ideal S240x256 .bf16) (B : FVec Ideal S256x512 .bf16) (r : Fin 240) (q : Fin 512) :
    matmul dot_S240x256_S256x512_S240x512_1_0_0_1_n_n none A B (constant S240x512 .f32 0x00000000#32) (ix2 r q)
      = ∑ d : Fin 256, A (ix2 r d) * B (ix2 d q) := by
  simp only [matmul]
  rw [Ideal.matmul_constant_zero_apply,
    ← Equiv.sum_comp (contrEquiv1 dot_S240x256_S256x512_S240x512_1_0_0_1_n_n 256 rfl rfl).symm]
  refine Finset.sum_congr rfl fun k _ => ?_
  have c2 := contrEquiv1_symm_val dot_S240x256_S256x512_S240x512_1_0_0_1_n_n 256 rfl rfl k
  have l2 : dot_S240x256_S256x512_S240x512_1_0_0_1_n_n.lhsIdx (ix2 r q)
      ((contrEquiv1 dot_S240x256_S256x512_S240x512_1_0_0_1_n_n 256 rfl rfl).symm k) = ix2 r k := by
    funext ax; apply Fin.ext
    match ax with
    | ⟨0, _⟩ => simp [DotDims.lhsIdx, dot_S240x256_S256x512_S240x512_1_0_0_1_n_n]; rfl
    | ⟨1, _⟩ => simp [DotDims.lhsIdx, dot_S240x256_S256x512_S240x512_1_0_0_1_n_n]; exact c2
  have r2 : dot_S240x256_S256x512_S240x512_1_0_0_1_n_n.rhsIdx (ix2 r q)
      ((contrEquiv1 dot_S240x256_S256x512_S240x512_1_0_0_1_n_n 256 rfl rfl).symm k) = ix2 k q := by
    funext ax; apply Fin.ext
    match ax with
    | ⟨0, _⟩ => simp [DotDims.rhsIdx, dot_S240x256_S256x512_S240x512_1_0_0_1_n_n]; exact c2
    | ⟨1, _⟩ => simp [DotDims.rhsIdx, dot_S240x256_S256x512_S240x512_1_0_0_1_n_n]; rfl
  rw [l2, r2]

/-- A plain product into the zero splat, read at an index: 240×512 by 512×512. -/
theorem mm_H_apply (A : FVec Ideal S240x512 .bf16) (B : FVec Ideal S512x512 .bf16) (r : Fin 240) (q : Fin 512) :
    matmul dot_S240x512_S512x512_S240x512_1_0_0_1_n_n none A B (constant S240x512 .f32 0x00000000#32) (ix2 r q)
      = ∑ k : Fin 512, A (ix2 r k) * B (ix2 k q) := by
  simp only [matmul]
  rw [Ideal.matmul_constant_zero_apply,
    ← Equiv.sum_comp (contrEquiv1 dot_S240x512_S512x512_S240x512_1_0_0_1_n_n 512 rfl rfl).symm]
  refine Finset.sum_congr rfl fun k _ => ?_
  have c2 := contrEquiv1_symm_val dot_S240x512_S512x512_S240x512_1_0_0_1_n_n 512 rfl rfl k
  have l2 : dot_S240x512_S512x512_S240x512_1_0_0_1_n_n.lhsIdx (ix2 r q)
      ((contrEquiv1 dot_S240x512_S512x512_S240x512_1_0_0_1_n_n 512 rfl rfl).symm k) = ix2 r k := by
    funext ax; apply Fin.ext
    match ax with
    | ⟨0, _⟩ => simp [DotDims.lhsIdx, dot_S240x512_S512x512_S240x512_1_0_0_1_n_n]; rfl
    | ⟨1, _⟩ => simp [DotDims.lhsIdx, dot_S240x512_S512x512_S240x512_1_0_0_1_n_n]; exact c2
  have r2 : dot_S240x512_S512x512_S240x512_1_0_0_1_n_n.rhsIdx (ix2 r q)
      ((contrEquiv1 dot_S240x512_S512x512_S240x512_1_0_0_1_n_n 512 rfl rfl).symm k) = ix2 k q := by
    funext ax; apply Fin.ext
    match ax with
    | ⟨0, _⟩ => simp [DotDims.rhsIdx, dot_S240x512_S512x512_S240x512_1_0_0_1_n_n]; exact c2
    | ⟨1, _⟩ => simp [DotDims.rhsIdx, dot_S240x512_S512x512_S240x512_1_0_0_1_n_n]; rfl
  rw [l2, r2]

/-- The output projection at (r, q): tanh of the weighted context's product with its projection plus the hidden state's
    product with its own. -/
theorem final_apply (v1 : FVec Ideal S240x512 .bf16) (W : Vec Ideal S240x256 .f32) (v780 : Vec Ideal S256x512 .f32)
    (v783 : Vec Ideal S512x512 .f32) (r : Fin 240) (q : Fin 512) :
    k0_pay1 (F := Ideal) (k0_pay86 v1 W v780 v783) (ix2 r q)
      = Ideal.tanh ((∑ d : Fin 256, W (ix2 r d) * v780 (ix2 d q)) + ∑ k : Fin 512, v1 (ix2 r k) * v783 (ix2 k q)) := by
  show Ideal.tanh (k0_pay86 v1 W v780 v783 (ix2 r q)) = _
  unfold k0_pay86
  rw [addf_apply, mm_W_apply, mm_H_apply]
  rfl

end Cert.KernelSide

end
-- ==== Proof.KernelBlock.lean ====
/-
  One grid point of the kernel, read as a function of its input blocks.

  The kernel fills its 240-row attention block eight rows at a time (thirty stores), reads the whole block back, replaces
  it by its softmax, then fills a 240-row scratch with the weighted context eight rows at a time (thirty more stores),
  reads that back and applies the output projection. Each eight-row store holds exactly the rows 8g … 8g+7 of one
  block-level function — the block's logits in the first pass, its weighted context in the second — and the thirty
  stores tile the block, so each read-back is that function. What is left is the softmax, where the kernel multiplies
  by the reciprocal of the weights' total while the specification divides by it: the two agree because the total of
  positive terms is not zero, which is where the inputs' finiteness is used.
-/
import proofs.«106149_g2000304853130043_pallasbulk_1157_21_alg».proof.Proof.KernelChunks
import proofs.«106149_g2000304853130043_pallasbulk_1157_21_alg».proof.Proof.KernelPass1
import proofs.«106149_g2000304853130043_pallasbulk_1157_21_alg».proof.Proof.KernelPass2
import proofs.«106149_g2000304853130043_pallasbulk_1157_21_alg».proof.Proof.RowSpec
import proofs.«106149_g2000304853130043_pallasbulk_1157_21_alg».proof.Proof.RowFinite
import proofs.«106149_g2000304853130043_pallasbulk_1157_21_alg».proof.Proof.Gen.KernelIdeal.Frame
import Idealize.ShloMosaic.Lib.ValueIdx
import Idealize.ShloMosaic.Lib.Pipeline.Value
import Idealize.ShloMosaic.PureOps.Ideal.Laws

set_option maxRecDepth 16384

noncomputable section

namespace Cert.KernelSide

open Cert.KernelIdeal Cert.KernelIdeal.Gen Idealize.ShloMosaic Idealize.ShloMosaic.TcCoe Idealize.ShloMosaic.ValueIdx Idealize.SL.Sem

/-- The logits of a 240-row block: entry (r, s) is row r's logit at position s. -/
def logitBlock (x0 : Vec Ideal S240x512 .f32) (x1 : Vec Ideal S240x64x256 .f32) (x2 : Vec Ideal S512x256 .f32) :
    S240x64.Idx → EReal :=
  fun y => RowSpec.logit (RowSpec.rowOf x0 (y 0)) (RowSpec.slabOf x1 (y 0)) (RowSpec.matOf x2) (y 1)

theorem zero2 : (![0, 0] : Fin 2 → ℕ) = fun _ => 0 := by funext a; fin_cases a <;> rfl

/-- A load through the whole block of what pieces agreeing with one function `G` left, where they cover the block,
    reads `G`. -/
theorem readCov_whole_of_pieces {sig : RefSig} {κ : Kind} {sp : Space} {S : Shape} {e : EltTy}
    (v : View sig κ sp S e) (G : S.Idx → Elt Ideal e) (L : List (View.Piece (Elt Ideal) S e))
    (hL : ∀ p ∈ L, ∀ x : p.1.shape.Idx, p.2 x = G (p.1.emb x)) (hc : ∀ y, ∃ p ∈ L, y ∈ p.1.set)
    {off : Fin S.rank → ℕ} (hz : off = fun _ => 0) (inb : ∀ a, off a + S.size a ≤ S.size a) :
    v.readCov L (Rect.unit off S.size inb).toLoadRect = G := by
  rw [View.readCov_eq_canon_ld v L _ hc, View.ld_unit_zero hz]
  funext y; exact View.canon_apply_of_pieces G L hL y (hc y)

/-- One eight-row piece of the first pass agrees with the block's logits: rows 8g … 8g+7. -/
theorem logits_piece (g : ℕ) (off2 : Fin 2 → ℕ) (hoff2 : off2 = ![8 * g, 0])
    (inb2 : ∀ a, off2 a + S8x64.size a ≤ S240x64.size a) (hs : S240x256.Slices off2 S8x256)
    (off3 : Fin 3 → ℕ) (hoff3 : off3 = ![8 * g, 0, 0]) (inb3 : ∀ a, off3 a + S8x64x256.size a ≤ S240x64x256.size a)
    (x0 : Vec Ideal S240x512 .f32) (x1 : Vec Ideal S240x64x256 .f32) (x2 : Vec Ideal S512x256 .f32) (x : S8x64.Idx) :
    chunkLogits off2 hs (k0_pay3 x0 x2) (k0_pay4 (F := Ideal)) (View.ld x1 (Rect.unit (s := S240x64x256) off3 S8x64x256.size inb3)) x
      = logitBlock x0 x1 x2 ((Rect.unit (s := S240x64) off2 S8x64.size inb2).emb x) := by
  subst hoff2 hoff3
  obtain ⟨j, s, rfl⟩ : ∃ (j : Fin 8) (s : Fin 64), x = ix2 j s := ⟨x 0, x 1, eq_ix2 x⟩
  have hj : 8 * g + j.val < 240 := by
    have := inb2 0
    simp only [Matrix.cons_val_zero] at this
    have h8 : S8x64.size 0 = 8 := rfl
    have h240 : S240x64.size 0 = 240 := rfl
    omega
  rw [chunkLogits_apply _ hs g rfl _ _ eye_apply _ j s ⟨8 * g + j.val, hj⟩ rfl]
  have hemb : (Rect.unit (s := S240x64) ![8 * g, 0] S8x64.size inb2).emb (ix2 j s) = ix2 ⟨8 * g + j.val, hj⟩ s := by
    funext a; apply Fin.ext
    match a with
    | ⟨0, _⟩ => show 8 * g + 1 * j.val = 8 * g + j.val; omega
    | ⟨1, _⟩ => show 0 + 1 * s.val = s.val; omega
  rw [hemb]
  show _ = RowSpec.logit (RowSpec.rowOf x0 ⟨8 * g + j.val, hj⟩) (RowSpec.slabOf x1 ⟨8 * g + j.val, hj⟩) (RowSpec.matOf x2) s
  unfold RowSpec.logit RowSpec.target RowSpec.rowOf RowSpec.slabOf RowSpec.matOf
  refine Finset.sum_congr rfl fun d _ => ?_
  rw [target_apply, mul_comm]
  congr 1
  show x1 ((Rect.unit (s := S240x64x256) ![8 * g, 0, 0] S8x64x256.size inb3).idx (ix3 j s d)) = x1 (ix3 ⟨8 * g + j.val, hj⟩ s d)
  congr 1
  funext a; apply Fin.ext
  match a with
  | ⟨0, _⟩ => show 8 * g + 1 * j.val = 8 * g + j.val; omega
  | ⟨1, _⟩ => show 0 + 1 * s.val = s.val; omega
  | ⟨2, _⟩ => show 0 + 1 * d.val = d.val; omega

/-- The weighted context of a 240-row block: entry (r, d) is row r's attention-weighted sum of its context rows. -/
def mixBlock (x0 : Vec Ideal S240x512 .f32) (x1 : Vec Ideal S240x64x256 .f32) (x2 : Vec Ideal S512x256 .f32) :
    S240x256.Idx → EReal :=
  fun y => RowSpec.mix (RowSpec.rowOf x0 (y 0)) (RowSpec.slabOf x1 (y 0)) (RowSpec.matOf x2) (y 1)

/-- The kernel's softmax of the block's logits is the specification's attention weight: the kernel multiplies by the
    reciprocal of the weights' total where the specification divides, and the total is not zero when the row is real. -/
theorem softmax_block (x0 : Vec Ideal S240x512 .f32) (x1 : Vec Ideal S240x64x256 .f32) (x2 : Vec Ideal S512x256 .f32)
    (h0 : ∀ i, RowSpec.IsReal (x0 i)) (h1 : ∀ i, RowSpec.IsReal (x1 i)) (h2 : ∀ i, RowSpec.IsReal (x2 i))
    (r : Fin 240) (s : Fin 64) :
    k0_pay43 (F := Ideal) (k0_pay42 (logitBlock x0 x1 x2)) (ix2 r s)
      = RowSpec.attn (RowSpec.rowOf x0 r) (RowSpec.slabOf x1 r) (RowSpec.matOf x2) s := by
  rw [softmax_apply]
  exact RowSpec.attn_eq_mul_recip (RowSpec.rowOf x0 r) (RowSpec.slabOf x1 r) (RowSpec.matOf x2)
    (fun k => h0 _) (fun s d => h1 _) (fun k d => h2 _) s

/-- One eight-row piece of the second pass agrees with the block's weighted context: rows 8g … 8g+7. -/
theorem mix_piece (g : ℕ) (off2 : Fin 2 → ℕ) (hoff2 : off2 = ![8 * g, 0])
    (inb2 : ∀ a, off2 a + S8x256.size a ≤ S240x256.size a) (hs : S240x64.Slices off2 S8x64)
    (off3 : Fin 3 → ℕ) (hoff3 : off3 = ![8 * g, 0, 0]) (inb3 : ∀ a, off3 a + S8x64x256.size a ≤ S240x64x256.size a)
    (x0 : Vec Ideal S240x512 .f32) (x1 : Vec Ideal S240x64x256 .f32) (x2 : Vec Ideal S512x256 .f32)
    (h0 : ∀ i, RowSpec.IsReal (x0 i)) (h1 : ∀ i, RowSpec.IsReal (x1 i)) (h2 : ∀ i, RowSpec.IsReal (x2 i))
    (x : S8x256.Idx) :
    chunkMix off2 hs (k0_pay44 (F := Ideal) (k0_pay42 (logitBlock x0 x1 x2))) (k0_pay45 (F := Ideal) k0_pay4)
        (View.ld x1 (Rect.unit (s := S240x64x256) off3 S8x64x256.size inb3)) x
      = mixBlock x0 x1 x2 ((Rect.unit (s := S240x256) off2 S8x256.size inb2).emb x) := by
  subst hoff2 hoff3
  obtain ⟨j, d, rfl⟩ : ∃ (j : Fin 8) (d : Fin 256), x = ix2 j d := ⟨x 0, x 1, eq_ix2 x⟩
  have hj : 8 * g + j.val < 240 := by
    have := inb2 0
    simp only [Matrix.cons_val_zero] at this
    have h8 : S8x256.size 0 = 8 := rfl
    have h240 : S240x256.size 0 = 240 := rfl
    omega
  rw [chunkMix_apply _ hs g rfl _ _ (fun i j => (eye16_apply _ i j).trans (eye_apply i j)) _ j d ⟨8 * g + j.val, hj⟩ rfl]
  have hemb : (Rect.unit (s := S240x256) ![8 * g, 0] S8x256.size inb2).emb (ix2 j d) = ix2 ⟨8 * g + j.val, hj⟩ d := by
    funext a; apply Fin.ext
    match a with
    | ⟨0, _⟩ => show 8 * g + 1 * j.val = 8 * g + j.val; omega
    | ⟨1, _⟩ => show 0 + 1 * d.val = d.val; omega
  rw [hemb]
  show _ = RowSpec.mix (RowSpec.rowOf x0 ⟨8 * g + j.val, hj⟩) (RowSpec.slabOf x1 ⟨8 * g + j.val, hj⟩) (RowSpec.matOf x2) d
  unfold RowSpec.mix
  refine Finset.sum_congr rfl fun s _ => ?_
  rw [cast_attn, softmax_block x0 x1 x2 h0 h1 h2]
  congr 1
  show x1 ((Rect.unit (s := S240x64x256) ![8 * g, 0, 0] S8x64x256.size inb3).idx (ix3 j s d)) = x1 (ix3 ⟨8 * g + j.val, hj⟩ s d)
  congr 1
  funext a; apply Fin.ext
  match a with
  | ⟨0, _⟩ => show 8 * g + 1 * j.val = 8 * g + j.val; omega
  | ⟨1, _⟩ => show 0 + 1 * s.val = s.val; omega
  | ⟨2, _⟩ => show 0 + 1 * d.val = d.val; omega

open Idealize.ShloMosaic.Tactic in
/-- What the kernel leaves in the attention-weights block of one grid point. -/
theorem block_attn (c : Dev nD) (i : grid0.Coords) (arg1 : Memref sig .tc .vmem S240x512 .f32) (harg1 : arg1.IsWhole) (arg2 : Memref sig .tc .vmem S240x64x256 .f32) (harg2 : arg2.IsWhole) (arg3 : Memref sig .tc .vmem S512x256 .f32) (harg3 : arg3.IsWhole) (arg4 : Memref sig .tc .vmem S256x512 .f32) (harg4 : arg4.IsWhole) (arg5 : Memref sig .tc .vmem S512x512 .f32) (harg5 : arg5.IsWhole) (arg6 : Memref sig .tc .vmem S240x512 .f32) (harg6 : arg6.IsWhole) (arg7 : Memref sig .tc .vmem S240x64 .f32) (harg7 : arg7.IsWhole) (arg8 : Memref sig .tc .vmem S240x256 .f32) (harg8 : arg8.IsWhole)
    (x0 : Vec Ideal S240x512 .f32) (x1 : Vec Ideal S240x64x256 .f32) (x2 : Vec Ideal S512x256 .f32) (x3 : Vec Ideal S256x512 .f32) (x4 : Vec Ideal S512x512 .f32)
    (h0 : ∀ i, RowSpec.IsReal (x0 i)) (h1 : ∀ i, RowSpec.IsReal (x1 i)) (h2 : ∀ i, RowSpec.IsReal (x2 i)) :
    out0_A_6 (F := Ideal) c i arg1 harg1 arg2 harg2 arg3 harg3 arg4 harg4 arg5 harg5 arg6 harg6 arg7 harg7 arg8 harg8 x0 x1 x2 x3 x4 = RowSpec.attnArray (B := 240) x0 x1 x2 := by
  unfold out0_A_6
  rw [View.read_writes_eq_canon _ _ _ (cover0_A_6 c i arg1 harg1 arg2 harg2 arg3 harg3 arg4 harg4 arg5 harg5 arg6 harg6 arg7 harg7 arg8 harg8 x0 x1 x2 x3 x4)]
  unfold kernelRun0_A
  dsimp only
  sl_unfold_run_names
  rw [View.canon_cons_unit_zero zero2]
  simp only [View.readAt_eq_ld, Memref.IsWhole.read_unread, View.ld_unit_zero (S := S240x512) zero2,
    View.ld_unit_zero (S := S512x256) zero2]
  rw [readCov_whole_of_pieces arg7.view (logitBlock x0 x1 x2) _ _ _ zero2]
  · funext y
    obtain ⟨r, s, rfl⟩ : ∃ (r : Fin 240) (s : Fin 64), y = ix2 r s := ⟨y 0, y 1, eq_ix2 y⟩
    exact softmax_block x0 x1 x2 h0 h1 h2 r s
  · intro p hp
    simp only [List.mem_cons, List.not_mem_nil, or_false] at hp
    rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl
    · intro x; exact logits_piece 29 ![232, 0] rfl inb_S240x64_S8x64_232_0 slices_S240x256_o232_0_S8x256 ![232, 0, 0] rfl inb_S240x64x256_S8x64x256_232_0_0 x0 x1 x2 x
    · intro x; exact logits_piece 28 ![224, 0] rfl inb_S240x64_S8x64_224_0 slices_S240x256_o224_0_S8x256 ![224, 0, 0] rfl inb_S240x64x256_S8x64x256_224_0_0 x0 x1 x2 x
    · intro x; exact logits_piece 27 ![216, 0] rfl inb_S240x64_S8x64_216_0 slices_S240x256_o216_0_S8x256 ![216, 0, 0] rfl inb_S240x64x256_S8x64x256_216_0_0 x0 x1 x2 x
    · intro x; exact logits_piece 26 ![208, 0] rfl inb_S240x64_S8x64_208_0 slices_S240x256_o208_0_S8x256 ![208, 0, 0] rfl inb_S240x64x256_S8x64x256_208_0_0 x0 x1 x2 x
    · intro x; exact logits_piece 25 ![200, 0] rfl inb_S240x64_S8x64_200_0 slices_S240x256_o200_0_S8x256 ![200, 0, 0] rfl inb_S240x64x256_S8x64x256_200_0_0 x0 x1 x2 x
    · intro x; exact logits_piece 24 ![192, 0] rfl inb_S240x64_S8x64_192_0 slices_S240x256_o192_0_S8x256 ![192, 0, 0] rfl inb_S240x64x256_S8x64x256_192_0_0 x0 x1 x2 x
    · intro x; exact logits_piece 23 ![184, 0] rfl inb_S240x64_S8x64_184_0 slices_S240x256_o184_0_S8x256 ![184, 0, 0] rfl inb_S240x64x256_S8x64x256_184_0_0 x0 x1 x2 x
    · intro x; exact logits_piece 22 ![176, 0] rfl inb_S240x64_S8x64_176_0 slices_S240x256_o176_0_S8x256 ![176, 0, 0] rfl inb_S240x64x256_S8x64x256_176_0_0 x0 x1 x2 x
    · intro x; exact logits_piece 21 ![168, 0] rfl inb_S240x64_S8x64_168_0 slices_S240x256_o168_0_S8x256 ![168, 0, 0] rfl inb_S240x64x256_S8x64x256_168_0_0 x0 x1 x2 x
    · intro x; exact logits_piece 20 ![160, 0] rfl inb_S240x64_S8x64_160_0 slices_S240x256_o160_0_S8x256 ![160, 0, 0] rfl inb_S240x64x256_S8x64x256_160_0_0 x0 x1 x2 x
    · intro x; exact logits_piece 19 ![152, 0] rfl inb_S240x64_S8x64_152_0 slices_S240x256_o152_0_S8x256 ![152, 0, 0] rfl inb_S240x64x256_S8x64x256_152_0_0 x0 x1 x2 x
    · intro x; exact logits_piece 18 ![144, 0] rfl inb_S240x64_S8x64_144_0 slices_S240x256_o144_0_S8x256 ![144, 0, 0] rfl inb_S240x64x256_S8x64x256_144_0_0 x0 x1 x2 x
    · intro x; exact logits_piece 17 ![136, 0] rfl inb_S240x64_S8x64_136_0 slices_S240x256_o136_0_S8x256 ![136, 0, 0] rfl inb_S240x64x256_S8x64x256_136_0_0 x0 x1 x2 x
    · intro x; exact logits_piece 16 ![128, 0] rfl inb_S240x64_S8x64_128_0 slices_S240x256_o128_0_S8x256 ![128, 0, 0] rfl inb_S240x64x256_S8x64x256_128_0_0 x0 x1 x2 x
    · intro x; exact logits_piece 15 ![120, 0] rfl inb_S240x64_S8x64_120_0 slices_S240x256_o120_0_S8x256 ![120, 0, 0] rfl inb_S240x64x256_S8x64x256_120_0_0 x0 x1 x2 x
    · intro x; exact logits_piece 14 ![112, 0] rfl inb_S240x64_S8x64_112_0 slices_S240x256_o112_0_S8x256 ![112, 0, 0] rfl inb_S240x64x256_S8x64x256_112_0_0 x0 x1 x2 x
    · intro x; exact logits_piece 13 ![104, 0] rfl inb_S240x64_S8x64_104_0 slices_S240x256_o104_0_S8x256 ![104, 0, 0] rfl inb_S240x64x256_S8x64x256_104_0_0 x0 x1 x2 x
    · intro x; exact logits_piece 12 ![96, 0] rfl inb_S240x64_S8x64_96_0 slices_S240x256_o96_0_S8x256 ![96, 0, 0] rfl inb_S240x64x256_S8x64x256_96_0_0 x0 x1 x2 x
    · intro x; exact logits_piece 11 ![88, 0] rfl inb_S240x64_S8x64_88_0 slices_S240x256_o88_0_S8x256 ![88, 0, 0] rfl inb_S240x64x256_S8x64x256_88_0_0 x0 x1 x2 x
    · intro x; exact logits_piece 10 ![80, 0] rfl inb_S240x64_S8x64_80_0 slices_S240x256_o80_0_S8x256 ![80, 0, 0] rfl inb_S240x64x256_S8x64x256_80_0_0 x0 x1 x2 x
    · intro x; exact logits_piece 9 ![72, 0] rfl inb_S240x64_S8x64_72_0 slices_S240x256_o72_0_S8x256 ![72, 0, 0] rfl inb_S240x64x256_S8x64x256_72_0_0 x0 x1 x2 x
    · intro x; exact logits_piece 8 ![64, 0] rfl inb_S240x64_S8x64_64_0 slices_S240x256_o64_0_S8x256 ![64, 0, 0] rfl inb_S240x64x256_S8x64x256_64_0_0 x0 x1 x2 x
    · intro x; exact logits_piece 7 ![56, 0] rfl inb_S240x64_S8x64_56_0 slices_S240x256_o56_0_S8x256 ![56, 0, 0] rfl inb_S240x64x256_S8x64x256_56_0_0 x0 x1 x2 x
    · intro x; exact logits_piece 6 ![48, 0] rfl inb_S240x64_S8x64_48_0 slices_S240x256_o48_0_S8x256 ![48, 0, 0] rfl inb_S240x64x256_S8x64x256_48_0_0 x0 x1 x2 x
    · intro x; exact logits_piece 5 ![40, 0] rfl inb_S240x64_S8x64_40_0 slices_S240x256_o40_0_S8x256 ![40, 0, 0] rfl inb_S240x64x256_S8x64x256_40_0_0 x0 x1 x2 x
    · intro x; exact logits_piece 4 ![32, 0] rfl inb_S240x64_S8x64_32_0 slices_S240x256_o32_0_S8x256 ![32, 0, 0] rfl inb_S240x64x256_S8x64x256_32_0_0 x0 x1 x2 x
    · intro x; exact logits_piece 3 ![24, 0] rfl inb_S240x64_S8x64_24_0 slices_S240x256_o24_0_S8x256 ![24, 0, 0] rfl inb_S240x64x256_S8x64x256_24_0_0 x0 x1 x2 x
    · intro x; exact logits_piece 2 ![16, 0] rfl inb_S240x64_S8x64_16_0 slices_S240x256_o16_0_S8x256 ![16, 0, 0] rfl inb_S240x64x256_S8x64x256_16_0_0 x0 x1 x2 x
    · intro x; exact logits_piece 1 ![8, 0] rfl inb_S240x64_S8x64_8_0 slices_S240x256_o8_0_S8x256 ![8, 0, 0] rfl inb_S240x64x256_S8x64x256_8_0_0 x0 x1 x2 x
    · intro x; exact logits_piece 0 ![0, 0] rfl inb_S240x64_S8x64_0_0 slices_S240x256_o0_0_S8x256 ![0, 0, 0] rfl inb_S240x64x256_S8x64x256_0_0_0 x0 x1 x2 x
  · exact View.cover_of_tiledL _ ![8, 64] (by sl_kernel_rfl)

open Idealize.ShloMosaic.Tactic in
/-- What the kernel leaves in the result block of one grid point. -/
theorem block_out (c : Dev nD) (i : grid0.Coords) (arg1 : Memref sig .tc .vmem S240x512 .f32) (harg1 : arg1.IsWhole) (arg2 : Memref sig .tc .vmem S240x64x256 .f32) (harg2 : arg2.IsWhole) (arg3 : Memref sig .tc .vmem S512x256 .f32) (harg3 : arg3.IsWhole) (arg4 : Memref sig .tc .vmem S256x512 .f32) (harg4 : arg4.IsWhole) (arg5 : Memref sig .tc .vmem S512x512 .f32) (harg5 : arg5.IsWhole) (arg6 : Memref sig .tc .vmem S240x512 .f32) (harg6 : arg6.IsWhole) (arg7 : Memref sig .tc .vmem S240x64 .f32) (harg7 : arg7.IsWhole) (arg8 : Memref sig .tc .vmem S240x256 .f32) (harg8 : arg8.IsWhole)
    (x0 : Vec Ideal S240x512 .f32) (x1 : Vec Ideal S240x64x256 .f32) (x2 : Vec Ideal S512x256 .f32) (x3 : Vec Ideal S256x512 .f32) (x4 : Vec Ideal S512x512 .f32)
    (h0 : ∀ i, RowSpec.IsReal (x0 i)) (h1 : ∀ i, RowSpec.IsReal (x1 i)) (h2 : ∀ i, RowSpec.IsReal (x2 i)) :
    out0_A_5 (F := Ideal) c i arg1 harg1 arg2 harg2 arg3 harg3 arg4 harg4 arg5 harg5 arg6 harg6 arg7 harg7 arg8 harg8 x0 x1 x2 x3 x4 = RowSpec.outArray (B := 240) x0 x1 x2 x3 x4 := by
  unfold out0_A_5
  rw [View.read_writes_eq_canon _ _ _ (cover0_A_5 c i arg1 harg1 arg2 harg2 arg3 harg3 arg4 harg4 arg5 harg5 arg6 harg6 arg7 harg7 arg8 harg8 x0 x1 x2 x3 x4)]
  unfold kernelRun0_A
  dsimp only
  sl_unfold_run_names
  rw [View.canon_unit_zero zero2]
  simp only [View.readAt_eq_ld, Memref.IsWhole.read_unread, View.ld_unit_zero (S := S240x512) zero2,
    View.ld_unit_zero (S := S512x256) zero2, View.ld_unit_zero (S := S256x512) zero2, View.ld_unit_zero (S := S512x512) zero2]
  rw [readCov_whole_of_pieces arg7.view (logitBlock x0 x1 x2) _ _ _ zero2]
  · rw [readCov_whole_of_pieces arg8.view (mixBlock x0 x1 x2) _ _ _ zero2]
    · funext y
      obtain ⟨r, q, rfl⟩ : ∃ (r : Fin 240) (q : Fin 512), y = ix2 r q := ⟨y 0, y 1, eq_ix2 y⟩
      rw [final_apply]
      rfl
    · intro p hp
      simp only [List.mem_cons, List.not_mem_nil, or_false] at hp
      rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl
      · intro x; exact mix_piece 29 ![232, 0] rfl inb_S240x256_S8x256_232_0 slices_S240x64_o232_0_S8x64 ![232, 0, 0] rfl inb_S240x64x256_S8x64x256_232_0_0 x0 x1 x2 h0 h1 h2 x
      · intro x; exact mix_piece 28 ![224, 0] rfl inb_S240x256_S8x256_224_0 slices_S240x64_o224_0_S8x64 ![224, 0, 0] rfl inb_S240x64x256_S8x64x256_224_0_0 x0 x1 x2 h0 h1 h2 x
      · intro x; exact mix_piece 27 ![216, 0] rfl inb_S240x256_S8x256_216_0 slices_S240x64_o216_0_S8x64 ![216, 0, 0] rfl inb_S240x64x256_S8x64x256_216_0_0 x0 x1 x2 h0 h1 h2 x
      · intro x; exact mix_piece 26 ![208, 0] rfl inb_S240x256_S8x256_208_0 slices_S240x64_o208_0_S8x64 ![208, 0, 0] rfl inb_S240x64x256_S8x64x256_208_0_0 x0 x1 x2 h0 h1 h2 x
      · intro x; exact mix_piece 25 ![200, 0] rfl inb_S240x256_S8x256_200_0 slices_S240x64_o200_0_S8x64 ![200, 0, 0] rfl inb_S240x64x256_S8x64x256_200_0_0 x0 x1 x2 h0 h1 h2 x
      · intro x; exact mix_piece 24 ![192, 0] rfl inb_S240x256_S8x256_192_0 slices_S240x64_o192_0_S8x64 ![192, 0, 0] rfl inb_S240x64x256_S8x64x256_192_0_0 x0 x1 x2 h0 h1 h2 x
      · intro x; exact mix_piece 23 ![184, 0] rfl inb_S240x256_S8x256_184_0 slices_S240x64_o184_0_S8x64 ![184, 0, 0] rfl inb_S240x64x256_S8x64x256_184_0_0 x0 x1 x2 h0 h1 h2 x
      · intro x; exact mix_piece 22 ![176, 0] rfl inb_S240x256_S8x256_176_0 slices_S240x64_o176_0_S8x64 ![176, 0, 0] rfl inb_S240x64x256_S8x64x256_176_0_0 x0 x1 x2 h0 h1 h2 x
      · intro x; exact mix_piece 21 ![168, 0] rfl inb_S240x256_S8x256_168_0 slices_S240x64_o168_0_S8x64 ![168, 0, 0] rfl inb_S240x64x256_S8x64x256_168_0_0 x0 x1 x2 h0 h1 h2 x
      · intro x; exact mix_piece 20 ![160, 0] rfl inb_S240x256_S8x256_160_0 slices_S240x64_o160_0_S8x64 ![160, 0, 0] rfl inb_S240x64x256_S8x64x256_160_0_0 x0 x1 x2 h0 h1 h2 x
      · intro x; exact mix_piece 19 ![152, 0] rfl inb_S240x256_S8x256_152_0 slices_S240x64_o152_0_S8x64 ![152, 0, 0] rfl inb_S240x64x256_S8x64x256_152_0_0 x0 x1 x2 h0 h1 h2 x
      · intro x; exact mix_piece 18 ![144, 0] rfl inb_S240x256_S8x256_144_0 slices_S240x64_o144_0_S8x64 ![144, 0, 0] rfl inb_S240x64x256_S8x64x256_144_0_0 x0 x1 x2 h0 h1 h2 x
      · intro x; exact mix_piece 17 ![136, 0] rfl inb_S240x256_S8x256_136_0 slices_S240x64_o136_0_S8x64 ![136, 0, 0] rfl inb_S240x64x256_S8x64x256_136_0_0 x0 x1 x2 h0 h1 h2 x
      · intro x; exact mix_piece 16 ![128, 0] rfl inb_S240x256_S8x256_128_0 slices_S240x64_o128_0_S8x64 ![128, 0, 0] rfl inb_S240x64x256_S8x64x256_128_0_0 x0 x1 x2 h0 h1 h2 x
      · intro x; exact mix_piece 15 ![120, 0] rfl inb_S240x256_S8x256_120_0 slices_S240x64_o120_0_S8x64 ![120, 0, 0] rfl inb_S240x64x256_S8x64x256_120_0_0 x0 x1 x2 h0 h1 h2 x
      · intro x; exact mix_piece 14 ![112, 0] rfl inb_S240x256_S8x256_112_0 slices_S240x64_o112_0_S8x64 ![112, 0, 0] rfl inb_S240x64x256_S8x64x256_112_0_0 x0 x1 x2 h0 h1 h2 x
      · intro x; exact mix_piece 13 ![104, 0] rfl inb_S240x256_S8x256_104_0 slices_S240x64_o104_0_S8x64 ![104, 0, 0] rfl inb_S240x64x256_S8x64x256_104_0_0 x0 x1 x2 h0 h1 h2 x
      · intro x; exact mix_piece 12 ![96, 0] rfl inb_S240x256_S8x256_96_0 slices_S240x64_o96_0_S8x64 ![96, 0, 0] rfl inb_S240x64x256_S8x64x256_96_0_0 x0 x1 x2 h0 h1 h2 x
      · intro x; exact mix_piece 11 ![88, 0] rfl inb_S240x256_S8x256_88_0 slices_S240x64_o88_0_S8x64 ![88, 0, 0] rfl inb_S240x64x256_S8x64x256_88_0_0 x0 x1 x2 h0 h1 h2 x
      · intro x; exact mix_piece 10 ![80, 0] rfl inb_S240x256_S8x256_80_0 slices_S240x64_o80_0_S8x64 ![80, 0, 0] rfl inb_S240x64x256_S8x64x256_80_0_0 x0 x1 x2 h0 h1 h2 x
      · intro x; exact mix_piece 9 ![72, 0] rfl inb_S240x256_S8x256_72_0 slices_S240x64_o72_0_S8x64 ![72, 0, 0] rfl inb_S240x64x256_S8x64x256_72_0_0 x0 x1 x2 h0 h1 h2 x
      · intro x; exact mix_piece 8 ![64, 0] rfl inb_S240x256_S8x256_64_0 slices_S240x64_o64_0_S8x64 ![64, 0, 0] rfl inb_S240x64x256_S8x64x256_64_0_0 x0 x1 x2 h0 h1 h2 x
      · intro x; exact mix_piece 7 ![56, 0] rfl inb_S240x256_S8x256_56_0 slices_S240x64_o56_0_S8x64 ![56, 0, 0] rfl inb_S240x64x256_S8x64x256_56_0_0 x0 x1 x2 h0 h1 h2 x
      · intro x; exact mix_piece 6 ![48, 0] rfl inb_S240x256_S8x256_48_0 slices_S240x64_o48_0_S8x64 ![48, 0, 0] rfl inb_S240x64x256_S8x64x256_48_0_0 x0 x1 x2 h0 h1 h2 x
      · intro x; exact mix_piece 5 ![40, 0] rfl inb_S240x256_S8x256_40_0 slices_S240x64_o40_0_S8x64 ![40, 0, 0] rfl inb_S240x64x256_S8x64x256_40_0_0 x0 x1 x2 h0 h1 h2 x
      · intro x; exact mix_piece 4 ![32, 0] rfl inb_S240x256_S8x256_32_0 slices_S240x64_o32_0_S8x64 ![32, 0, 0] rfl inb_S240x64x256_S8x64x256_32_0_0 x0 x1 x2 h0 h1 h2 x
      · intro x; exact mix_piece 3 ![24, 0] rfl inb_S240x256_S8x256_24_0 slices_S240x64_o24_0_S8x64 ![24, 0, 0] rfl inb_S240x64x256_S8x64x256_24_0_0 x0 x1 x2 h0 h1 h2 x
      · intro x; exact mix_piece 2 ![16, 0] rfl inb_S240x256_S8x256_16_0 slices_S240x64_o16_0_S8x64 ![16, 0, 0] rfl inb_S240x64x256_S8x64x256_16_0_0 x0 x1 x2 h0 h1 h2 x
      · intro x; exact mix_piece 1 ![8, 0] rfl inb_S240x256_S8x256_8_0 slices_S240x64_o8_0_S8x64 ![8, 0, 0] rfl inb_S240x64x256_S8x64x256_8_0_0 x0 x1 x2 h0 h1 h2 x
      · intro x; exact mix_piece 0 ![0, 0] rfl inb_S240x256_S8x256_0_0 slices_S240x64_o0_0_S8x64 ![0, 0, 0] rfl inb_S240x64x256_S8x64x256_0_0_0 x0 x1 x2 h0 h1 h2 x
    · exact View.cover_of_tiledL _ ![8, 256] (by sl_kernel_rfl)
  · intro p hp
    simp only [List.mem_cons, List.not_mem_nil, or_false] at hp
    rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl
    · intro x; exact logits_piece 29 ![232, 0] rfl inb_S240x64_S8x64_232_0 slices_S240x256_o232_0_S8x256 ![232, 0, 0] rfl inb_S240x64x256_S8x64x256_232_0_0 x0 x1 x2 x
    · intro x; exact logits_piece 28 ![224, 0] rfl inb_S240x64_S8x64_224_0 slices_S240x256_o224_0_S8x256 ![224, 0, 0] rfl inb_S240x64x256_S8x64x256_224_0_0 x0 x1 x2 x
    · intro x; exact logits_piece 27 ![216, 0] rfl inb_S240x64_S8x64_216_0 slices_S240x256_o216_0_S8x256 ![216, 0, 0] rfl inb_S240x64x256_S8x64x256_216_0_0 x0 x1 x2 x
    · intro x; exact logits_piece 26 ![208, 0] rfl inb_S240x64_S8x64_208_0 slices_S240x256_o208_0_S8x256 ![208, 0, 0] rfl inb_S240x64x256_S8x64x256_208_0_0 x0 x1 x2 x
    · intro x; exact logits_piece 25 ![200, 0] rfl inb_S240x64_S8x64_200_0 slices_S240x256_o200_0_S8x256 ![200, 0, 0] rfl inb_S240x64x256_S8x64x256_200_0_0 x0 x1 x2 x
    · intro x; exact logits_piece 24 ![192, 0] rfl inb_S240x64_S8x64_192_0 slices_S240x256_o192_0_S8x256 ![192, 0, 0] rfl inb_S240x64x256_S8x64x256_192_0_0 x0 x1 x2 x
    · intro x; exact logits_piece 23 ![184, 0] rfl inb_S240x64_S8x64_184_0 slices_S240x256_o184_0_S8x256 ![184, 0, 0] rfl inb_S240x64x256_S8x64x256_184_0_0 x0 x1 x2 x
    · intro x; exact logits_piece 22 ![176, 0] rfl inb_S240x64_S8x64_176_0 slices_S240x256_o176_0_S8x256 ![176, 0, 0] rfl inb_S240x64x256_S8x64x256_176_0_0 x0 x1 x2 x
    · intro x; exact logits_piece 21 ![168, 0] rfl inb_S240x64_S8x64_168_0 slices_S240x256_o168_0_S8x256 ![168, 0, 0] rfl inb_S240x64x256_S8x64x256_168_0_0 x0 x1 x2 x
    · intro x; exact logits_piece 20 ![160, 0] rfl inb_S240x64_S8x64_160_0 slices_S240x256_o160_0_S8x256 ![160, 0, 0] rfl inb_S240x64x256_S8x64x256_160_0_0 x0 x1 x2 x
    · intro x; exact logits_piece 19 ![152, 0] rfl inb_S240x64_S8x64_152_0 slices_S240x256_o152_0_S8x256 ![152, 0, 0] rfl inb_S240x64x256_S8x64x256_152_0_0 x0 x1 x2 x
    · intro x; exact logits_piece 18 ![144, 0] rfl inb_S240x64_S8x64_144_0 slices_S240x256_o144_0_S8x256 ![144, 0, 0] rfl inb_S240x64x256_S8x64x256_144_0_0 x0 x1 x2 x
    · intro x; exact logits_piece 17 ![136, 0] rfl inb_S240x64_S8x64_136_0 slices_S240x256_o136_0_S8x256 ![136, 0, 0] rfl inb_S240x64x256_S8x64x256_136_0_0 x0 x1 x2 x
    · intro x; exact logits_piece 16 ![128, 0] rfl inb_S240x64_S8x64_128_0 slices_S240x256_o128_0_S8x256 ![128, 0, 0] rfl inb_S240x64x256_S8x64x256_128_0_0 x0 x1 x2 x
    · intro x; exact logits_piece 15 ![120, 0] rfl inb_S240x64_S8x64_120_0 slices_S240x256_o120_0_S8x256 ![120, 0, 0] rfl inb_S240x64x256_S8x64x256_120_0_0 x0 x1 x2 x
    · intro x; exact logits_piece 14 ![112, 0] rfl inb_S240x64_S8x64_112_0 slices_S240x256_o112_0_S8x256 ![112, 0, 0] rfl inb_S240x64x256_S8x64x256_112_0_0 x0 x1 x2 x
    · intro x; exact logits_piece 13 ![104, 0] rfl inb_S240x64_S8x64_104_0 slices_S240x256_o104_0_S8x256 ![104, 0, 0] rfl inb_S240x64x256_S8x64x256_104_0_0 x0 x1 x2 x
    · intro x; exact logits_piece 12 ![96, 0] rfl inb_S240x64_S8x64_96_0 slices_S240x256_o96_0_S8x256 ![96, 0, 0] rfl inb_S240x64x256_S8x64x256_96_0_0 x0 x1 x2 x
    · intro x; exact logits_piece 11 ![88, 0] rfl inb_S240x64_S8x64_88_0 slices_S240x256_o88_0_S8x256 ![88, 0, 0] rfl inb_S240x64x256_S8x64x256_88_0_0 x0 x1 x2 x
    · intro x; exact logits_piece 10 ![80, 0] rfl inb_S240x64_S8x64_80_0 slices_S240x256_o80_0_S8x256 ![80, 0, 0] rfl inb_S240x64x256_S8x64x256_80_0_0 x0 x1 x2 x
    · intro x; exact logits_piece 9 ![72, 0] rfl inb_S240x64_S8x64_72_0 slices_S240x256_o72_0_S8x256 ![72, 0, 0] rfl inb_S240x64x256_S8x64x256_72_0_0 x0 x1 x2 x
    · intro x; exact logits_piece 8 ![64, 0] rfl inb_S240x64_S8x64_64_0 slices_S240x256_o64_0_S8x256 ![64, 0, 0] rfl inb_S240x64x256_S8x64x256_64_0_0 x0 x1 x2 x
    · intro x; exact logits_piece 7 ![56, 0] rfl inb_S240x64_S8x64_56_0 slices_S240x256_o56_0_S8x256 ![56, 0, 0] rfl inb_S240x64x256_S8x64x256_56_0_0 x0 x1 x2 x
    · intro x; exact logits_piece 6 ![48, 0] rfl inb_S240x64_S8x64_48_0 slices_S240x256_o48_0_S8x256 ![48, 0, 0] rfl inb_S240x64x256_S8x64x256_48_0_0 x0 x1 x2 x
    · intro x; exact logits_piece 5 ![40, 0] rfl inb_S240x64_S8x64_40_0 slices_S240x256_o40_0_S8x256 ![40, 0, 0] rfl inb_S240x64x256_S8x64x256_40_0_0 x0 x1 x2 x
    · intro x; exact logits_piece 4 ![32, 0] rfl inb_S240x64_S8x64_32_0 slices_S240x256_o32_0_S8x256 ![32, 0, 0] rfl inb_S240x64x256_S8x64x256_32_0_0 x0 x1 x2 x
    · intro x; exact logits_piece 3 ![24, 0] rfl inb_S240x64_S8x64_24_0 slices_S240x256_o24_0_S8x256 ![24, 0, 0] rfl inb_S240x64x256_S8x64x256_24_0_0 x0 x1 x2 x
    · intro x; exact logits_piece 2 ![16, 0] rfl inb_S240x64_S8x64_16_0 slices_S240x256_o16_0_S8x256 ![16, 0, 0] rfl inb_S240x64x256_S8x64x256_16_0_0 x0 x1 x2 x
    · intro x; exact logits_piece 1 ![8, 0] rfl inb_S240x64_S8x64_8_0 slices_S240x256_o8_0_S8x256 ![8, 0, 0] rfl inb_S240x64x256_S8x64x256_8_0_0 x0 x1 x2 x
    · intro x; exact logits_piece 0 ![0, 0] rfl inb_S240x64_S8x64_0_0 slices_S240x256_o0_0_S8x256 ![0, 0, 0] rfl inb_S240x64x256_S8x64x256_0_0_0 x0 x1 x2 x
  · exact View.cover_of_tiledL _ ![8, 64] (by sl_kernel_rfl)

end Cert.KernelSide
end
-- ==== Proof.KernelArray.lean ====
/-
  From the kernel's blocks to its two result arrays.

  The kernel's grid has eight points; point t handles rows 240·t … 240·t + 239. At point t the query block and the
  context block are those rows of the query and context arrays, the three weight matrices are read whole, and the two
  result blocks are written to those rows of the result arrays. The specification's arrays are row functions: row r of
  either result depends on row r of the query and of the context alone. So the 240-row result of point t's blocks is
  rows 240·t … 240·t + 239 of the 1920-row result of the arrays, and since the eight row ranges cover all 1920 rows,
  the arrays the run leaves are the specification's.
-/
import proofs.«106149_g2000304853130043_pallasbulk_1157_21_alg».proof.Proof.Gen.KernelIdeal.Value
import proofs.«106149_g2000304853130043_pallasbulk_1157_21_alg».proof.Proof.RowSpec
import proofs.«106149_g2000304853130043_pallasbulk_1157_21_alg».proof.Proof.RowFinite
import proofs.«106149_g2000304853130043_pallasbulk_1157_21_alg».proof.Proof.PreReal
import proofs.«106149_g2000304853130043_pallasbulk_1157_21_alg».proof.Proof.KernelBlock
import Idealize.ShloMosaic.Lib.ValueIdx
import Idealize.ShloMosaic.Lib.Pipeline.Value

set_option maxRecDepth 16384

noncomputable section

namespace Cert.KernelSide

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## Where each window's block sits -/

/-- The block indices, decided over the eight points: the query, the context and both results move with the point along
    the rows; the three weight matrices stay at block 0. -/
theorem idx_facts : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- An entry of the query block at point `t` is the entry of the query array 240·t rows further down. -/
theorem iblk0_apply (c : Dev nD) (t : Fin cfg0.N) (y : S240x512.Idx) (k : S1920x512.Idx)
    (hk0 : (k 0).val = 240 * t.val + (y 0).val) (hk1 : (k 1).val = (y 1).val) :
    (iblk m c 0 t : Vec Ideal S240x512 .f32) y = (m ((c : Thread nD τ).loc main_arg0) : S1920x512.Idx → EReal) k := by
  obtain ⟨e0, e1, -⟩ := idx_facts t
  unfold iblk
  rw [View.read_apply]
  show V m c main_arg0 _ = m (c.tc.loc main_arg0) _
  unfold V
  congr 1
  funext a; apply Fin.ext
  match a with
  | ⟨0, _⟩ => show win0_0.index t 0 * 240 + 1 * (y 0).val = (k 0).val; rw [e0, hk0]; omega
  | ⟨1, _⟩ => show win0_0.index t 1 * 512 + 1 * (y 1).val = (k 1).val; rw [e1, hk1]; omega

/-- An entry of the context block at point `t` is the entry of the context array 240·t slabs further down. -/
theorem iblk1_apply (c : Dev nD) (t : Fin cfg0.N) (y : S240x64x256.Idx) (k : S1920x64x256.Idx)
    (hk0 : (k 0).val = 240 * t.val + (y 0).val) (hk1 : (k 1).val = (y 1).val) (hk2 : (k 2).val = (y 2).val) :
    (iblk m c 1 t : Vec Ideal S240x64x256 .f32) y = (m ((c : Thread nD τ).loc main_arg1) : S1920x64x256.Idx → EReal) k := by
  obtain ⟨-, -, e0, e1, e2, -⟩ := idx_facts t
  unfold iblk
  rw [View.read_apply]
  show V m c main_arg1 _ = m (c.tc.loc main_arg1) _
  unfold V
  congr 1
  funext a; apply Fin.ext
  match a with
  | ⟨0, _⟩ => show win0_1.index t 0 * 240 + 1 * (y 0).val = (k 0).val; rw [e0, hk0]; omega
  | ⟨1, _⟩ => show win0_1.index t 1 * 64 + 1 * (y 1).val = (k 1).val; rw [e1, hk1]; omega
  | ⟨2, _⟩ => show win0_1.index t 2 * 256 + 1 * (y 2).val = (k 2).val; rw [e2, hk2]; omega

/-- The three weight blocks are the weight arrays, at every point. -/
theorem iblk2_apply (c : Dev nD) (t : Fin cfg0.N) (y : S512x256.Idx) :
    (iblk m c 2 t : Vec Ideal S512x256 .f32) y = (m ((c : Thread nD τ).loc main_arg2) : S512x256.Idx → EReal) y := by
  obtain ⟨-, -, -, -, -, e0, e1, -⟩ := idx_facts t
  unfold iblk
  rw [View.read_apply]
  show V m c main_arg2 _ = m (c.tc.loc main_arg2) _
  unfold V
  congr 1
  funext a; apply Fin.ext
  match a with
  | ⟨0, _⟩ => show win0_2.index t 0 * 512 + 1 * (y 0).val = (y 0).val; rw [e0]; omega
  | ⟨1, _⟩ => show win0_2.index t 1 * 256 + 1 * (y 1).val = (y 1).val; rw [e1]; omega

theorem iblk3_apply (c : Dev nD) (t : Fin cfg0.N) (y : S256x512.Idx) :
    (iblk m c 3 t : Vec Ideal S256x512 .f32) y = (m ((c : Thread nD τ).loc main_arg3) : S256x512.Idx → EReal) y := by
  obtain ⟨-, -, -, -, -, -, -, e0, e1, -⟩ := idx_facts t
  unfold iblk
  rw [View.read_apply]
  show V m c main_arg3 _ = m (c.tc.loc main_arg3) _
  unfold V
  congr 1
  funext a; apply Fin.ext
  match a with
  | ⟨0, _⟩ => show win0_3.index t 0 * 256 + 1 * (y 0).val = (y 0).val; rw [e0]; omega
  | ⟨1, _⟩ => show win0_3.index t 1 * 512 + 1 * (y 1).val = (y 1).val; rw [e1]; omega

theorem iblk4_apply (c : Dev nD) (t : Fin cfg0.N) (y : S512x512.Idx) :
    (iblk m c 4 t : Vec Ideal S512x512 .f32) y = (m ((c : Thread nD τ).loc main_arg4) : S512x512.Idx → EReal) y := by
  obtain ⟨-, -, -, -, -, -, -, -, -, e0, e1, -⟩ := idx_facts t
  unfold iblk
  rw [View.read_apply]
  show V m c main_arg4 _ = m (c.tc.loc main_arg4) _
  unfold V
  congr 1
  funext a; apply Fin.ext
  match a with
  | ⟨0, _⟩ => show win0_4.index t 0 * 512 + 1 * (y 0).val = (y 0).val; rw [e0]; omega
  | ⟨1, _⟩ => show win0_4.index t 1 * 512 + 1 * (y 1).val = (y 1).val; rw [e1]; omega

/-! ## A row of a block's result is a row of the arrays' result -/

/-- The first result at two indices agrees when the two rows' data agree: it is a row function. -/
theorem outArray_congr {B B' : Nat}
    (H : (⟨2, ![B, 512]⟩ : Shape).Idx → EReal) (X : (⟨3, ![B, 64, 256]⟩ : Shape).Idx → EReal)
    (H' : (⟨2, ![B', 512]⟩ : Shape).Idx → EReal) (X' : (⟨3, ![B', 64, 256]⟩ : Shape).Idx → EReal)
    (Win Win' : (⟨2, ![512, 256]⟩ : Shape).Idx → EReal) (Wc Wc' : (⟨2, ![256, 512]⟩ : Shape).Idx → EReal)
    (Wh Wh' : (⟨2, ![512, 512]⟩ : Shape).Idx → EReal)
    (i : (⟨2, ![B, 512]⟩ : Shape).Idx) (i' : (⟨2, ![B', 512]⟩ : Shape).Idx)
    (hH : RowSpec.rowOf H' (i' 0) = RowSpec.rowOf H (i 0)) (hX : RowSpec.slabOf X' (i' 0) = RowSpec.slabOf X (i 0))
    (hWin : Win' = Win) (hWc : Wc' = Wc) (hWh : Wh' = Wh) (hq : (i' 1 : Fin 512) = i 1) :
    RowSpec.outArray H' X' Win' Wc' Wh' i' = RowSpec.outArray H X Win Wc Wh i := by
  subst hWin hWc hWh
  show RowSpec.out (RowSpec.rowOf H' (i' 0)) (RowSpec.slabOf X' (i' 0)) _ _ _ (i' 1)
    = RowSpec.out (RowSpec.rowOf H (i 0)) (RowSpec.slabOf X (i 0)) _ _ _ (i 1)
  rw [hH, hX, hq]

/-- The second result likewise. -/
theorem attnArray_congr {B B' : Nat}
    (H : (⟨2, ![B, 512]⟩ : Shape).Idx → EReal) (X : (⟨3, ![B, 64, 256]⟩ : Shape).Idx → EReal)
    (H' : (⟨2, ![B', 512]⟩ : Shape).Idx → EReal) (X' : (⟨3, ![B', 64, 256]⟩ : Shape).Idx → EReal)
    (Win Win' : (⟨2, ![512, 256]⟩ : Shape).Idx → EReal)
    (i : (⟨2, ![B, 64]⟩ : Shape).Idx) (i' : (⟨2, ![B', 64]⟩ : Shape).Idx)
    (hH : RowSpec.rowOf H' (i' 0) = RowSpec.rowOf H (i 0)) (hX : RowSpec.slabOf X' (i' 0) = RowSpec.slabOf X (i 0))
    (hWin : Win' = Win) (hq : (i' 1 : Fin 64) = i 1) :
    RowSpec.attnArray H' X' Win' i' = RowSpec.attnArray H X Win i := by
  subst hWin
  show RowSpec.attn (RowSpec.rowOf H' (i' 0)) (RowSpec.slabOf X' (i' 0)) _ (i' 1)
    = RowSpec.attn (RowSpec.rowOf H (i 0)) (RowSpec.slabOf X (i 0)) _ (i 1)
  rw [hH, hX, hq]

/-- Row `b` of the query block at point `t` is row 240·t + b of the query array. -/
theorem rowOf_iblk0 (c : Dev nD) (t : Fin cfg0.N) (b : Fin 240) (r : Fin 1920) (hr : r.val = 240 * t.val + b.val) :
    RowSpec.rowOf (B := 240) (n := 512) (iblk m c 0 t) b
      = RowSpec.rowOf (B := 1920) (n := 512) (m ((c : Thread nD τ).loc main_arg0)) r := by
  funext k
  exact iblk0_apply m c t (ix2 b k) (ix2 r k) hr rfl

/-- Slab `b` of the context block at point `t` is slab 240·t + b of the context array. -/
theorem slabOf_iblk1 (c : Dev nD) (t : Fin cfg0.N) (b : Fin 240) (r : Fin 1920) (hr : r.val = 240 * t.val + b.val) :
    RowSpec.slabOf (B := 240) (n := 64) (p := 256) (iblk m c 1 t) b
      = RowSpec.slabOf (B := 1920) (n := 64) (p := 256) (m ((c : Thread nD τ).loc main_arg1)) r := by
  funext s d
  exact iblk1_apply m c t (ix3 b s d) (ix3 r s d) hr rfl rfl

/-! ## What each point writes back -/

/-- A 240-row array that agrees, row by row, with rows 240·t … of a 1920-row array is that array read through point
    `t`'s block of the first result's window. -/
theorem out_point (c : Dev nD) (t : Fin cfg0.N) (G' : S240x512.Idx → EReal) (G : S1920x512.Idx → EReal)
    (h : ∀ (y : S240x512.Idx) (k : S1920x512.Idx), (k 0).val = 240 * t.val + (y 0).val → (k 1).val = (y 1).val → G' y = G k) :
    (cfg0.win 5).cut (grid0.coords t) G' = ((cfg0.win 5).blk t).view.read (Elt Ideal) G := by
  obtain ⟨-, -, -, -, -, -, -, -, -, -, -, e0, e1, -⟩ := idx_facts t
  funext j
  rw [View.read_apply]
  refine h _ _ ?_ ?_
  · show win0_5.index t 0 * 240 + 1 * (j 0).val = 240 * t.val + (j 0).val; rw [e0]; omega
  · show win0_5.index t 1 * 512 + 1 * (j 1).val = (j 1).val; rw [e1]; omega

/-- The same for the second result's window. -/
theorem attn_point (c : Dev nD) (t : Fin cfg0.N) (G' : S240x64.Idx → EReal) (G : S1920x64.Idx → EReal)
    (h : ∀ (y : S240x64.Idx) (k : S1920x64.Idx), (k 0).val = 240 * t.val + (y 0).val → (k 1).val = (y 1).val → G' y = G k) :
    (cfg0.win 6).cut (grid0.coords t) G' = ((cfg0.win 6).blk t).view.read (Elt Ideal) G := by
  obtain ⟨-, -, -, -, -, -, -, -, -, -, -, -, -, e0, e1⟩ := idx_facts t
  funext j
  rw [View.read_apply]
  refine h _ _ ?_ ?_
  · show win0_6.index t 0 * 240 + 1 * (j 0).val = 240 * t.val + (j 0).val; rw [e0]; omega
  · show win0_6.index t 1 * 64 + 1 * (j 1).val = (j 1).val; rw [e1]; omega

variable [hP : Cert.Pre_finite_inputs.Facts]

/-- Under the precondition the entries of the query, context and projection blocks at any point are real numbers: they
    are entries of the arrays. -/
theorem iblk_real (hpre : Cert.Pre_KernelIdeal m) (c : Dev nD) (t : Fin cfg0.N) :
    (∀ y, RowSpec.IsReal ((iblk m c 0 t : Vec Ideal S240x512 .f32) y))
    ∧ (∀ y, RowSpec.IsReal ((iblk m c 1 t : Vec Ideal S240x64x256 .f32) y))
    ∧ (∀ y, RowSpec.IsReal ((iblk m c 2 t : Vec Ideal S512x256 .f32) y)) := by
  obtain ⟨r0, r1, r2⟩ := Cert.PreReal.real_args m hpre c
  refine ⟨fun y => ?_, fun y => ?_, fun y => ?_⟩
  · unfold iblk; rw [View.read_apply]; exact r0 _
  · unfold iblk; rw [View.read_apply]; exact r1 _
  · unfold iblk; rw [View.read_apply]; exact r2 _

/-- WHAT POINT `t` WRITES BACK to the first result: block `t` of the specification's first array of the argument arrays. -/
theorem flushed_out (hpre : Cert.Pre_KernelIdeal m) (c : Dev nD) (t : Fin cfg0.N) :
    (dats m 0 c).flushed 5 t = ((cfg0.win 5).blk t).view.read (Elt Ideal)
      (RowSpec.outArray (B := 1920) (m ((c : Thread nD τ).loc main_arg0)) (m ((c : Thread nD τ).loc main_arg1))
        (m ((c : Thread nD τ).loc main_arg2)) (m ((c : Thread nD τ).loc main_arg3)) (m ((c : Thread nD τ).loc main_arg4))) := by
  obtain ⟨r0, r1, r2⟩ := iblk_real m hpre c t
  rw [Value.flushed5_A]
  refine (congrArg ((cfg0.win 5).cut (grid0.coords t))
    (block_out c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) scM0_0 (Memref.isWhole_whole _)
      (iblk m c 0 t) (iblk m c 1 t) (iblk m c 2 t) (iblk m c 3 t) (iblk m c 4 t) r0 r1 r2)).trans ?_
  refine out_point c t _ _ fun y k hk0 hk1 => ?_
  have hy0 : (y 0).val < 240 := (y 0).isLt
  refine outArray_congr _ _ _ _ _ _ _ _ _ _ k y
    (rowOf_iblk0 m c t (y 0) (k 0) hk0) (slabOf_iblk1 m c t (y 0) (k 0) hk0)
    (funext fun z => iblk2_apply m c t z) (funext fun z => iblk3_apply m c t z) (funext fun z => iblk4_apply m c t z)
    (Fin.ext hk1.symm)

/-- WHAT POINT `t` WRITES BACK to the second result: block `t` of the specification's second array of the argument arrays. -/
theorem flushed_attn (hpre : Cert.Pre_KernelIdeal m) (c : Dev nD) (t : Fin cfg0.N) :
    (dats m 0 c).flushed 6 t = ((cfg0.win 6).blk t).view.read (Elt Ideal)
      (RowSpec.attnArray (B := 1920) (m ((c : Thread nD τ).loc main_arg0)) (m ((c : Thread nD τ).loc main_arg1))
        (m ((c : Thread nD τ).loc main_arg2))) := by
  obtain ⟨r0, r1, r2⟩ := iblk_real m hpre c t
  rw [Value.flushed6_A]
  refine (congrArg ((cfg0.win 6).cut (grid0.coords t))
    (block_attn c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) scM0_0 (Memref.isWhole_whole _)
      (iblk m c 0 t) (iblk m c 1 t) (iblk m c 2 t) (iblk m c 3 t) (iblk m c 4 t) r0 r1 r2)).trans ?_
  refine attn_point c t _ _ fun y k hk0 hk1 => ?_
  refine attnArray_congr _ _ _ _ _ _ k y
    (rowOf_iblk0 m c t (y 0) (k 0) hk0) (slabOf_iblk1 m c t (y 0) (k 0) hk0)
    (funext fun z => iblk2_apply m c t z) (Fin.ext hk1.symm)

/-! ## The eight blocks cover the arrays -/

/-- An index of the first result is in point `t`'s block iff each coordinate is in the block's range on its axis. -/
theorem mem_blk_out (t : Fin cfg0.N) (i : S1920x512.Idx) :
    i ∈ ((cfg0.win 5).blk t).view.set ↔ ∀ a : Fin 2, win0_5.index t a * S240x512.size a ≤ (i a).val ∧ (i a).val < win0_5.index t a * S240x512.size a + S240x512.size a := by
  show i ∈ ((View.whole main_v0_0).slice (win0_5.rect t)).set ↔ _
  rw [View.set_slice_whole, Rect.mem_set_unit]
  exact Iff.rfl

/-- The same for the second result. -/
theorem mem_blk_attn (t : Fin cfg0.N) (i : S1920x64.Idx) :
    i ∈ ((cfg0.win 6).blk t).view.set ↔ ∀ a : Fin 2, win0_6.index t a * S240x64.size a ≤ (i a).val ∧ (i a).val < win0_6.index t a * S240x64.size a + S240x64.size a := by
  show i ∈ ((View.whole main_v0_1).slice (win0_6.rect t)).set ↔ _
  rw [View.set_slice_whole, Rect.mem_set_unit]
  exact Iff.rfl

/-- Row `r` of the first result is in the block of point `r / 240`. -/
theorem cover_out (i : S1920x512.Idx) :
    ∃ t : Fin cfg0.N, (cfg0.win 5).flush t = true ∧ i ∈ ((cfg0.win 5).blk t).view.set := by
  have hi0 : (i 0).val < 1920 := (i 0).isLt
  have hi1 : (i 1).val < 512 := (i 1).isLt
  have hN : cfg0.N = 8 := N_0
  have ht : (i 0).val / 240 < cfg0.N := by rw [hN]; omega
  obtain ⟨-, -, -, -, -, -, -, -, -, -, -, e0, e1, -⟩ := idx_facts ⟨(i 0).val / 240, ht⟩
  refine ⟨⟨(i 0).val / 240, ht⟩, flush0_5 _, ?_⟩
  rw [mem_blk_out]
  intro a
  match a with
  | ⟨0, _⟩ =>
    show win0_5.index ⟨(i 0).val / 240, ht⟩ 0 * 240 ≤ (i 0).val ∧ (i 0).val < win0_5.index ⟨(i 0).val / 240, ht⟩ 0 * 240 + 240
    rw [e0]; show (i 0).val / 240 * 240 ≤ (i 0).val ∧ (i 0).val < (i 0).val / 240 * 240 + 240; omega
  | ⟨1, _⟩ =>
    show win0_5.index ⟨(i 0).val / 240, ht⟩ 1 * 512 ≤ (i 1).val ∧ (i 1).val < win0_5.index ⟨(i 0).val / 240, ht⟩ 1 * 512 + 512
    rw [e1]; omega

/-- Row `r` of the second result is in the block of point `r / 240`. -/
theorem cover_attn (i : S1920x64.Idx) :
    ∃ t : Fin cfg0.N, (cfg0.win 6).flush t = true ∧ i ∈ ((cfg0.win 6).blk t).view.set := by
  have hi0 : (i 0).val < 1920 := (i 0).isLt
  have hi1 : (i 1).val < 64 := (i 1).isLt
  have hN : cfg0.N = 8 := N_0
  have ht : (i 0).val / 240 < cfg0.N := by rw [hN]; omega
  obtain ⟨-, -, -, -, -, -, -, -, -, -, -, -, -, e0, e1⟩ := idx_facts ⟨(i 0).val / 240, ht⟩
  refine ⟨⟨(i 0).val / 240, ht⟩, flush0_6 _, ?_⟩
  rw [mem_blk_attn]
  intro a
  match a with
  | ⟨0, _⟩ =>
    show win0_6.index ⟨(i 0).val / 240, ht⟩ 0 * 240 ≤ (i 0).val ∧ (i 0).val < win0_6.index ⟨(i 0).val / 240, ht⟩ 0 * 240 + 240
    rw [e0]; show (i 0).val / 240 * 240 ≤ (i 0).val ∧ (i 0).val < (i 0).val / 240 * 240 + 240; omega
  | ⟨1, _⟩ =>
    show win0_6.index ⟨(i 0).val / 240, ht⟩ 1 * 64 ≤ (i 1).val ∧ (i 1).val < win0_6.index ⟨(i 0).val / 240, ht⟩ 1 * 64 + 64
    rw [e1]; omega

/-! ## The arrays after the run -/

/-- The first result array after the run is the specification's first array of the argument arrays. -/
theorem final_out (hpre : Cert.Pre_KernelIdeal m) (c : Dev nD) :
    (dats m 0 c).arrAt 5 cfg0.N
      = RowSpec.outArray (B := 1920) (m ((c : Thread nD τ).loc main_arg0)) (m ((c : Thread nD τ).loc main_arg1))
          (m ((c : Thread nD τ).loc main_arg2)) (m ((c : Thread nD τ).loc main_arg3)) (m ((c : Thread nD τ).loc main_arg4)) :=
  (dats m 0 c).arrAt_eq_of_cover 5 _ (fun t _ => flushed_out m hpre c t) cover_out

/-- The second result array after the run is the specification's second array of the argument arrays. -/
theorem final_attn (hpre : Cert.Pre_KernelIdeal m) (c : Dev nD) :
    (dats m 0 c).arrAt 6 cfg0.N
      = RowSpec.attnArray (B := 1920) (m ((c : Thread nD τ).loc main_arg0)) (m ((c : Thread nD τ).loc main_arg1))
          (m ((c : Thread nD τ).loc main_arg2)) :=
  (dats m 0 c).arrAt_eq_of_cover 6 _ (fun t _ => flushed_attn m hpre c t) cover_attn

/-- The kernel's run, read: both result arrays at the specification's arrays of the arguments, the arguments unchanged. -/
theorem run (hpre : Cert.Pre_KernelIdeal m) :
    θ_run (Cert.KernelIdeal.defs (F := Ideal)) (onTc (τ := Cert.KernelIdeal.τ) (Cert.KernelIdeal.main (F := Ideal))) ⟨m, fun _ => 0, ρ⟩ fun r => ∀ c : Dev nD,
      r.2.mem ((c : Thread nD τ).loc main_v0_0)
        = RowSpec.outArray (B := 1920) (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c : Thread nD τ).loc main_v0_1)
        = RowSpec.attnArray (B := 1920) (m ((c : Thread nD τ).loc main_arg0)) (m ((c : Thread nD τ).loc main_arg1))
            (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final_out m hpre c), (h c).2.1.trans (final_attn m hpre c), (h c).2.2⟩)
    (Value.run_blocks m ρ)

end Cert.KernelSide

end
-- ==== Proof.RefBlock.lean ====
/-
  The reference program's body, read at an index.

  The body works on one block of 128 rows: it loads a block of queries `h` (128 × 512), a block of contexts `x`
  (128 × 64 × 256) and three weight matrices, and stores two whole blocks. Every operation in it is read here at one
  index — a matrix product as the sum over its contracted coordinate, a reduction over one axis as the sum (or the fold
  of `max`) over that axis's coordinates, a unit axis added and broadcast along as the operand at the remaining
  coordinates, a pointwise operation as the operation on the elements — and the formulas that come out are, term for
  term, the row functions of the specification: so the two stored blocks are the specification's two arrays over 128 rows.
-/
import proofs.«106149_g2000304853130043_pallasbulk_1157_21_alg».proof.Proof.Gen.ReferenceIdeal.Value
import proofs.«106149_g2000304853130043_pallasbulk_1157_21_alg».proof.Proof.RowSpec
import Idealize.ShloMosaic.PureOps.Ideal.Laws
import Idealize.ShloMosaic.Lib.ValueIdx
import Idealize.ShloMosaic.Lib.Pipeline.Value

noncomputable section

namespace Cert.RefSide

open Idealize.ShloMosaic Idealize.ShloMosaic.ValueIdx

/-! ## A plain matrix product read at an index -/

/-- A `tpu.matmul` of an m×k by a k×n matrix into the zero splat, read at (a, b), is the sum over the
    contracted coordinate of the products of the entries. -/
theorem matmul_zero_ix2 {m k n : Nat}
    (w : DotDims.WF ⟨2, ![m, k]⟩ ⟨2, ![k, n]⟩ ⟨2, ![m, n]⟩ [1] [0] [0] [1] [] [])
    (prec : Option ContractPrecision) (A : FVec Ideal ⟨2, ![m, k]⟩ .f32) (B : FVec Ideal ⟨2, ![k, n]⟩ .f32)
    (a : Fin m) (b : Fin n) :
    matmul (⟨[1], [0], [0], [1], [], [], w⟩ : DotDims _ _ _) prec A B (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-! ## Reductions over one axis read at an index -/

/-- The sum over the last axis of a rank-3 vector, read at (p, s). -/
theorem reduceAdd_last3 {a b c : Nat} (v : FVec Ideal ⟨3, ![a, b, c]⟩ .f32) (acc : BitVec 32)
    (h : Shape.Reduces ⟨3, ![a, b, c]⟩ [2] ⟨2, ![a, b]⟩) (hφ : FKind.Formats .f32) (hacc : acc = FKind.add.neutral .f32 hφ)
    (p : Fin a) (s : Fin b) :
    multiReduction .add [2] ⟨2, ![a, b]⟩ v acc h hφ hacc (ix2 p s) = ∑ d : Fin c, v (ix3 p s d) := by
  rw [Ideal.multiReduction_add_single]
  show ∑ d : Fin c, v (h.lift (ix2 p s) d) = _
  refine Finset.sum_congr rfl fun d _ => congrArg v ?_
  funext ax; apply Fin.ext
  match ax with
  | ⟨0, _⟩ => rfl
  | ⟨1, _⟩ => rfl
  | ⟨2, _⟩ => rfl

/-- The sum over the middle axis of a rank-3 vector, read at (p, d). -/
theorem reduceAdd_mid3 {a b c : Nat} (v : FVec Ideal ⟨3, ![a, b, c]⟩ .f32) (acc : BitVec 32)
    (h : Shape.Reduces ⟨3, ![a, b, c]⟩ [1] ⟨2, ![a, c]⟩) (hφ : FKind.Formats .f32) (hacc : acc = FKind.add.neutral .f32 hφ)
    (p : Fin a) (d : Fin c) :
    multiReduction .add [1] ⟨2, ![a, c]⟩ v acc h hφ hacc (ix2 p d) = ∑ s : Fin b, v (ix3 p s d) := by
  rw [Ideal.multiReduction_add_single]
  show ∑ s : Fin b, v (h.lift (ix2 p d) s) = _
  refine Finset.sum_congr rfl fun s _ => congrArg v ?_
  funext ax; apply Fin.ext
  match ax with
  | ⟨0, _⟩ => rfl
  | ⟨1, _⟩ => rfl
  | ⟨2, _⟩ => rfl

/-- The sum over the last axis of a rank-2 vector, read at p. -/
theorem reduceAdd_last2 {a b : Nat} (v : FVec Ideal ⟨2, ![a, b]⟩ .f32) (acc : BitVec 32)
    (h : Shape.Reduces ⟨2, ![a, b]⟩ [1] ⟨1, ![a]⟩) (hφ : FKind.Formats .f32) (hacc : acc = FKind.add.neutral .f32 hφ)
    (p : Fin a) :
    multiReduction .add [1] ⟨1, ![a]⟩ v acc h hφ hacc (ix1 p) = ∑ s : Fin b, v (ix2 p s) := by
  rw [Ideal.multiReduction_add_single]
  show ∑ s : Fin b, v (h.lift (ix1 p) s) = _
  refine Finset.sum_congr rfl fun s _ => congrArg v ?_
  funext ax; apply Fin.ext
  match ax with
  | ⟨0, _⟩ => rfl
  | ⟨1, _⟩ => rfl

/-- The maximum over the last axis of a rank-2 vector, read at p: the fold of `max` from the accumulator's value. -/
theorem reduceMax_last2 {a b : Nat} (v : FVec Ideal ⟨2, ![a, b]⟩ .f32) (acc : BitVec 32)
    (h : Shape.Reduces ⟨2, ![a, b]⟩ [1] ⟨1, ![a]⟩) (hφ : FKind.Formats .f32) (hacc : acc = FKind.maximumf.neutral .f32 hφ)
    (p : Fin a) :
    multiReduction .maximumf [1] ⟨1, ![a]⟩ v acc h hφ hacc (ix1 p)
      = (Finset.univ : Finset (Fin b)).fold max (Ideal.ofBits .f32 acc) (fun s => v (ix2 p s)) := by
  rw [Ideal.multiReduction_maximumf_single]
  show (Finset.univ : Finset (Fin b)).fold max (Ideal.ofBits .f32 acc) (v ∘ h.lift (ix1 p)) = _
  congr 1
  funext s
  show v (h.lift (ix1 p) s) = _
  refine congrArg v ?_
  funext ax; apply Fin.ext
  match ax with
  | ⟨0, _⟩ => rfl
  | ⟨1, _⟩ => rfl

/-! ## A unit axis added, then broadcast along: three positions -/

/-- A vector [a] viewed [a, 1] and broadcast to [a, b] reads, at (p, s), the vector at p. -/
theorem keepCol2 {α : Type} {a b : Nat} (v : (⟨1, ![a]⟩ : Shape).Idx → α)
    (h1 : (⟨1, ![a]⟩ : Shape).ShapeCasts ⟨2, ![a, 1]⟩) (h2 : (⟨2, ![a, 1]⟩ : Shape).Broadcasts ⟨2, ![a, b]⟩)
    (p : Fin a) (s : Fin b) :
    broadcastTo ⟨2, ![a, b]⟩ (shapeCast ⟨2, ![a, 1]⟩ v h1) h2 (ix2 p s) = v (ix1 p) := by
  refine (broadcastTo_apply _ h2 (ix2 p s) (ix2 p (0 : Fin 1)) fun ax => ?_).trans
    (shapeCast_apply v h1 (ix2 p (0 : Fin 1)) (ix1 p) ?_)
  · match ax with
    | ⟨0, _⟩ =>
      show p.val = if a = 1 then 0 else p.val
      split
      · have := p.isLt; omega
      · rfl
    | ⟨1, _⟩ =>
      show (0 : ℕ) = if (1 : ℕ) = 1 then 0 else s.val
      rfl
  · rw [Shape.rowMajor_val_one, Shape.rowMajor_val_two]
    show p.val = p.val * 1 + 0
    omega

/-- A matrix [a, c] viewed [a, 1, c] and broadcast to [a, b, c] reads, at (p, s, d), the matrix at (p, d). -/
theorem keepMid3 {α : Type} {a b c : Nat} (v : (⟨2, ![a, c]⟩ : Shape).Idx → α)
    (h1 : (⟨2, ![a, c]⟩ : Shape).ShapeCasts ⟨3, ![a, 1, c]⟩) (h2 : (⟨3, ![a, 1, c]⟩ : Shape).Broadcasts ⟨3, ![a, b, c]⟩)
    (p : Fin a) (s : Fin b) (d : Fin c) :
    broadcastTo ⟨3, ![a, b, c]⟩ (shapeCast ⟨3, ![a, 1, c]⟩ v h1) h2 (ix3 p s d) = v (ix2 p d) := by
  refine (broadcastTo_apply _ h2 (ix3 p s d) (ix3 p (0 : Fin 1) d) fun ax => ?_).trans
    (shapeCast_apply v h1 (ix3 p (0 : Fin 1) d) (ix2 p d) ?_)
  · match ax with
    | ⟨0, _⟩ =>
      show p.val = if a = 1 then 0 else p.val
      split
      · have := p.isLt; omega
      · rfl
    | ⟨1, _⟩ =>
      show (0 : ℕ) = if (1 : ℕ) = 1 then 0 else s.val
      rfl
    | ⟨2, _⟩ =>
      show d.val = if c = 1 then 0 else d.val
      split
      · have := d.isLt; omega
      · rfl
  · rw [Shape.rowMajor_val_two, Shape.rowMajor_val_three]
    show p.val * c + d.val = (p.val * 1 + 0) * c + d.val
    simp

/-- A matrix [a, b] viewed [a, b, 1] and broadcast to [a, b, c] reads, at (p, s, d), the matrix at (p, s). -/
theorem keepLast3 {α : Type} {a b c : Nat} (v : (⟨2, ![a, b]⟩ : Shape).Idx → α)
    (h1 : (⟨2, ![a, b]⟩ : Shape).ShapeCasts ⟨3, ![a, b, 1]⟩) (h2 : (⟨3, ![a, b, 1]⟩ : Shape).Broadcasts ⟨3, ![a, b, c]⟩)
    (p : Fin a) (s : Fin b) (d : Fin c) :
    broadcastTo ⟨3, ![a, b, c]⟩ (shapeCast ⟨3, ![a, b, 1]⟩ v h1) h2 (ix3 p s d) = v (ix2 p s) := by
  refine (broadcastTo_apply _ h2 (ix3 p s d) (ix3 p s (0 : Fin 1)) fun ax => ?_).trans
    (shapeCast_apply v h1 (ix3 p s (0 : Fin 1)) (ix2 p s) ?_)
  · match ax with
    | ⟨0, _⟩ =>
      show p.val = if a = 1 then 0 else p.val
      split
      · have := p.isLt; omega
      · rfl
    | ⟨1, _⟩ =>
      show s.val = if b = 1 then 0 else s.val
      split
      · have := s.isLt; omega
      · rfl
    | ⟨2, _⟩ =>
      show (0 : ℕ) = if (1 : ℕ) = 1 then 0 else d.val
      rfl
  · rw [Shape.rowMajor_val_two, Shape.rowMajor_val_three]
    show p.val * b + s.val = (p.val * b + s.val) * 1 + 0
    omega

open Cert.ReferenceIdeal Cert.ReferenceIdeal.Gen Cert.RowSpec

/-! ## The body's intermediate vectors, named -/

/-- The logits of a block: the context times the projected query, summed over the features. -/
def logitsV (v0 : Vec Ideal S128x512 .f32) (v1 : Vec Ideal S128x64x256 .f32) (v2 : Vec Ideal S512x256 .f32) :
    FVec Ideal S128x64 .f32 :=
  multiReduction .add [2] S128x64
    (mulf v1 (broadcastTo S128x64x256
      (shapeCast S128x1x256
        (matmul (φ₁ := .f32) (φ₂ := .f32) dot_S128x512_S512x256_S128x256_1_0_0_1_n_n none v0 v2 (constant S128x256 .f32 0x00000000#32))
        shapeCasts_S128x256_S128x1x256)
      broadcasts_S128x1x256_S128x64x256))
    0x00000000#32 reduces_S128x64x256_S128x64 (.inl rfl) rfl

/-- The unnormalised weights of a block: the exponential of each logit less its row's largest. -/
def weightsV (v0 : Vec Ideal S128x512 .f32) (v1 : Vec Ideal S128x64x256 .f32) (v2 : Vec Ideal S512x256 .f32) :
    FVec Ideal S128x64 .f32 :=
  exp (subf (logitsV v0 v1 v2)
    (broadcastTo S128x64
      (shapeCast S128x1
        (multiReduction .maximumf [1] S128 (logitsV v0 v1 v2) 0xFF800000#32 reduces_S128x64_S128 (.inl rfl) rfl)
        shapeCasts_S128_S128x1)
      broadcasts_S128x1_S128x64))

/-- The first payload is the weights divided by their row totals. -/
theorem pay1_eq (v0 : Vec Ideal S128x512 .f32) (v1 : Vec Ideal S128x64x256 .f32) (v2 : Vec Ideal S512x256 .f32) :
    k0_pay1 (F := Ideal) v0 v1 v2 = divf (weightsV v0 v1 v2)
      (broadcastTo S128x64
        (shapeCast S128x1
          (multiReduction .add [1] S128 (weightsV v0 v1 v2) 0x00000000#32 reduces_S128x64_S128 (.inl rfl) rfl)
          shapeCasts_S128_S128x1)
        broadcasts_S128x1_S128x64) := rfl

/-- The weighted context of a block: the attention weights times the context, summed over the positions. -/
def mixV (v0 : Vec Ideal S128x512 .f32) (v1 : Vec Ideal S128x64x256 .f32) (v2 : Vec Ideal S512x256 .f32) :
    FVec Ideal S128x256 .f32 :=
  multiReduction .add [1] S128x256
    (mulf (broadcastTo S128x64x256
      (shapeCast S128x64x1 (k0_pay1 (F := Ideal) v0 v1 v2) shapeCasts_S128x64_S128x64x1)
      broadcasts_S128x64x1_S128x64x256) v1)
    0x00000000#32 reduces_S128x64x256_S128x256 (.inl rfl) rfl

/-- The second payload is the hyperbolic tangent of the two matrix products' sum. -/
theorem pay2_eq (v0 : Vec Ideal S128x512 .f32) (v1 : Vec Ideal S128x64x256 .f32) (v2 : Vec Ideal S512x256 .f32)
    (v21 : Vec Ideal S256x512 .f32) (v23 : Vec Ideal S512x512 .f32) :
    k0_pay2 (F := Ideal) v0 v1 v2 v21 v23 = tanh (addf
      (matmul (φ₁ := .f32) (φ₂ := .f32) dot_S128x256_S256x512_S128x512_1_0_0_1_n_n none (mixV v0 v1 v2) v21 (constant S128x512 .f32 0x00000000#32))
      (matmul (φ₁ := .f32) (φ₂ := .f32) dot_S128x512_S512x512_S128x512_1_0_0_1_n_n none v0 v23 (constant S128x512 .f32 0x00000000#32))) := rfl

/-! ## Each of them at an index -/

/-- The logit of row `p` at position `s`. -/
theorem logitsV_apply (v0 : Vec Ideal S128x512 .f32) (v1 : Vec Ideal S128x64x256 .f32) (v2 : Vec Ideal S512x256 .f32)
    (p : Fin 128) (s : Fin 64) :
    logitsV v0 v1 v2 (ix2 p s) = logit (rowOf v0 p) (slabOf v1 p) (matOf v2) s := by
  unfold logitsV
  refine (reduceAdd_last3 _ _ _ _ _ p s).trans ?_
  unfold logit
  refine Finset.sum_congr rfl fun d _ => ?_
  rw [mulf_apply]
  refine congrArg (v1 (ix3 p s d) * ·) ?_
  refine (keepMid3 _ _ _ p s d).trans ?_
  exact matmul_zero_ix2 dot_S128x512_S512x256_S128x256_1_0_0_1_n_n_wf none v0 v2 p d

/-- The unnormalised weight of row `p` at position `s`. -/
theorem weightsV_apply (v0 : Vec Ideal S128x512 .f32) (v1 : Vec Ideal S128x64x256 .f32) (v2 : Vec Ideal S512x256 .f32)
    (p : Fin 128) (s : Fin 64) :
    weightsV v0 v1 v2 (ix2 p s) = weight (rowOf v0 p) (slabOf v1 p) (matOf v2) s := by
  unfold weightsV
  show Ideal.exp (logitsV v0 v1 v2 (ix2 p s) - _) = _
  unfold weight
  refine congrArg Ideal.exp ?_
  rw [logitsV_apply]
  refine congrArg (logit (rowOf v0 p) (slabOf v1 p) (matOf v2) s - ·) ?_
  refine (keepCol2 _ _ _ p s).trans ?_
  refine (reduceMax_last2 _ _ _ _ _ p).trans ?_
  unfold top
  refine congrArg (Finset.fold max (Ideal.ofBits .f32 0xFF800000#32) · Finset.univ) ?_
  funext s'
  exact logitsV_apply v0 v1 v2 p s'

/-- The attention weight of row `p` at position `s`. -/
theorem pay1_apply (v0 : Vec Ideal S128x512 .f32) (v1 : Vec Ideal S128x64x256 .f32) (v2 : Vec Ideal S512x256 .f32)
    (p : Fin 128) (s : Fin 64) :
    k0_pay1 (F := Ideal) v0 v1 v2 (ix2 p s) = attn (rowOf v0 p) (slabOf v1 p) (matOf v2) s := by
  rw [pay1_eq, divf_apply, weightsV_apply]
  unfold attn
  refine congrArg (Ideal.div (weight (rowOf v0 p) (slabOf v1 p) (matOf v2) s) ·) ?_
  refine (keepCol2 _ _ _ p s).trans ?_
  refine (reduceAdd_last2 _ _ _ _ _ p).trans ?_
  unfold mass
  refine Finset.sum_congr rfl fun s' _ => ?_
  exact weightsV_apply v0 v1 v2 p s'

/-- The weighted context of row `p` at feature `d`. -/
theorem mixV_apply (v0 : Vec Ideal S128x512 .f32) (v1 : Vec Ideal S128x64x256 .f32) (v2 : Vec Ideal S512x256 .f32)
    (p : Fin 128) (d : Fin 256) :
    mixV v0 v1 v2 (ix2 p d) = mix (rowOf v0 p) (slabOf v1 p) (matOf v2) d := by
  unfold mixV
  refine (reduceAdd_mid3 _ _ _ _ _ p d).trans ?_
  unfold mix
  refine Finset.sum_congr rfl fun s _ => ?_
  rw [mulf_apply]
  refine congrArg (· * v1 (ix3 p s d)) ?_
  refine (keepLast3 _ _ _ p s d).trans ?_
  exact pay1_apply v0 v1 v2 p s

/-- The result of row `p` at column `q`. -/
theorem pay2_apply (v0 : Vec Ideal S128x512 .f32) (v1 : Vec Ideal S128x64x256 .f32) (v2 : Vec Ideal S512x256 .f32)
    (v21 : Vec Ideal S256x512 .f32) (v23 : Vec Ideal S512x512 .f32) (p : Fin 128) (q : Fin 512) :
    k0_pay2 (F := Ideal) v0 v1 v2 v21 v23 (ix2 p q)
      = out (rowOf v0 p) (slabOf v1 p) (matOf v2) (matOf v21) (matOf v23) q := by
  rw [pay2_eq]
  have e1 := matmul_zero_ix2 dot_S128x256_S256x512_S128x512_1_0_0_1_n_n_wf none (mixV v0 v1 v2) v21 p q
  have e2 := matmul_zero_ix2 dot_S128x512_S512x512_S128x512_1_0_0_1_n_n_wf none v0 v23 p q
  have e3 : (∑ d : Fin 256, mixV v0 v1 v2 (ix2 p d) * v21 (ix2 d q))
      = ∑ d : Fin 256, mix (rowOf v0 p) (slabOf v1 p) (matOf v2) d * matOf v21 d q :=
    Finset.sum_congr rfl fun d _ => by rw [mixV_apply]; rfl
  unfold out
  refine congrArg Ideal.tanh ?_
  exact congrArg₂ (· + ·) (e1.trans e3) e2

/-! ## The two stored blocks -/

theorem hz2 : (![0, 0] : Fin 2 → Nat) = fun _ => 0 := funext fun a => by fin_cases a <;> rfl
theorem hz3 : (![0, 0, 0] : Fin 3 → Nat) = fun _ => 0 := funext fun a => by fin_cases a <;> rfl

/-- The block of attention weights the body stores is the specification's weights array over the block's 128 rows. -/
theorem block_attn (x0 : Vec Ideal S128x512 .f32) (x1 : Vec Ideal S128x64x256 .f32) (x2 : Vec Ideal S512x256 .f32)
    (x3 : Vec Ideal S256x512 .f32) (x4 : Vec Ideal S512x512 .f32) :
    Cert.ReferenceIdeal.Gen.out0_6 (F := Ideal) x0 x1 x2 x3 x4 = Cert.RowSpec.attnArray (B := 128) x0 x1 x2 := by
  unfold out0_6
  rw [View.canon_unit_zero hz2]
  simp only [View.ld_unit_zero (S := S128x512) hz2, View.ld_unit_zero (S := S128x64x256) hz3,
    View.ld_unit_zero (S := S512x256) hz2]
  funext j
  obtain ⟨p, s, rfl⟩ : ∃ (p : Fin 128) (s : Fin 64), j = ix2 p s := ⟨j 0, j 1, eq_ix2 j⟩
  rw [pay1_apply]
  rfl

/-- The block of results the body stores is the specification's result array over the block's 128 rows. -/
theorem block_out (x0 : Vec Ideal S128x512 .f32) (x1 : Vec Ideal S128x64x256 .f32) (x2 : Vec Ideal S512x256 .f32)
    (x3 : Vec Ideal S256x512 .f32) (x4 : Vec Ideal S512x512 .f32) :
    Cert.ReferenceIdeal.Gen.out0_5 (F := Ideal) x0 x1 x2 x3 x4 = Cert.RowSpec.outArray (B := 128) x0 x1 x2 x3 x4 := by
  unfold out0_5
  rw [View.canon_unit_zero hz2]
  simp only [View.ld_unit_zero (S := S128x512) hz2, View.ld_unit_zero (S := S128x64x256) hz3,
    View.ld_unit_zero (S := S512x256) hz2, View.ld_unit_zero (S := S256x512) hz2, View.ld_unit_zero (S := S512x512) hz2]
  funext j
  obtain ⟨p, q, rfl⟩ : ∃ (p : Fin 128) (q : Fin 512), j = ix2 p q := ⟨j 0, j 1, eq_ix2 j⟩
  rw [pay2_apply]
  rfl

end Cert.RefSide

end
-- ==== Proof.RefArray.lean ====
/-
  From the reference's blocks to its two result arrays, and its run.

  The reference's one region walks a grid of 15 points; point `t` works on rows `128 t … 128 t + 127` of the queries and
  the contexts and on the three weight matrices whole, and writes back rows `128 t … 128 t + 127` of the two results.
  Each row of the specification's arrays depends on that row's data alone, so block `t` of the specification's array over
  all 1920 rows is the specification's array over the 128 rows of block `t`; the 15 blocks cover the rows; hence each
  result array ends holding the specification's array of the argument arrays.
-/
import proofs.«106149_g2000304853130043_pallasbulk_1157_21_alg».proof.Proof.Gen.ReferenceIdeal.Value
import proofs.«106149_g2000304853130043_pallasbulk_1157_21_alg».proof.Proof.RowSpec
import proofs.«106149_g2000304853130043_pallasbulk_1157_21_alg».proof.Proof.RefBlock
import Idealize.ShloMosaic.Lib.Pipeline.Value
import Idealize.ShloMosaic.Lib.ValueIdx

noncomputable section

namespace Cert.RefSide

open Idealize.ShloMosaic Idealize.ShloMosaic.TcCoe Idealize.ShloMosaic.ValueIdx Idealize.SL.Sem
open Idealize.ShloMosaic.Pipeline (Dat)
open Cert.ReferenceIdeal Cert.ReferenceIdeal.Gen Cert.ReferenceIdeal.Value Cert.RowSpec

variable (m : (ℓ : Loc nD τ sig) → Buf (Elt Ideal) ℓ) (ρ : Dev nD → PrngReg)

/-! ## A block of the specification's arrays is the specification's array of the blocks -/

/-- The result array over 128 rows at `y` is the result array over 1920 rows at `i`, when row `y 0` of the block's
    queries and contexts is row `i 0` of the arrays', the weight matrices are the same and the columns agree. -/
theorem outArray_block (H : S1920x512.Idx → EReal) (X : S1920x64x256.Idx → EReal) (Win : S512x256.Idx → EReal)
    (Wc : S256x512.Idx → EReal) (Wh : S512x512.Idx → EReal)
    (h : S128x512.Idx → EReal) (x : S128x64x256.Idx → EReal) (win' : S512x256.Idx → EReal)
    (wc' : S256x512.Idx → EReal) (wh' : S512x512.Idx → EReal) (y : S128x512.Idx) (i : S1920x512.Idx)
    (hh : ∀ k : Fin 512, h (ix2 (y 0) k) = H (ix2 (i 0) k))
    (hx : ∀ (s : Fin 64) (d : Fin 256), x (ix3 (y 0) s d) = X (ix3 (i 0) s d))
    (hwin : win' = Win) (hwc : wc' = Wc) (hwh : wh' = Wh) (hq : (y 1).val = (i 1).val) :
    outArray (B := 128) h x win' wc' wh' y = outArray (B := 1920) H X Win Wc Wh i := by
  subst hwin hwc hwh
  have e1 : rowOf h (y 0) = rowOf H (i 0) := funext hh
  have e2 : slabOf x (y 0) = slabOf X (i 0) := funext fun s => funext fun d => hx s d
  have e3 : (y 1 : Fin 512) = i 1 := Fin.ext hq
  show out (rowOf h (y 0)) (slabOf x (y 0)) (matOf win') (matOf wc') (matOf wh') (y 1)
    = out (rowOf H (i 0)) (slabOf X (i 0)) (matOf win') (matOf wc') (matOf wh') (i 1)
  rw [e1, e2, e3]

/-- The weights array over 128 rows at `y` is the weights array over 1920 rows at `i`, likewise. -/
theorem attnArray_block (H : S1920x512.Idx → EReal) (X : S1920x64x256.Idx → EReal) (Win : S512x256.Idx → EReal)
    (h : S128x512.Idx → EReal) (x : S128x64x256.Idx → EReal) (win' : S512x256.Idx → EReal)
    (y : S128x64.Idx) (i : S1920x64.Idx)
    (hh : ∀ k : Fin 512, h (ix2 (y 0) k) = H (ix2 (i 0) k))
    (hx : ∀ (s : Fin 64) (d : Fin 256), x (ix3 (y 0) s d) = X (ix3 (i 0) s d))
    (hwin : win' = Win) (hq : (y 1).val = (i 1).val) :
    attnArray (B := 128) h x win' y = attnArray (B := 1920) H X Win i := by
  subst hwin
  have e1 : rowOf h (y 0) = rowOf H (i 0) := funext hh
  have e2 : slabOf x (y 0) = slabOf X (i 0) := funext fun s => funext fun d => hx s d
  have e3 : (y 1 : Fin 64) = i 1 := Fin.ext hq
  show attn (rowOf h (y 0)) (slabOf x (y 0)) (matOf win') (y 1) = attn (rowOf H (i 0)) (slabOf X (i 0)) (matOf win') (i 1)
  rw [e1, e2, e3]

/-! ## The index maps, decided over the grid -/

/-- At every point: the queries' and the contexts' blocks sit at the results' row block and at column block 0, the
    weight matrices are block 0, and the two results' blocks sit at the same row block and at column block 0. -/
theorem idx_facts : ∀ t : Fin cfg0.N,
    win0_0.index t (0 : Fin 2) = win0_5.index t (0 : Fin 2) ∧ win0_0.index t (1 : Fin 2) = 0
    ∧ win0_1.index t (0 : Fin 3) = win0_5.index t (0 : Fin 2) ∧ win0_1.index t (1 : Fin 3) = 0
    ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0
    ∧ win0_6.index t (0 : Fin 2) = win0_5.index t (0 : Fin 2) ∧ win0_6.index t (1 : Fin 2) = 0 :=
  (by decide +kernel : ∀ t : Fin grid0.N, _)

/-- Every one of the 15 row blocks is some point's, for either result. -/
theorem idx_onto5 : ∀ q : Fin 15, ∃ t : Fin cfg0.N, win0_5.index t = ![q.val, 0] :=
  (by decide +kernel : ∀ q : Fin 15, ∃ t : Fin grid0.N, win0_5.index t = ![q.val, 0])
theorem idx_onto6 : ∀ q : Fin 15, ∃ t : Fin cfg0.N, win0_6.index t = ![q.val, 0] :=
  (by decide +kernel : ∀ q : Fin 15, ∃ t : Fin grid0.N, win0_6.index t = ![q.val, 0])

/-! ## What each point writes back -/

/-- Point `t`'s write-back to the result array is block `t` of the specification's result array of the argument arrays. -/
theorem flushed5_eq (c : Dev nD) (t : Fin cfg0.N) :
    (dats m 0 c).flushed 5 t = ((cfg0.win 5).blk t).view.read (Elt Ideal)
      (outArray (B := 1920) (V m c main_arg0) (V m c main_arg1) (V m c main_arg2) (V m c main_arg3) (V m c main_arg4)) := by
  rw [Value.flushed5]
  rw [show out0_5 (iblk m c 0 t) (iblk m c 1 t) (iblk m c 2 t) (iblk m c 3 t) (iblk m c 4 t)
      = outArray (B := 128) (iblk m c 0 t) (iblk m c 1 t) (iblk m c 2 t) (iblk m c 3 t) (iblk m c 4 t) from block_out _ _ _ _ _]
  obtain ⟨e00, e01, e10, e11, e12, e20, e21, e30, e31, e40, e41, e51, e60, e61⟩ := idx_facts t
  funext j
  show outArray (B := 128) (iblk m c 0 t) (iblk m c 1 t) (iblk m c 2 t) (iblk m c 3 t) (iblk m c 4 t) j
    = outArray (B := 1920) (V m c main_arg0) (V m c main_arg1) (V m c main_arg2) (V m c main_arg3) (V m c main_arg4)
        (((cfg0.win 5).blk t).view.emb j)
  refine outArray_block _ _ _ _ _ _ _ _ _ _ j (((cfg0.win 5).blk t).view.emb j) (fun k => ?_) (fun s d => ?_) ?_ ?_ ?_ ?_
  · show V m c main_arg0 (((cfg0.win 0).blk t).view.emb (ix2 (j 0) k)) = V m c main_arg0 (ix2 ((((cfg0.win 5).blk t).view.emb j) 0) k)
    refine congrArg (V m c main_arg0) (funext fun a => Fin.ext ?_)
    match a with
    | ⟨0, _⟩ => show win0_0.index t (0 : Fin 2) * 128 + 1 * (j 0).val = win0_5.index t (0 : Fin 2) * 128 + 1 * (j 0).val; rw [e00]
    | ⟨1, _⟩ => show win0_0.index t (1 : Fin 2) * 512 + 1 * k.val = k.val; rw [e01]; omega
  · show V m c main_arg1 (((cfg0.win 1).blk t).view.emb (ix3 (j 0) s d)) = V m c main_arg1 (ix3 ((((cfg0.win 5).blk t).view.emb j) 0) s d)
    refine congrArg (V m c main_arg1) (funext fun a => Fin.ext ?_)
    match a with
    | ⟨0, _⟩ => show win0_1.index t (0 : Fin 3) * 128 + 1 * (j 0).val = win0_5.index t (0 : Fin 2) * 128 + 1 * (j 0).val; rw [e10]
    | ⟨1, _⟩ => show win0_1.index t (1 : Fin 3) * 64 + 1 * s.val = s.val; rw [e11]; omega
    | ⟨2, _⟩ => show win0_1.index t (2 : Fin 3) * 256 + 1 * d.val = d.val; rw [e12]; omega
  · funext y
    show V m c main_arg2 (((cfg0.win 2).blk t).view.emb y) = V m c main_arg2 y
    refine congrArg (V m c main_arg2) (funext fun a => Fin.ext ?_)
    match a with
    | ⟨0, _⟩ => show win0_2.index t (0 : Fin 2) * 512 + 1 * (y 0).val = (y 0).val; rw [e20]; omega
    | ⟨1, _⟩ => show win0_2.index t (1 : Fin 2) * 256 + 1 * (y 1).val = (y 1).val; rw [e21]; omega
  · funext y
    show V m c main_arg3 (((cfg0.win 3).blk t).view.emb y) = V m c main_arg3 y
    refine congrArg (V m c main_arg3) (funext fun a => Fin.ext ?_)
    match a with
    | ⟨0, _⟩ => show win0_3.index t (0 : Fin 2) * 256 + 1 * (y 0).val = (y 0).val; rw [e30]; omega
    | ⟨1, _⟩ => show win0_3.index t (1 : Fin 2) * 512 + 1 * (y 1).val = (y 1).val; rw [e31]; omega
  · funext y
    show V m c main_arg4 (((cfg0.win 4).blk t).view.emb y) = V m c main_arg4 y
    refine congrArg (V m c main_arg4) (funext fun a => Fin.ext ?_)
    match a with
    | ⟨0, _⟩ => show win0_4.index t (0 : Fin 2) * 512 + 1 * (y 0).val = (y 0).val; rw [e40]; omega
    | ⟨1, _⟩ => show win0_4.index t (1 : Fin 2) * 512 + 1 * (y 1).val = (y 1).val; rw [e41]; omega
  · show (j 1).val = win0_5.index t (1 : Fin 2) * 512 + 1 * (j 1).val
    rw [e51]; omega

/-- Point `t`'s write-back to the weights array is block `t` of the specification's weights array of the argument arrays. -/
theorem flushed6_eq (c : Dev nD) (t : Fin cfg0.N) :
    (dats m 0 c).flushed 6 t = ((cfg0.win 6).blk t).view.read (Elt Ideal)
      (attnArray (B := 1920) (V m c main_arg0) (V m c main_arg1) (V m c main_arg2)) := by
  rw [Value.flushed6]
  rw [show out0_6 (iblk m c 0 t) (iblk m c 1 t) (iblk m c 2 t) (iblk m c 3 t) (iblk m c 4 t)
      = attnArray (B := 128) (iblk m c 0 t) (iblk m c 1 t) (iblk m c 2 t) from block_attn _ _ _ _ _]
  obtain ⟨e00, e01, e10, e11, e12, e20, e21, e30, e31, e40, e41, e51, e60, e61⟩ := idx_facts t
  funext j
  show attnArray (B := 128) (iblk m c 0 t) (iblk m c 1 t) (iblk m c 2 t) j
    = attnArray (B := 1920) (V m c main_arg0) (V m c main_arg1) (V m c main_arg2) (((cfg0.win 6).blk t).view.emb j)
  refine attnArray_block _ _ _ _ _ _ j (((cfg0.win 6).blk t).view.emb j) (fun k => ?_) (fun s d => ?_) ?_ ?_
  · show V m c main_arg0 (((cfg0.win 0).blk t).view.emb (ix2 (j 0) k)) = V m c main_arg0 (ix2 ((((cfg0.win 6).blk t).view.emb j) 0) k)
    refine congrArg (V m c main_arg0) (funext fun a => Fin.ext ?_)
    match a with
    | ⟨0, _⟩ => show win0_0.index t (0 : Fin 2) * 128 + 1 * (j 0).val = win0_6.index t (0 : Fin 2) * 128 + 1 * (j 0).val; rw [e00, e60]
    | ⟨1, _⟩ => show win0_0.index t (1 : Fin 2) * 512 + 1 * k.val = k.val; rw [e01]; omega
  · show V m c main_arg1 (((cfg0.win 1).blk t).view.emb (ix3 (j 0) s d)) = V m c main_arg1 (ix3 ((((cfg0.win 6).blk t).view.emb j) 0) s d)
    refine congrArg (V m c main_arg1) (funext fun a => Fin.ext ?_)
    match a with
    | ⟨0, _⟩ => show win0_1.index t (0 : Fin 3) * 128 + 1 * (j 0).val = win0_6.index t (0 : Fin 2) * 128 + 1 * (j 0).val; rw [e10, e60]
    | ⟨1, _⟩ => show win0_1.index t (1 : Fin 3) * 64 + 1 * s.val = s.val; rw [e11]; omega
    | ⟨2, _⟩ => show win0_1.index t (2 : Fin 3) * 256 + 1 * d.val = d.val; rw [e12]; omega
  · funext y
    show V m c main_arg2 (((cfg0.win 2).blk t).view.emb y) = V m c main_arg2 y
    refine congrArg (V m c main_arg2) (funext fun a => Fin.ext ?_)
    match a with
    | ⟨0, _⟩ => show win0_2.index t (0 : Fin 2) * 512 + 1 * (y 0).val = (y 0).val; rw [e20]; omega
    | ⟨1, _⟩ => show win0_2.index t (1 : Fin 2) * 256 + 1 * (y 1).val = (y 1).val; rw [e21]; omega
  · show (j 1).val = win0_6.index t (1 : Fin 2) * 64 + 1 * (j 1).val
    rw [e61]; omega

/-! ## The blocks cover the arrays -/

/-- An index of the result array is in point `t`'s block iff each coordinate is in the block's range on its axis. -/
theorem mem_blk5 (t : Fin cfg0.N) (i : S1920x512.Idx) :
    i ∈ ((cfg0.win 5).blk t).view.set ↔ ∀ a : Fin 2, win0_5.index t a * S128x512.size a ≤ (i a).val
      ∧ (i a).val < win0_5.index t a * S128x512.size a + S128x512.size a := by
  show i ∈ ((View.whole main_v0_0).slice (win0_5.rect t)).set ↔ _
  rw [View.set_slice_whole, Rect.mem_set_unit]
  exact Iff.rfl

/-- An index of the weights array is in point `t`'s block iff each coordinate is in the block's range on its axis. -/
theorem mem_blk6 (t : Fin cfg0.N) (i : S1920x64.Idx) :
    i ∈ ((cfg0.win 6).blk t).view.set ↔ ∀ a : Fin 2, win0_6.index t a * S128x64.size a ≤ (i a).val
      ∧ (i a).val < win0_6.index t a * S128x64.size a + S128x64.size a := by
  show i ∈ ((View.whole main_v0_1).slice (win0_6.rect t)).set ↔ _
  rw [View.set_slice_whole, Rect.mem_set_unit]
  exact Iff.rfl

/-- Row `r` of the result array is in the block of the point whose row block is `r / 128`. -/
theorem cover5 (i : S1920x512.Idx) :
    ∃ t : Fin cfg0.N, (cfg0.win 5).flush t = true ∧ i ∈ ((cfg0.win 5).blk t).view.set := by
  have hi0 : (i 0).val < 1920 := (i 0).isLt
  have hi1 : (i 1).val < 512 := (i 1).isLt
  obtain ⟨t, ht⟩ := idx_onto5 ⟨(i 0).val / 128, by omega⟩
  have q0 : win0_5.index t (0 : Fin 2) = (i 0).val / 128 := congrFun ht 0
  have q1 : win0_5.index t (1 : Fin 2) = 0 := congrFun ht 1
  refine ⟨t, flush0_5 t, ?_⟩
  rw [mem_blk5]
  intro a
  match a with
  | ⟨0, _⟩ => show win0_5.index t (0 : Fin 2) * 128 ≤ (i 0).val ∧ (i 0).val < win0_5.index t (0 : Fin 2) * 128 + 128; omega
  | ⟨1, _⟩ => show win0_5.index t (1 : Fin 2) * 512 ≤ (i 1).val ∧ (i 1).val < win0_5.index t (1 : Fin 2) * 512 + 512; omega

/-- Row `r` of the weights array is in the block of the point whose row block is `r / 128`. -/
theorem cover6 (i : S1920x64.Idx) :
    ∃ t : Fin cfg0.N, (cfg0.win 6).flush t = true ∧ i ∈ ((cfg0.win 6).blk t).view.set := by
  have hi0 : (i 0).val < 1920 := (i 0).isLt
  have hi1 : (i 1).val < 64 := (i 1).isLt
  obtain ⟨t, ht⟩ := idx_onto6 ⟨(i 0).val / 128, by omega⟩
  have q0 : win0_6.index t (0 : Fin 2) = (i 0).val / 128 := congrFun ht 0
  have q1 : win0_6.index t (1 : Fin 2) = 0 := congrFun ht 1
  refine ⟨t, flush0_6 t, ?_⟩
  rw [mem_blk6]
  intro a
  match a with
  | ⟨0, _⟩ => show win0_6.index t (0 : Fin 2) * 128 ≤ (i 0).val ∧ (i 0).val < win0_6.index t (0 : Fin 2) * 128 + 128; omega
  | ⟨1, _⟩ => show win0_6.index t (1 : Fin 2) * 64 ≤ (i 1).val ∧ (i 1).val < win0_6.index t (1 : Fin 2) * 64 + 64; omega

/-! ## The arrays after the run, and the run -/

/-- The result array ends holding the specification's result array of the arguments. -/
theorem final5 (c : Dev nD) : (dats m 0 c).arrAt 5 cfg0.N
    = outArray (B := 1920) (m ((c : Thread nD τ).loc main_arg0)) (m ((c : Thread nD τ).loc main_arg1))
        (m ((c : Thread nD τ).loc main_arg2)) (m ((c : Thread nD τ).loc main_arg3)) (m ((c : Thread nD τ).loc main_arg4)) :=
  (dats m 0 c).arrAt_eq_of_cover 5
    (outArray (B := 1920) (V m c main_arg0) (V m c main_arg1) (V m c main_arg2) (V m c main_arg3) (V m c main_arg4))
    (fun t _ => flushed5_eq m c t) cover5

/-- The weights array ends holding the specification's weights array of the arguments. -/
theorem final6 (c : Dev nD) : (dats m 0 c).arrAt 6 cfg0.N
    = attnArray (B := 1920) (m ((c : Thread nD τ).loc main_arg0)) (m ((c : Thread nD τ).loc main_arg1))
        (m ((c : Thread nD τ).loc main_arg2)) :=
  (dats m 0 c).arrAt_eq_of_cover 6
    (attnArray (B := 1920) (V m c main_arg0) (V m c main_arg1) (V m c main_arg2))
    (fun t _ => flushed6_eq m c t) cover6

/-- The reference's run: every weakly fair execution ends with the two result arrays at the specification's arrays of
    the argument arrays, the arguments unchanged. -/
theorem run : θ_run (Cert.ReferenceIdeal.defs (F := Ideal)) (onTc (τ := Cert.ReferenceIdeal.τ) (Cert.ReferenceIdeal.main (F := Ideal)))
    ⟨m, fun _ => 0, ρ⟩ (fun r => ∀ c : Dev Cert.ReferenceIdeal.nD,
      r.2.mem ((c : Thread nD τ).loc main_v0_0)
        = Cert.RowSpec.outArray (B := 1920) (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c : Thread nD τ).loc main_v0_1)
        = Cert.RowSpec.attnArray (B := 1920) (m ((c : Thread nD τ).loc main_arg0)) (m ((c : Thread nD τ).loc main_arg1))
            (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  (θ_run defs _ _).mono (fun r h c => ⟨(h c).1.trans (final5 m c), (h c).2.1.trans (final6 m c), (h c).2.2⟩)
    (Value.run_blocks m ρ)

end Cert.RefSide

end
-- ==== Proof.lean ====
/-
  Soft dot-product attention: an optimized kernel against its reference, at the exact (extended-real) reading.

  Both programs compute, independently for each of the 1920 batch rows: the query row projected by `W_in`; each of the
  64 context positions' inner product with that target; the softmax of those logits; the attention-weighted sum of the
  context rows; and `tanh` of that sum times `W_c` plus the query row times `W_h`. They return the `tanh` rows and the
  attention weights (Proof/RowSpec.lean states this as two whole-array functions).

  The reference works on blocks of 128 rows and spells the formulas as they are written above. The kernel works on
  blocks of 240 rows, eight rows at a time: the eight rows' inner products with their own context rows are taken out
  of one 8 × 512 product by multiplying with the 8 × 8 identity and summing (a term `x · 0` is `0` and `x · 1` is `x` on
  every extended real, so only the diagonal survives), the weighted sum likewise through a block-diagonal spreading of
  the weights; its narrowing casts are the identity here. The one place where the two differ as formulas is the
  softmax's normalisation: the kernel multiplies by `1 / total`, the reference divides by `total`. These agree exactly
  when `total ≠ 0`; the total is a sum of exponentials of real numbers, hence positive, because the inputs are finite.
  That is the only use of the precondition.

  Each side's result arrays are then one function of the argument arrays (Proof/KernelArray.lean for the kernel's eight
  blocks, Proof/RefArray.lean for the reference's fifteen), the same function, so the two runs end equal.
-/
import proofs.«106149_g2000304853130043_pallasbulk_1157_21_alg».proof.Defs
import proofs.«106149_g2000304853130043_pallasbulk_1157_21_alg».proof.Proof.Gen.Kernel
import proofs.«106149_g2000304853130043_pallasbulk_1157_21_alg».proof.Proof.Gen.Kernel.Skeleton
import proofs.«106149_g2000304853130043_pallasbulk_1157_21_alg».proof.Proof.Gen.Kernel.Launch
import proofs.«106149_g2000304853130043_pallasbulk_1157_21_alg».proof.Proof.Gen.Kernel.Points
import proofs.«106149_g2000304853130043_pallasbulk_1157_21_alg».proof.Proof.Gen.Kernel.Frame
import proofs.«106149_g2000304853130043_pallasbulk_1157_21_alg».proof.Proof.Gen.KernelIdeal
import proofs.«106149_g2000304853130043_pallasbulk_1157_21_alg».proof.Proof.Gen.KernelIdeal.Skeleton
import proofs.«106149_g2000304853130043_pallasbulk_1157_21_alg».proof.Proof.Gen.KernelIdeal.Launch
import proofs.«106149_g2000304853130043_pallasbulk_1157_21_alg».proof.Proof.Gen.KernelIdeal.Points
import proofs.«106149_g2000304853130043_pallasbulk_1157_21_alg».proof.Proof.Gen.KernelIdeal.Frame
import proofs.«106149_g2000304853130043_pallasbulk_1157_21_alg».proof.Proof.Gen.ReferenceIdeal
import proofs.«106149_g2000304853130043_pallasbulk_1157_21_alg».proof.Proof.Gen.ReferenceIdeal.Skeleton
import proofs.«106149_g2000304853130043_pallasbulk_1157_21_alg».proof.Proof.Gen.ReferenceIdeal.Launch
import proofs.«106149_g2000304853130043_pallasbulk_1157_21_alg».proof.Proof.Gen.ReferenceIdeal.Points
import proofs.«106149_g2000304853130043_pallasbulk_1157_21_alg».proof.Proof.Gen.ReferenceIdeal.Frame
import proofs.«106149_g2000304853130043_pallasbulk_1157_21_alg».proof.Proof.Gen.Pre_finite_inputs
import proofs.«106149_g2000304853130043_pallasbulk_1157_21_alg».proof.Proof.Gen.KernelIdeal.Value
import proofs.«106149_g2000304853130043_pallasbulk_1157_21_alg».proof.Proof.Gen.ReferenceIdeal.Value
import proofs.«106149_g2000304853130043_pallasbulk_1157_21_alg».proof.Proof.RowSpec
import proofs.«106149_g2000304853130043_pallasbulk_1157_21_alg».proof.Proof.KernelArray
import proofs.«106149_g2000304853130043_pallasbulk_1157_21_alg».proof.Proof.RefArray
import Idealize.ShloMosaic.Adequacy
import Idealize.ShloMosaic.Init

noncomputable section

namespace Cert.Proof

open Idealize.ShloMosaic Idealize.SL.Sem Cert.Kernel

/-- Each program runs to the end without a fault and leaves its arguments as they were. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- The exact reading of the kernel is the kernel's own text: no operation was rewritten. -/
theorem preserves : Cert.preserves_Kernel_KernelIdeal := trivial

/-- From memories that agree on the five arguments, both programs end with the specification's two arrays of those
    arguments: the kernel's run under the finiteness of its inputs, the reference's unconditionally. -/
theorem algebraic : Cert.algebraic_KernelIdeal_ReferenceIdeal := by
  intro m ρ m' ρ' hpre hagree
  refine ⟨_, _, Cert.KernelSide.run m ρ hpre, ?_⟩
  refine (θ_run Cert.ReferenceIdeal.defs _ _).mono (fun r h c => ?_) (Cert.RefSide.run m' ρ')
  obtain ⟨h5, h6, a0, a1, a2, a3, a4⟩ := h c
  obtain ⟨e0, e1, e2, e3, e4⟩ := hagree c
  refine ⟨?_, ?_, a0, a1, a2, a3, a4⟩
  · rw [h5, e0, e1, e2, e3, e4]
  · rw [h6, e0, e1, e2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
